-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1600000x128 : Shape := ⟨2, ![1600000, 128]⟩
abbrev S1x40 : Shape := ⟨2, ![1, 40]⟩
abbrev S100000x40 : Shape := ⟨2, ![100000, 40]⟩
abbrev S2000x40 : Shape := ⟨2, ![2000, 40]⟩
abbrev S1600000x40 : Shape := ⟨2, ![1600000, 40]⟩
abbrev S2000 : Shape := ⟨1, ![2000]⟩

abbrev nBuf : Space → Nat
  | .hbm => 142
  | .vmem => 52
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000, .f32⟩
  | 23 => ⟨S100000x1, .f32⟩
  | 24 => ⟨S1x128, .f32⟩
  | 25 => ⟨S100000x128, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S1600000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S1600000x1, .f32⟩
  | 95 => ⟨S1600000x128, .f32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x128, .f32⟩
  | 102 => ⟨S1x40, .f32⟩
  | 103 => ⟨S100000x40, .f32⟩
  | 104 => ⟨S100000x40, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S1600000, .f32⟩
  | 124 => ⟨S_, .i32⟩
  | 125 => ⟨S1600000, .i32⟩
  | 126 => ⟨S1600000, .i1⟩
  | 127 => ⟨S_, .i32⟩
  | _ => ⟨S100000x256, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x40, .f32⟩
  | 5 => ⟨S1600000x1, .f32⟩
  | 6 => ⟨S1600000x40, .f32⟩
  | 7 => ⟨S1600000x40, .f32⟩
  | 8 => ⟨S_, .f32⟩
  | 9 => ⟨S100000x40, .f32⟩
  | 10 => ⟨S1600000x1, .i32⟩
  | 11 => ⟨S100000x40, .f32⟩
  | 12 => ⟨S100000x40, .f32⟩
  | 13 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x40, .f32⟩
  | .local _ .vmem, ⟨35, _⟩ => ⟨S2000x1, .f32⟩
  | .local _ .vmem, ⟨36, _⟩ => ⟨S2000x1, .f32⟩
  | .local _ .vmem, ⟨37, _⟩ => ⟨S1x40, .f32⟩
  | .local _ .vmem, ⟨38, _⟩ => ⟨S2000x40, .f32⟩
  | .local _ .vmem, ⟨39, _⟩ => ⟨S2000x40, .f32⟩
  | .local _ .vmem, ⟨40, _⟩ => ⟨S2000x40, .f32⟩
  | .local _ .vmem, ⟨41, _⟩ => ⟨S2000x40, .f32⟩
  | .local _ .vmem, ⟨42, _⟩ => ⟨S2000x40, .f32⟩
  | .local _ .vmem, ⟨43, _⟩ => ⟨S2000x40, .f32⟩
  | .local _ .vmem, ⟨44, _⟩ => ⟨S2000x40, .f32⟩
  | .local _ .vmem, ⟨45, _⟩ => ⟨S2000x40, .f32⟩
  | .local _ .vmem, ⟨46, _⟩ => ⟨S2000x40, .f32⟩
  | .local _ .vmem, ⟨47, _⟩ => ⟨S2000x40, .f32⟩
  | .local _ .vmem, ⟨48, _⟩ => ⟨S2000x40, .f32⟩
  | .local _ .vmem, ⟨49, _⟩ => ⟨S2000x40, .f32⟩
  | .local _ .vmem, ⟨50, _⟩ => ⟨S2000x40, .f32⟩
  | .local _ .vmem, ⟨51, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76_0 : Ref sig .tc := ⟨.hbm, 103, rfl⟩
abbrev main_v76_1 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_17 : Ref sig .tc := ⟨.hbm, 114, rfl⟩
abbrev main_v84 : Ref sig .tc := ⟨.hbm, 115, rfl⟩
abbrev main_v85 : Ref sig .tc := ⟨.hbm, 116, rfl⟩
abbrev main_c_18 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_19 : Ref sig .tc := ⟨.hbm, 124, rfl⟩
abbrev main_v92 : Ref sig .tc := ⟨.hbm, 125, rfl⟩
abbrev main_v93 : Ref sig .tc := ⟨.hbm, 126, rfl⟩
abbrev main_c_20 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_21 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem4_1 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x40 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x40 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S40_S1x40 : S40.ShapeCasts S1x40
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S2000x40_S2000x40 : S2000x40.ShapeCasts S2000x40
  reduces_S2000x40_S2000 : S2000x40.Reduces [1] S2000
  shapeCasts_S2000_S2000x1 : S2000.ShapeCasts S2000x1
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x40.size a ≤ S100000x40.size a
  hwx4_4 : ∀ i : grid4.Coords, EltTy.bits .f32 = 32 ∨ (Rect.block (s := S100000x40) S2000x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x40.size a ≤ S100000x40.size a
  hwx4_5 : ∀ i : grid4.Coords, EltTy.bits .f32 = 32 ∨ (Rect.block (s := S100000x40) S2000x40.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S100000x40.size a
  hwx5_0 : ∀ i : grid5.Coords, EltTy.bits .f32 = 32 ∨ (Rect.block (s := S100000x40) S2000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x40.size a ≤ S100000x40.size a
  hwx5_1 : ∀ i : grid5.Coords, EltTy.bits .f32 = 32 ∨ (Rect.block (s := S100000x40) S2000x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S100000x40.size a
  hwx5_2 : ∀ i : grid5.Coords, EltTy.bits .f32 = 32 ∨ (Rect.block (s := S100000x40) S2000x40.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x40.size a ≤ S100000x40.size a
  hwx6_0 : ∀ i : grid6.Coords, EltTy.bits .f32 = 32 ∨ (Rect.block (s := S100000x40) S2000x40.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x40.size a ≤ S100000x40.size a
  hwx6_1 : ∀ i : grid6.Coords, EltTy.bits .f32 = 32 ∨ (Rect.block (s := S100000x40) S2000x40.size (cc6_transform_1 i) (hinb6_1 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76_0) S2000x40.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v76_1) S2000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v104) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76_1) S2000x40.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v105) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v105) S2000x40.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S2000x40.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 175
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000, .f32⟩
  | 106 => ⟨S100000x1, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x40, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S_, .i32⟩
  | 127 => ⟨S1600000, .i32⟩
  | _ => ⟨S100000x256, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S1600000, .f32⟩
  | 8 => ⟨S1600000x1, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x40, .f32⟩
  | 18 => ⟨S1600000x40, .f32⟩
  | 19 => ⟨S1600000x40, .f32⟩
  | 20 => ⟨S_, .f32⟩
  | 21 => ⟨S100000x40, .f32⟩
  | 22 => ⟨S1600000x1, .i32⟩
  | 23 => ⟨S100000x40, .f32⟩
  | 24 => ⟨S100000, .f32⟩
  | 25 => ⟨S100000x1, .f32⟩
  | 26 => ⟨S100000x40, .f32⟩
  | 27 => ⟨S100000x40, .f32⟩
  | 28 => ⟨S100000x40, .f32⟩
  | 29 => ⟨S1x40, .f32⟩
  | 30 => ⟨S100000x40, .f32⟩
  | 31 => ⟨S100000x40, .f32⟩
  | 32 => ⟨S_, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x40, .f32⟩
  | 39 => ⟨S100000x40, .f32⟩
  | 40 => ⟨S100000x40, .f32⟩
  | 41 => ⟨S_, .f32⟩
  | 42 => ⟨S100000, .f32⟩
  | 43 => ⟨S100000x1, .f32⟩
  | 44 => ⟨S100000x1, .f32⟩
  | 45 => ⟨S100000x40, .f32⟩
  | 46 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_19 : Ref sig .tc := ⟨.hbm, 137, rfl⟩
abbrev main_v104 : Ref sig .tc := ⟨.hbm, 138, rfl⟩
abbrev main_v105 : Ref sig .tc := ⟨.hbm, 139, rfl⟩
abbrev main_c_20 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_call2_cst : Ref sig .tc := ⟨.hbm, 160, rfl⟩
abbrev main_call2_v0 : Ref sig .tc := ⟨.hbm, 161, rfl⟩
abbrev main_call2_cst_0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_cst_1 : Ref sig .tc := ⟨.hbm, 169, rfl⟩
abbrev main_call2_v7 : Ref sig .tc := ⟨.hbm, 170, rfl⟩
abbrev main_call2_v8 : Ref sig .tc := ⟨.hbm, 171, rfl⟩
abbrev main_call2_v9 : Ref sig .tc := ⟨.hbm, 172, rfl⟩
abbrev main_call2_v10 : Ref sig .tc := ⟨.hbm, 173, rfl⟩
abbrev main_v124 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its RESULT named. The program is seven pipelined regions among stretches of host
  operations; the generated frame certificate folds the buffer contents through those thirteen segments
  (`Gen.W0 … Gen.W13`) and states, of the final state, only that the argument arrays are unchanged. A value claim
  also needs the result array: here the same run is stated with one more conjunct — the result buffer ends holding
  the fold's last contents `Gen.W13 m ρ c` at that buffer — read off the final thread state exactly as the
  arguments are.
-/
import proofs.«179274_j71734543778059_1_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    contents of the fold through the segments, and the argument arrays end as launched. -/
theorem run_result : θ_run defs (onTc (τ := τ) (main (F := F))) ⟨m, fun _ => 0, ρ⟩ (fun r => ∀ c : Dev nD,
      r.2.mem ((c.tc : Thread nD τ).loc main_v106) = W13 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v106 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.Gcn.Run

end
-- ==== Proof.Terms.lean ====
/-
  The graph network's host-side pieces as whole-array terms, spelt once: the edge list's two rows, a node index wrapped
  into range, the degree normalisation  dinv = (in-degree + 1)^(-1/2), an edge's coefficient  dinv[src] · dinv[dst],
  the aggregation of a feature array over the edges (gather the source rows, scale each by its edge's coefficient,
  scatter-add into the destination rows), and a layer's output as the reference groups it,
      (agg + h · dinv²) + b,
  and as the kernel groups it,  agg + (h · dinv² + b).  Addition on the extended reals is associative, so the two
  groupings agree for every input, infinite entries included.
-/
import proofs.«179274_j71734543778059_1_alg».proof.Proof.Gen.ReferenceIdeal
import Idealize.ShloMosaic.Lib.ValueIdx
import Idealize.ShloMosaic.Lib.Pipeline.Value

noncomputable section

namespace Cert.Gcn.Terms

open Cert.ReferenceIdeal Cert.ReferenceIdeal.Gen Idealize.ShloMosaic Idealize.ShloMosaic.TcCoe

variable {F : FTy → Type} [FloatOps F]

/-- Row 0 of the edge list: each edge's source node. -/
def src (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000
/-- Row 1 of the edge list: each edge's destination node. -/
def dst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- A node index wrapped into range (a negative index counts from the end), as a column of gather indices. -/
def wrap (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The degree normalisation: one over the square root of (the number of incoming edges plus one), per node. -/
def dinv (d : (⟨S1600000, .i32⟩ : BufTy).Contents (Elt F)) : (⟨S100000, .f32⟩ : BufTy).Contents (Elt F) :=
  Host.rsqrt (addf
    (Host.scatterAdd scatter_S100000_S1600000x1_S1600000_n_0_0_1 (broadcastInDim S100000 ![] bcast_S_S100000 (constant S_ .f32 0x00000000#32))
      (broadcastInDim S1600000x1 ![0] bcast_S1600000_S1600000x1_0 d) (broadcastInDim S1600000 ![] bcast_S_S1600000 (constant S_ .f32 0x3F800000#32)))
    (broadcastInDim S100000 ![] bcast_S_S100000 (constant S_ .f32 0x3F800000#32)))

/-- An edge's coefficient: the normalisations of its two ends multiplied. -/
def coef (s d : (⟨S1600000, .i32⟩ : BufTy).Contents (Elt F)) (dv : (⟨S100000, .f32⟩ : BufTy).Contents (Elt F)) :
    (⟨S1600000, .f32⟩ : BufTy).Contents (Elt F) :=
  mulf (Host.gather gather_S100000_S1600000x1_S1600000_n_0_n_n_0_1_1 dv (wrap s))
    (Host.gather gather_S100000_S1600000x1_S1600000_n_0_n_n_0_1_1 dv (wrap d))

/-- The aggregation of a 128-wide feature array over the edges. -/
def agg128 (s d : (⟨S1600000, .i32⟩ : BufTy).Contents (Elt F)) (dv : (⟨S100000, .f32⟩ : BufTy).Contents (Elt F))
    (h : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 d)
    (mulf (Host.gather gather_S100000x128_S1600000x1_S1600000x128_1_0_n_n_0_1_1128 h (wrap s))
      (broadcastInDim S1600000x128 ![0, 1] bcast_S1600000x1_S1600000x128_0_1 (broadcastInDim S1600000x1 ![0] bcast_S1600000_S1600000x1_0 (coef s d dv))))

/-- The aggregation of a 40-wide feature array over the edges. -/
def agg40 (s d : (⟨S1600000, .i32⟩ : BufTy).Contents (Elt F)) (dv : (⟨S100000, .f32⟩ : BufTy).Contents (Elt F))
    (h : (⟨S100000x40, .f32⟩ : BufTy).Contents (Elt F)) : (⟨S100000x40, .f32⟩ : BufTy).Contents (Elt F) :=
  Host.scatterAdd scatter_S100000x40_S1600000x1_S1600000x40_1_0_0_1 (broadcastInDim S100000x40 ![] bcast_S_S100000x40 (constant S_ .f32 0x00000000#32))
    (broadcastInDim S1600000x1 ![0] bcast_S1600000_S1600000x1_0 d)
    (mulf (Host.gather gather_S100000x40_S1600000x1_S1600000x40_1_0_n_n_0_1_140 h (wrap s))
      (broadcastInDim S1600000x40 ![0, 1] bcast_S1600000x1_S1600000x40_0_1 (broadcastInDim S1600000x1 ![0] bcast_S1600000_S1600000x1_0 (coef s d dv))))

end Cert.Gcn.Terms

end
-- ==== Proof.Stretches.lean ====
/-
  The kernel program's stretches of host operations, each read as whole-array terms of what the buffers held when the
  stretch began. Before the first region: the edge list's rows, the degree normalisation, its square as a column and the
  first bias as a row. Between a layer's dense region and its combine region: the aggregation of the layer's product over
  the edges. Before the second and third dense regions: that layer's bias as a row. They are the same host operations the
  reference applies, so each result is the same named term.
-/
import proofs.«179274_j71734543778059_1_alg».proof.Proof.Gen.KernelIdeal.Frame
import proofs.«179274_j71734543778059_1_alg».proof.Proof.Terms
import Idealize.ShloMosaic.Lib.StableHlo.Run

set_option maxRecDepth 16384

noncomputable section

namespace Cert.Gcn.Stretches

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-! ## Before the first region -/

theorem s0_src : after hostOps0 W (Proc.devRef .tc main_v1) = Terms.src (W (Proc.devRef .tc main_arg1)) := by
  dsimp only [hostOps0]; after_results; rfl
theorem s0_dst : after hostOps0 W (Proc.devRef .tc main_v3) = Terms.dst (W (Proc.devRef .tc main_arg1)) := by
  dsimp only [hostOps0]; after_results; rfl
theorem s0_dinv : after hostOps0 W (Proc.devRef .tc main_v10) = Terms.dinv (Terms.dst (W (Proc.devRef .tc main_arg1))) := by
  dsimp only [hostOps0]; after_results; rfl
theorem s0_d2col : after hostOps0 W (Proc.devRef .tc main_v12)
    = shapeCast S100000x1 (mulf (Terms.dinv (Terms.dst (W (Proc.devRef .tc main_arg1)))) (Terms.dinv (Terms.dst (W (Proc.devRef .tc main_arg1))))) shapeCasts_S100000_S100000x1 := by
  dsimp only [hostOps0]; after_results; rfl
theorem s0_bias : after hostOps0 W (Proc.devRef .tc main_v13) = shapeCast S1x128 (W (Proc.devRef .tc main_arg3)) shapeCasts_S128_S1x128 := by
  dsimp only [hostOps0]; after_results; rfl

/-! ## The aggregations -/

theorem s1_agg : after hostOps1 W (Proc.devRef .tc main_v42)
    = Terms.agg128 (W (Proc.devRef .tc main_v1)) (W (Proc.devRef .tc main_v3)) (W (Proc.devRef .tc main_v10)) (W (Proc.devRef .tc main_v14_0)) := by
  dsimp only [hostOps1]; after_results_simp; rfl
theorem s3_agg : after hostOps3 W (Proc.devRef .tc main_v73)
    = Terms.agg128 (W (Proc.devRef .tc main_v1)) (W (Proc.devRef .tc main_v3)) (W (Proc.devRef .tc main_v10)) (W (Proc.devRef .tc main_v45_0)) := by
  dsimp only [hostOps3]; after_results_simp; rfl
theorem s5_agg : after hostOps5 W (Proc.devRef .tc main_v104)
    = Terms.agg40 (W (Proc.devRef .tc main_v1)) (W (Proc.devRef .tc main_v3)) (W (Proc.devRef .tc main_v10)) (W (Proc.devRef .tc main_v76_0)) := by
  dsimp only [hostOps5]; after_results_simp; rfl

/-! ## The later biases -/

theorem s2_bias : after hostOps2 W (Proc.devRef .tc main_v44) = shapeCast S1x128 (W (Proc.devRef .tc main_arg5)) shapeCasts_S128_S1x128 := by
  dsimp only [hostOps2]; after_results; rfl
theorem s4_bias : after hostOps4 W (Proc.devRef .tc main_v75) = shapeCast S1x40 (W (Proc.devRef .tc main_arg7)) shapeCasts_S40_S1x40 := by
  dsimp only [hostOps4]; after_results; rfl

end Cert.Gcn.Stretches

end
-- ==== Proof.Persist.lean ====
/-
  What the later segments of the kernel program read unchanged. The program is thirteen segments — stretches of host
  operations and pipelined regions in turn — and a buffer written early (the edge list's rows, the degree normalisation
  and its squared column, a dense region's self-loop term, an argument array) is read several segments later. No
  segment in between writes it: a stretch writes only its own operations' results, a region only its output windows'
  arrays, and an input window's array ends a region as it began. So its contents at the later boundary are its contents
  at the earlier one.
-/
import proofs.«179274_j71734543778059_1_alg».proof.Proof.Gen.KernelIdeal.Frame
import Idealize.ShloMosaic.Lib.StableHlo.Run

set_option maxRecDepth 16384

noncomputable section

namespace Cert.Gcn.Persist

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch leaves a buffer none of its operations writes: the writes of each operation are decided against the buffer. -/
local macro "host_keep " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := host_keep hostOps0 main_arg0

theorem keep_arg2_1_0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := host_keep hostOps0 main_arg2

theorem keep_arg1_1_0 (c : Dev nD) : W1 m ρ c (Proc.devRef .tc main_arg1) = W0 m ρ c (Proc.devRef .tc main_arg1) :=
  calc W1 m ρ c (Proc.devRef .tc main_arg1)
    _ = W0 m ρ c (Proc.devRef .tc main_arg1) := host_keep hostOps0 main_arg1

theorem keep_arg3_1_0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := host_keep hostOps0 main_arg3

theorem keep_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v10_2_1 (c : Dev nD) : W2 m ρ c (Proc.devRef .tc main_v10) = W1 m ρ c (Proc.devRef .tc main_v10) :=
  calc W2 m ρ c (Proc.devRef .tc main_v10)
    _ = W1 m ρ c (Proc.devRef .tc main_v10) := W2_of_ne m ρ c main_v10 (by decide)

theorem keep_v14_1_3_2 (c : Dev nD) : W3 m ρ c (Proc.devRef .tc main_v14_1) = W2 m ρ c (Proc.devRef .tc main_v14_1) :=
  calc W3 m ρ c (Proc.devRef .tc main_v14_1)
    _ = W2 m ρ c (Proc.devRef .tc main_v14_1) := host_keep hostOps1 main_v14_1

theorem keep_arg5_4_0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := host_keep hostOps1 main_arg5
    _ = W1 m ρ c (Proc.devRef .tc main_arg5) := W2_of_ne m ρ c main_arg5 (by decide)
    _ = W0 m ρ c (Proc.devRef .tc main_arg5) := host_keep hostOps0 main_arg5

theorem keep_v43_5_4 (c : Dev nD) : W5 m ρ c (Proc.devRef .tc main_v43) = W4 m ρ c (Proc.devRef .tc main_v43) :=
  calc W5 m ρ c (Proc.devRef .tc main_v43)
    _ = W4 m ρ c (Proc.devRef .tc main_v43) := host_keep hostOps2 main_v43

theorem keep_arg4_5_0 (c : Dev nD) : W5 m ρ c (Proc.devRef .tc main_arg4) = W0 m ρ c (Proc.devRef .tc main_arg4) :=
  calc W5 m ρ c (Proc.devRef .tc main_arg4)
    _ = W4 m ρ c (Proc.devRef .tc main_arg4) := host_keep hostOps2 main_arg4
    _ = W3 m ρ c (Proc.devRef .tc main_arg4) := W4_of_ne m ρ c main_arg4 (by decide)
    _ = W2 m ρ c (Proc.devRef .tc main_arg4) := host_keep hostOps1 main_arg4
    _ = W1 m ρ c (Proc.devRef .tc main_arg4) := W2_of_ne m ρ c main_arg4 (by decide)
    _ = W0 m ρ c (Proc.devRef .tc main_arg4) := host_keep hostOps0 main_arg4

theorem keep_v12_5_1 (c : Dev nD) : W5 m ρ c (Proc.devRef .tc main_v12) = W1 m ρ c (Proc.devRef .tc main_v12) :=
  calc W5 m ρ c (Proc.devRef .tc main_v12)
    _ = W4 m ρ c (Proc.devRef .tc main_v12) := host_keep hostOps2 main_v12
    _ = W3 m ρ c (Proc.devRef .tc main_v12) := W4_of_ne m ρ c main_v12 (by decide)
    _ = W2 m ρ c (Proc.devRef .tc main_v12) := host_keep hostOps1 main_v12
    _ = W1 m ρ c (Proc.devRef .tc main_v12) := (W2_arr m ρ c 2).trans (((dat0 (V1 m ρ) c).arrAt_in 2 rfl _).trans (A_eq0 (V1 m ρ) c 2))

theorem keep_v1_6_2 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := host_keep hostOps2 main_v1
    _ = W3 m ρ c (Proc.devRef .tc main_v1) := W4_of_ne m ρ c main_v1 (by decide)
    _ = W2 m ρ c (Proc.devRef .tc main_v1) := host_keep hostOps1 main_v1

theorem keep_v3_6_2 (c : Dev nD) : W6 m ρ c (Proc.devRef .tc main_v3) = W2 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := host_keep hostOps2 main_v3
    _ = W3 m ρ c (Proc.devRef .tc main_v3) := W4_of_ne m ρ c main_v3 (by decide)
    _ = W2 m ρ c (Proc.devRef .tc main_v3) := host_keep hostOps1 main_v3

theorem keep_v10_6_2 (c : Dev nD) : W6 m ρ c (Proc.devRef .tc main_v10) = W2 m ρ c (Proc.devRef .tc main_v10) :=
  calc W6 m ρ c (Proc.devRef .tc main_v10)
    _ = W5 m ρ c (Proc.devRef .tc main_v10) := W6_of_ne m ρ c main_v10 (by decide)
    _ = W4 m ρ c (Proc.devRef .tc main_v10) := host_keep hostOps2 main_v10
    _ = W3 m ρ c (Proc.devRef .tc main_v10) := W4_of_ne m ρ c main_v10 (by decide)
    _ = W2 m ρ c (Proc.devRef .tc main_v10) := host_keep hostOps1 main_v10

theorem keep_v45_1_7_6 (c : Dev nD) : W7 m ρ c (Proc.devRef .tc main_v45_1) = W6 m ρ c (Proc.devRef .tc main_v45_1) :=
  calc W7 m ρ c (Proc.devRef .tc main_v45_1)
    _ = W6 m ρ c (Proc.devRef .tc main_v45_1) := host_keep hostOps3 main_v45_1

theorem keep_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := host_keep hostOps3 main_arg7
    _ = W5 m ρ c (Proc.devRef .tc main_arg7) := W6_of_ne m ρ c main_arg7 (by decide)
    _ = W4 m ρ c (Proc.devRef .tc main_arg7) := host_keep hostOps2 main_arg7
    _ = W3 m ρ c (Proc.devRef .tc main_arg7) := W4_of_ne m ρ c main_arg7 (by decide)
    _ = W2 m ρ c (Proc.devRef .tc main_arg7) := host_keep hostOps1 main_arg7
    _ = W1 m ρ c (Proc.devRef .tc main_arg7) := W2_of_ne m ρ c main_arg7 (by decide)
    _ = W0 m ρ c (Proc.devRef .tc main_arg7) := host_keep hostOps0 main_arg7

theorem keep_v74_9_8 (c : Dev nD) : W9 m ρ c (Proc.devRef .tc main_v74) = W8 m ρ c (Proc.devRef .tc main_v74) :=
  calc W9 m ρ c (Proc.devRef .tc main_v74)
    _ = W8 m ρ c (Proc.devRef .tc main_v74) := host_keep hostOps4 main_v74

theorem keep_arg6_9_0 (c : Dev nD) : W9 m ρ c (Proc.devRef .tc main_arg6) = W0 m ρ c (Proc.devRef .tc main_arg6) :=
  calc W9 m ρ c (Proc.devRef .tc main_arg6)
    _ = W8 m ρ c (Proc.devRef .tc main_arg6) := host_keep hostOps4 main_arg6
    _ = W7 m ρ c (Proc.devRef .tc main_arg6) := W8_of_ne m ρ c main_arg6 (by decide)
    _ = W6 m ρ c (Proc.devRef .tc main_arg6) := host_keep hostOps3 main_arg6
    _ = W5 m ρ c (Proc.devRef .tc main_arg6) := W6_of_ne m ρ c main_arg6 (by decide)
    _ = W4 m ρ c (Proc.devRef .tc main_arg6) := host_keep hostOps2 main_arg6
    _ = W3 m ρ c (Proc.devRef .tc main_arg6) := W4_of_ne m ρ c main_arg6 (by decide)
    _ = W2 m ρ c (Proc.devRef .tc main_arg6) := host_keep hostOps1 main_arg6
    _ = W1 m ρ c (Proc.devRef .tc main_arg6) := W2_of_ne m ρ c main_arg6 (by decide)
    _ = W0 m ρ c (Proc.devRef .tc main_arg6) := host_keep hostOps0 main_arg6

theorem keep_v12_9_5 (c : Dev nD) : W9 m ρ c (Proc.devRef .tc main_v12) = W5 m ρ c (Proc.devRef .tc main_v12) :=
  calc W9 m ρ c (Proc.devRef .tc main_v12)
    _ = W8 m ρ c (Proc.devRef .tc main_v12) := host_keep hostOps4 main_v12
    _ = W7 m ρ c (Proc.devRef .tc main_v12) := W8_of_ne m ρ c main_v12 (by decide)
    _ = W6 m ρ c (Proc.devRef .tc main_v12) := host_keep hostOps3 main_v12
    _ = W5 m ρ c (Proc.devRef .tc main_v12) := (W6_arr m ρ c 2).trans (((dat2 (V5 m ρ) c).arrAt_in 2 rfl _).trans (A_eq2 (V5 m ρ) c 2))

theorem keep_v1_10_6 (c : Dev nD) : W10 m ρ c (Proc.devRef .tc main_v1) = W6 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := host_keep hostOps4 main_v1
    _ = W7 m ρ c (Proc.devRef .tc main_v1) := W8_of_ne m ρ c main_v1 (by decide)
    _ = W6 m ρ c (Proc.devRef .tc main_v1) := host_keep hostOps3 main_v1

theorem keep_v3_10_6 (c : Dev nD) : W10 m ρ c (Proc.devRef .tc main_v3) = W6 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := host_keep hostOps4 main_v3
    _ = W7 m ρ c (Proc.devRef .tc main_v3) := W8_of_ne m ρ c main_v3 (by decide)
    _ = W6 m ρ c (Proc.devRef .tc main_v3) := host_keep hostOps3 main_v3

theorem keep_v10_10_6 (c : Dev nD) : W10 m ρ c (Proc.devRef .tc main_v10) = W6 m ρ c (Proc.devRef .tc main_v10) :=
  calc W10 m ρ c (Proc.devRef .tc main_v10)
    _ = W9 m ρ c (Proc.devRef .tc main_v10) := W10_of_ne m ρ c main_v10 (by decide)
    _ = W8 m ρ c (Proc.devRef .tc main_v10) := host_keep hostOps4 main_v10
    _ = W7 m ρ c (Proc.devRef .tc main_v10) := W8_of_ne m ρ c main_v10 (by decide)
    _ = W6 m ρ c (Proc.devRef .tc main_v10) := host_keep hostOps3 main_v10

theorem keep_v76_1_11_10 (c : Dev nD) : W11 m ρ c (Proc.devRef .tc main_v76_1) = W10 m ρ c (Proc.devRef .tc main_v76_1) :=
  calc W11 m ρ c (Proc.devRef .tc main_v76_1)
    _ = W10 m ρ c (Proc.devRef .tc main_v76_1) := host_keep hostOps5 main_v76_1

end Cert.Gcn.Persist

end
-- ==== Proof.Dense1.lean ====
/-
  Layer 1's dense product, entry by entry. The kernel multiplies a block of 2000 rows by the whole weight matrix on the
  matrix unit into a zero accumulator, and from that product forms the self-loop term  h · d + b  (d the row's
  normalisation, one per row; b the bias, one per column). The reference takes one whole matrix product on the host.
  Over the extended reals each entry of either product is the same finite sum over the contracted axis,
      (X · W)[r, c] = ∑ k, X[r, k] · W[k, c],
  the change of float format before the matrix unit being the identity there.
-/
import proofs.«179274_j71734543778059_1_alg».proof.Proof.Gen.KernelIdeal.Skeleton
import proofs.«179274_j71734543778059_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Dense1

open Idealize.ShloMosaic Idealize.ShloMosaic.TcCoe

/-! ## Indices from coordinates, at the literal shapes -/

/-- Entry (r, k) of a block of the left operand, from the output entry's row and a contraction index. -/
abbrev blkL (j : Cert.KernelIdeal.S2000x128.Idx) (k : Fin 256) : Cert.KernelIdeal.S2000x256.Idx := fun a => match a with
  | ⟨0, _⟩ => ⟨(j 0).val, (j 0).isLt⟩
  | ⟨1, _⟩ => ⟨k.val, k.isLt⟩
/-- Entry (k, c) of the weight matrix, from a contraction index and the output entry's column. -/
abbrev blkR (j : Cert.KernelIdeal.S2000x128.Idx) (k : Fin 256) : Cert.KernelIdeal.S256x128.Idx := fun a => match a with
  | ⟨0, _⟩ => ⟨k.val, k.isLt⟩
  | ⟨1, _⟩ => ⟨(j 1).val, (j 1).isLt⟩
/-- The same two for the whole arrays. -/
abbrev arrL (i : Cert.KernelIdeal.S100000x128.Idx) (k : Fin 256) : Cert.KernelIdeal.S100000x256.Idx := fun a => match a with
  | ⟨0, _⟩ => ⟨(i 0).val, (i 0).isLt⟩
  | ⟨1, _⟩ => ⟨k.val, k.isLt⟩
abbrev arrR (i : Cert.KernelIdeal.S100000x128.Idx) (k : Fin 256) : Cert.KernelIdeal.S256x128.Idx := fun a => match a with
  | ⟨0, _⟩ => ⟨k.val, k.isLt⟩
  | ⟨1, _⟩ => ⟨(i 1).val, (i 1).isLt⟩
/-- The row's entry of the normalisation column, and the column's entry of the bias row. -/
abbrev colOf (j : Cert.KernelIdeal.S2000x128.Idx) : Cert.KernelIdeal.S2000x1.Idx := fun a => match a with
  | ⟨0, _⟩ => ⟨(j 0).val, (j 0).isLt⟩
  | ⟨1, _⟩ => ⟨0, Nat.zero_lt_one⟩
abbrev rowOf (j : Cert.KernelIdeal.S2000x128.Idx) : Cert.KernelIdeal.S1x128.Idx := fun a => match a with
  | ⟨0, _⟩ => ⟨0, Nat.zero_lt_one⟩
  | ⟨1, _⟩ => ⟨(j 1).val, (j 1).isLt⟩
abbrev arrCol (i : Cert.KernelIdeal.S100000x128.Idx) : Cert.KernelIdeal.S100000x1.Idx := fun a => match a with
  | ⟨0, _⟩ => ⟨(i 0).val, (i 0).isLt⟩
  | ⟨1, _⟩ => ⟨0, Nat.zero_lt_one⟩
abbrev arrRow (i : Cert.KernelIdeal.S100000x128.Idx) : Cert.KernelIdeal.S1x128.Idx := fun a => match a with
  | ⟨0, _⟩ => ⟨0, Nat.zero_lt_one⟩
  | ⟨1, _⟩ => ⟨(i 1).val, (i 1).isLt⟩

/-! ## The whole-array functions -/

/-- The product X · W, entry by entry. -/
def prod (X : Cert.KernelIdeal.S100000x256.Idx → EReal) (W : Cert.KernelIdeal.S256x128.Idx → EReal) : Cert.KernelIdeal.S100000x128.Idx → EReal :=
  fun i => ∑ k : Fin 256, X (arrL i k) * W (arrR i k)

/-- The self-loop term (X · W)[r, c] · d[r] + b[c]. -/
def selfTerm (X : Cert.KernelIdeal.S100000x256.Idx → EReal) (W : Cert.KernelIdeal.S256x128.Idx → EReal)
    (D : Cert.KernelIdeal.S100000x1.Idx → EReal) (B : Cert.KernelIdeal.S1x128.Idx → EReal) : Cert.KernelIdeal.S100000x128.Idx → EReal :=
  fun i => prod X W i * D (arrCol i) + B (arrRow i)

/-! ## The kernel's matrix product at an entry -/

section Kernel
open Cert.KernelIdeal Cert.KernelIdeal.Gen

theorem lhsK_0 (j : S2000x128.Idx) (q : dot_S2000x256_S256x128_S2000x128_1_0_0_1_n_n.contr.Idx) : (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsK_1 (j : S2000x128.Idx) (q : dot_S2000x256_S256x128_S2000x128_1_0_0_1_n_n.contr.Idx) : (dot_S2000x256_S256x128_S2000x128_1_0_0_1_n_n.lhsIdx j q 1).val = (q ⟨0, by decide⟩).val :=
  dot_S2000x256_S256x128_S2000x128_1_0_0_1_n_n.lhsIdx_val_of_single rfl j q
theorem rhsK_0 (j : S2000x128.Idx) (q : dot_S2000x256_S256x128_S2000x128_1_0_0_1_n_n.contr.Idx) : (dot_S2000x256_S256x128_S2000x128_1_0_0_1_n_n.rhsIdx j q 0).val = (q ⟨0, by decide⟩).val :=
  dot_S2000x256_S256x128_S2000x128_1_0_0_1_n_n.rhsIdx_val_of_single rfl j q
theorem rhsK_1 (j : S2000x128.Idx) (q : dot_S2000x256_S256x128_S2000x128_1_0_0_1_n_n.contr.Idx) : (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The matrix unit's product of a block with the weights, into zero, at an entry: the sum over the contracted axis. -/
theorem blockProd_apply (x0 : Vec Ideal S2000x256 .f32) (x1 : Vec Ideal S256x128 .f32) (j : S2000x128.Idx) :
    k0_pay1 (F := Ideal) x0 x1 j = ∑ k : Fin 256, x0 (blkL j k) * x1 (blkR j k) := by
  unfold k0_pay1
  refine (Ideal.matmul_constant_zero_apply dot_S2000x256_S256x128_S2000x128_1_0_0_1_n_n none _ _ j).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = blkL j k := funext fun a => Fin.ext (by
    match a with
    | ⟨0, _⟩ => exact lhsK_0 _ _
    | ⟨1, _⟩ => exact (lhsK_1 _ _).trans hk)
  have er : dot_S2000x256_S256x128_S2000x128_1_0_0_1_n_n.rhsIdx j ((ValueIdx.contrEquiv1 dot_S2000x256_S256x128_S2000x128_1_0_0_1_n_n 256 rfl rfl).symm k) = blkR j k := funext fun a => Fin.ext (by
    match a with
    | ⟨0, _⟩ => exact (rhsK_0 _ _).trans hk
    | ⟨1, _⟩ => exact rhsK_1 _ _)
  rw [el, er]
  rfl

/-- The self-loop term of a block at an entry: the product's entry times the row's normalisation plus the column's bias. -/
theorem blockSelf_apply (x0 : Vec Ideal S2000x256 .f32) (x1 : Vec Ideal S256x128 .f32) (x2 : Vec Ideal S2000x1 .f32) (x3 : Vec Ideal S1x128 .f32)
    (j : S2000x128.Idx) :
    k0_pay2 (F := Ideal) x0 x1 x2 x3 j = k0_pay1 (F := Ideal) x0 x1 j * x2 (colOf j) + x3 (rowOf j) := by
  unfold k0_pay2
  show FloatOps.addf (FloatOps.mulf (k0_pay1 (F := Ideal) x0 x1 j) (broadcastTo S2000x128 (shapeCast S2000x1 x2 _) _ j)) (broadcastTo S2000x128 (shapeCast S1x128 x3 _) _ j) = _
  rw [shapeCast_self, shapeCast_self]
  rw [broadcastTo_apply x2 _ j (colOf j) (fun a => by
        match a with
        | ⟨0, _⟩ => rfl
        | ⟨1, _⟩ => rfl),
      broadcastTo_apply x3 _ j (rowOf j) (fun a => by
        match a with
        | ⟨0, _⟩ => rfl
        | ⟨1, _⟩ => rfl)]
  rfl

end Kernel

/-! ## The reference's matrix product at an entry -/

section Host
open Cert.ReferenceIdeal Cert.ReferenceIdeal.Gen

theorem lhsH_0 (i : S100000x128.Idx) (q : dot_S100000x256_S256x128_S100000x128_1_0_0_1_n_n.contr.Idx) : (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem lhsH_1 (i : S100000x128.Idx) (q : dot_S100000x256_S256x128_S100000x128_1_0_0_1_n_n.contr.Idx) : (dot_S100000x256_S256x128_S100000x128_1_0_0_1_n_n.lhsIdx i q 1).val = (q ⟨0, by decide⟩).val :=
  dot_S100000x256_S256x128_S100000x128_1_0_0_1_n_n.lhsIdx_val_of_single rfl i q
theorem rhsH_0 (i : S100000x128.Idx) (q : dot_S100000x256_S256x128_S100000x128_1_0_0_1_n_n.contr.Idx) : (dot_S100000x256_S256x128_S100000x128_1_0_0_1_n_n.rhsIdx i q 0).val = (q ⟨0, by decide⟩).val :=
  dot_S100000x256_S256x128_S100000x128_1_0_0_1_n_n.rhsIdx_val_of_single rfl i q
theorem rhsH_1 (i : S100000x128.Idx) (q : dot_S100000x256_S256x128_S100000x128_1_0_0_1_n_n.contr.Idx) : (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- The host's whole matrix product is `prod`: at every entry the same sum over the contracted axis. -/
theorem hostProd_eq (X : FVec Ideal S100000x256 .f32) (W : FVec Ideal S256x128 .f32) :
    Host.dotGeneral (F := Ideal) dot_S100000x256_S256x128_S100000x128_1_0_0_1_n_n none X W = (Cert.Gcn.Dense1.prod X W : FVec Ideal S100000x128 .f32) := by
  funext i
  simp only [Host.dotGeneral]
  rw [Ideal.dotGeneral_apply, ← Equiv.sum_comp (ValueIdx.contrEquiv1 dot_S100000x256_S256x128_S100000x128_1_0_0_1_n_n 256 rfl rfl).symm]
  unfold Cert.Gcn.Dense1.prod
  refine Finset.sum_congr rfl fun k _ => ?_
  have hk := ValueIdx.contrEquiv1_symm_val dot_S100000x256_S256x128_S100000x128_1_0_0_1_n_n 256 rfl rfl k
  have el : dot_S100000x256_S256x128_S100000x128_1_0_0_1_n_n.lhsIdx i ((ValueIdx.contrEquiv1 dot_S100000x256_S256x128_S100000x128_1_0_0_1_n_n 256 rfl rfl).symm k) = Cert.Gcn.Dense1.arrL i k := funext fun a => Fin.ext (by
    match a with
    | ⟨0, _⟩ => exact lhsH_0 _ _
    | ⟨1, _⟩ => exact (lhsH_1 _ _).trans hk)
  have er : dot_S100000x256_S256x128_S100000x128_1_0_0_1_n_n.rhsIdx i ((ValueIdx.contrEquiv1 dot_S100000x256_S256x128_S100000x128_1_0_0_1_n_n 256 rfl rfl).symm k) = Cert.Gcn.Dense1.arrR i k := funext fun a => Fin.ext (by
    match a with
    | ⟨0, _⟩ => exact (rhsH_0 _ _).trans hk
    | ⟨1, _⟩ => exact rhsH_1 _ _)
  rw [el, er]

end Host

end Cert.Gcn.Dense1

end
-- ==== Proof.DenseBlocks1.lean ====
/-
  Layer 1's dense region, from blocks to whole arrays. The grid has 50 points; point t stages rows 2000·t … 2000·t + 1999
  of the left operand and of the normalisation column, the whole weight matrix and the whole bias row, and writes back rows
  2000·t … 2000·t + 1999 of the two results. So entry (r, c) of either result is written by point r / 2000 alone, from row r
  of the left operand: the product array is X · W and the self-loop array (X · W) · d + b, whole, whatever the buffers held
  when the region was entered.
-/
import proofs.«179274_j71734543778059_1_alg».proof.Proof.Gen.KernelIdeal.Frame
import proofs.«179274_j71734543778059_1_alg».proof.Proof.Dense1
import Idealize.ShloMosaic.Lib.Pipeline.Value

set_option maxRecDepth 16384

noncomputable section

namespace Cert.Gcn.DenseBlocks1

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the whole ones at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The block product at point t, at the block's entry j, is the whole product at the array entry i in row 2000·t + j₀, column j₁. -/
theorem prod_at (c : Dev nD) (t : Fin cfg0.N) (j : S2000x128.Idx) (i : S100000x128.Idx)
    (hi0 : (i 0).val = t.val * 2000 + (j 0).val) (hi1 : (i 1).val = (j 1).val) :
    k0_pay1 (F := Ideal) (iblk0 V c 0 t) (iblk0 V c 1 t) j = Dense1.prod (V c main_arg0) (V c main_arg2) i := by
  obtain ⟨e00, e01, e10, e11, -⟩ := idx_facts t
  refine (Dense1.blockProd_apply (iblk0 V c 0 t) (iblk0 V c 1 t) j).trans ?_
  unfold Dense1.prod
  refine Finset.sum_congr rfl fun k _ => ?_
  have h0 : iblk0 V c 0 t (Dense1.blkL j k) = V c main_arg0 (Dense1.arrL i k) := by
    show V c main_arg0 (((cfg0.win 0).blk t).view.emb (Dense1.blkL j k)) = _
    refine congrArg (V c main_arg0) (funext fun a => Fin.ext ?_)
    match a with
    | ⟨0, _⟩ => show win0_0.index t (0 : Fin 2) * 2000 + 1 * (j 0).val = (i 0).val; omega
    | ⟨1, _⟩ => show win0_0.index t (1 : Fin 2) * 256 + 1 * k.val = k.val; omega
  have h1 : iblk0 V c 1 t (Dense1.blkR j k) = V c main_arg2 (Dense1.arrR i k) := by
    show V c main_arg2 (((cfg0.win 1).blk t).view.emb (Dense1.blkR j k)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = (i 1).val; omega
  rw [h0, h1]

/-- What point t writes back through the product window: block t of X · W. -/
theorem flushedProd_eq (c : Dev nD) (t : Fin cfg0.N) :
    (dat0 V c).flushed 4 t = ((cfg0.win 4).blk t).view.read (Elt Ideal) (Dense1.prod (V c main_arg0) (V c main_arg2)) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x128) hz]
  obtain ⟨-, -, -, -, -, -, -, -, e40, e41, -⟩ := idx_facts t
  funext j
  show k0_pay1 (F := Ideal) (iblk0 V c 0 t) (iblk0 V c 1 t) j = Dense1.prod (V c main_arg0) (V c main_arg2) (((cfg0.win 4).blk t).view.emb j)
  refine prod_at V c t j _ ?_ ?_
  · show win0_4.index t (0 : Fin 2) * 2000 + 1 * (j 0).val = _; omega
  · show win0_4.index t (1 : Fin 2) * 128 + 1 * (j 1).val = _; omega

/-- What point t writes back through the self-loop window: block t of (X · W) · d + b. -/
theorem flushedSelf_eq (c : Dev nD) (t : Fin cfg0.N) :
    (dat0 V c).flushed 5 t = ((cfg0.win 5).blk t).view.read (Elt Ideal)
      (Dense1.selfTerm (V c main_arg0) (V c main_arg2) (V c main_v12) (V c main_v13)) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x128) hz, View.ld_unit_zero (S := S2000x1) hz, View.ld_unit_zero (S := S1x128) hz]
  obtain ⟨-, -, -, -, e20, e21, e30, e31, -, -, e50, e51⟩ := idx_facts t
  funext j
  show k0_pay2 (F := Ideal) (iblk0 V c 0 t) (iblk0 V c 1 t) (iblk0 V c 2 t) (iblk0 V c 3 t) j
    = Dense1.selfTerm (V c main_arg0) (V c main_arg2) (V c main_v12) (V c main_v13) (((cfg0.win 5).blk t).view.emb j)
  refine (Dense1.blockSelf_apply _ _ _ _ j).trans ?_
  unfold Dense1.selfTerm
  have hi0 : ((((cfg0.win 5).blk t).view.emb j) 0).val = t.val * 2000 + (j 0).val := by
    show win0_5.index t (0 : Fin 2) * 2000 + 1 * (j 0).val = _; omega
  have hi1 : ((((cfg0.win 5).blk t).view.emb j) 1).val = (j 1).val := by
    show win0_5.index t (1 : Fin 2) * 128 + 1 * (j 1).val = _; omega
  have hd : iblk0 V c 2 t (Dense1.colOf j) = V c main_v12 (Dense1.arrCol (((cfg0.win 5).blk t).view.emb j)) := by
    show V c main_v12 (((cfg0.win 2).blk t).view.emb (Dense1.colOf j)) = _
    refine congrArg (V c main_v12) (funext fun a => Fin.ext ?_)
    match a with
    | ⟨0, _⟩ => show win0_2.index t (0 : Fin 2) * 2000 + 1 * (j 0).val = ((((cfg0.win 5).blk t).view.emb j) 0).val; omega
    | ⟨1, _⟩ => show win0_2.index t (1 : Fin 2) * 1 + 1 * 0 = 0; omega
  have hb : iblk0 V c 3 t (Dense1.rowOf j) = V c main_v13 (Dense1.arrRow (((cfg0.win 5).blk t).view.emb j)) := by
    show V c main_v13 (((cfg0.win 3).blk t).view.emb (Dense1.rowOf j)) = _
    refine congrArg (V c main_v13) (funext fun a => Fin.ext ?_)
    match a with
    | ⟨0, _⟩ => show win0_3.index t (0 : Fin 2) * 1 + 1 * 0 = 0; omega
    | ⟨1, _⟩ => show win0_3.index t (1 : Fin 2) * 128 + 1 * (j 1).val = ((((cfg0.win 5).blk t).view.emb j) 1).val; omega
  rw [prod_at V c t j _ hi0 hi1, hd, hb]

/-- An array index is in point t's block of an output window iff each coordinate is in the block's range. -/
theorem mem_blk4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v14_0).slice (win0_4.rect t)).set ↔ _
  rw [View.set_slice_whole, Rect.mem_set_unit]
  exact Iff.rfl
theorem mem_blk5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v14_1).slice (win0_5.rect t)).set ↔ _
  rw [View.set_slice_whole, Rect.mem_set_unit]
  exact Iff.rfl

/-- Row r is covered by point r / 2000. -/
theorem point_of (i : S100000x128.Idx) : ∃ t : Fin cfg0.N, t.val = (i 0).val / 2000 := by
  have hN : grid0.N = 50 := N_0
  have hi0 : (i 0).val < 100000 := (i 0).isLt
  exact ⟨⟨(i 0).val / 2000, by show _ < grid0.N; rw [hN]; omega⟩, rfl⟩

theorem cover4 (i : S100000x128.Idx) : ∃ t : Fin cfg0.N, (cfg0.win 4).flush t = true ∧ i ∈ ((cfg0.win 4).blk t).view.set := by
  obtain ⟨t, ht⟩ := point_of i
  obtain ⟨-, -, -, -, -, -, -, -, e40, e41, -⟩ := idx_facts t
  have hi1 : (i 1).val < 128 := (i 1).isLt
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

theorem cover5 (i : S100000x128.Idx) : ∃ t : Fin cfg0.N, (cfg0.win 5).flush t = true ∧ i ∈ ((cfg0.win 5).blk t).view.set := by
  obtain ⟨t, ht⟩ := point_of i
  obtain ⟨-, -, -, -, -, -, -, -, -, -, e50, e51⟩ := idx_facts t
  have hi1 : (i 1).val < 128 := (i 1).isLt
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The product array after the region: X · W of the arrays the region found. -/
theorem finalProd (c : Dev nD) : (dat0 V c).arrAt 4 cfg0.N = Dense1.prod (V c main_arg0) (V c main_arg2) :=
  (dat0 V c).arrAt_eq_of_cover 4 (Dense1.prod (V c main_arg0) (V c main_arg2)) (fun t _ => flushedProd_eq V c t) cover4

/-- The self-loop array after the region: (X · W) · d + b of the arrays the region found. -/
theorem finalSelf (c : Dev nD) : (dat0 V c).arrAt 5 cfg0.N = Dense1.selfTerm (V c main_arg0) (V c main_arg2) (V c main_v12) (V c main_v13) :=
  (dat0 V c).arrAt_eq_of_cover 5 (Dense1.selfTerm (V c main_arg0) (V c main_arg2) (V c main_v12) (V c main_v13)) (fun t _ => flushedSelf_eq V c t) cover5

end Cert.Gcn.DenseBlocks1

end
-- ==== Proof.Dense2.lean ====
/-
  Layer 2's dense product, entry by entry. The kernel multiplies a block of 2000 rows by the whole weight matrix on the
  matrix unit into a zero accumulator, and from that product forms the self-loop term  h · d + b  (d the row's
  normalisation, one per row; b the bias, one per column). The reference takes one whole matrix product on the host.
  Over the extended reals each entry of either product is the same finite sum over the contracted axis,
      (X · W)[r, c] = ∑ k, X[r, k] · W[k, c],
  the change of float format before the matrix unit being the identity there.
-/
import proofs.«179274_j71734543778059_1_alg».proof.Proof.Gen.KernelIdeal.Skeleton
import proofs.«179274_j71734543778059_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Dense2

open Idealize.ShloMosaic Idealize.ShloMosaic.TcCoe

/-! ## Indices from coordinates, at the literal shapes -/

/-- Entry (r, k) of a block of the left operand, from the output entry's row and a contraction index. -/
abbrev blkL (j : Cert.KernelIdeal.S2000x128.Idx) (k : Fin 128) : Cert.KernelIdeal.S2000x128.Idx := fun a => match a with
  | ⟨0, _⟩ => ⟨(j 0).val, (j 0).isLt⟩
  | ⟨1, _⟩ => ⟨k.val, k.isLt⟩
/-- Entry (k, c) of the weight matrix, from a contraction index and the output entry's column. -/
abbrev blkR (j : Cert.KernelIdeal.S2000x128.Idx) (k : Fin 128) : Cert.KernelIdeal.S128x128.Idx := fun a => match a with
  | ⟨0, _⟩ => ⟨k.val, k.isLt⟩
  | ⟨1, _⟩ => ⟨(j 1).val, (j 1).isLt⟩
/-- The same two for the whole arrays. -/
abbrev arrL (i : Cert.KernelIdeal.S100000x128.Idx) (k : Fin 128) : Cert.KernelIdeal.S100000x128.Idx := fun a => match a with
  | ⟨0, _⟩ => ⟨(i 0).val, (i 0).isLt⟩
  | ⟨1, _⟩ => ⟨k.val, k.isLt⟩
abbrev arrR (i : Cert.KernelIdeal.S100000x128.Idx) (k : Fin 128) : Cert.KernelIdeal.S128x128.Idx := fun a => match a with
  | ⟨0, _⟩ => ⟨k.val, k.isLt⟩
  | ⟨1, _⟩ => ⟨(i 1).val, (i 1).isLt⟩
/-- The row's entry of the normalisation column, and the column's entry of the bias row. -/
abbrev colOf (j : Cert.KernelIdeal.S2000x128.Idx) : Cert.KernelIdeal.S2000x1.Idx := fun a => match a with
  | ⟨0, _⟩ => ⟨(j 0).val, (j 0).isLt⟩
  | ⟨1, _⟩ => ⟨0, Nat.zero_lt_one⟩
abbrev rowOf (j : Cert.KernelIdeal.S2000x128.Idx) : Cert.KernelIdeal.S1x128.Idx := fun a => match a with
  | ⟨0, _⟩ => ⟨0, Nat.zero_lt_one⟩
  | ⟨1, _⟩ => ⟨(j 1).val, (j 1).isLt⟩
abbrev arrCol (i : Cert.KernelIdeal.S100000x128.Idx) : Cert.KernelIdeal.S100000x1.Idx := fun a => match a with
  | ⟨0, _⟩ => ⟨(i 0).val, (i 0).isLt⟩
  | ⟨1, _⟩ => ⟨0, Nat.zero_lt_one⟩
abbrev arrRow (i : Cert.KernelIdeal.S100000x128.Idx) : Cert.KernelIdeal.S1x128.Idx := fun a => match a with
  | ⟨0, _⟩ => ⟨0, Nat.zero_lt_one⟩
  | ⟨1, _⟩ => ⟨(i 1).val, (i 1).isLt⟩

/-! ## The whole-array functions -/

/-- The product X · W, entry by entry. -/
def prod (X : Cert.KernelIdeal.S100000x128.Idx → EReal) (W : Cert.KernelIdeal.S128x128.Idx → EReal) : Cert.KernelIdeal.S100000x128.Idx → EReal :=
  fun i => ∑ k : Fin 128, X (arrL i k) * W (arrR i k)

/-- The self-loop term (X · W)[r, c] · d[r] + b[c]. -/
def selfTerm (X : Cert.KernelIdeal.S100000x128.Idx → EReal) (W : Cert.KernelIdeal.S128x128.Idx → EReal)
    (D : Cert.KernelIdeal.S100000x1.Idx → EReal) (B : Cert.KernelIdeal.S1x128.Idx → EReal) : Cert.KernelIdeal.S100000x128.Idx → EReal :=
  fun i => prod X W i * D (arrCol i) + B (arrRow i)

/-! ## The kernel's matrix product at an entry -/

section Kernel
open Cert.KernelIdeal Cert.KernelIdeal.Gen

theorem lhsK_0 (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsK_1 (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem rhsK_0 (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem rhsK_1 (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of a block with the weights, into zero, at an entry: the sum over the contracted axis. -/
theorem blockProd_apply (x0 : Vec Ideal S2000x128 .f32) (x1 : Vec Ideal S128x128 .f32) (j : S2000x128.Idx) :
    k2_pay1 (F := Ideal) x0 x1 j = ∑ k : Fin 128, x0 (blkL j k) * x1 (blkR j k) := by
  unfold k2_pay1
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = blkL j k := funext fun a => Fin.ext (by
    match a with
    | ⟨0, _⟩ => exact lhsK_0 _ _
    | ⟨1, _⟩ => exact (lhsK_1 _ _).trans hk)
  have er : dot_S2000x128_S128x128_S2000x128_1_0_0_1_n_n.rhsIdx j ((ValueIdx.contrEquiv1 dot_S2000x128_S128x128_S2000x128_1_0_0_1_n_n 128 rfl rfl).symm k) = blkR j k := funext fun a => Fin.ext (by
    match a with
    | ⟨0, _⟩ => exact (rhsK_0 _ _).trans hk
    | ⟨1, _⟩ => exact rhsK_1 _ _)
  rw [el, er]
  first | rfl | (rw [shapeCast_self]; rfl) | (simp only [shapeCast_self]; rfl)

/-- The self-loop term of a block at an entry: the product's entry times the row's normalisation plus the column's bias. -/
theorem blockSelf_apply (x0 : Vec Ideal S2000x128 .f32) (x1 : Vec Ideal S128x128 .f32) (x2 : Vec Ideal S2000x1 .f32) (x3 : Vec Ideal S1x128 .f32)
    (j : S2000x128.Idx) :
    k2_pay2 (F := Ideal) x0 x1 x2 x3 j = k2_pay1 (F := Ideal) x0 x1 j * x2 (colOf j) + x3 (rowOf j) := by
  unfold k2_pay2
  show FloatOps.addf (FloatOps.mulf (k2_pay1 (F := Ideal) x0 x1 j) (broadcastTo S2000x128 (shapeCast S2000x1 x2 _) _ j)) (broadcastTo S2000x128 (shapeCast S1x128 x3 _) _ j) = _
  rw [shapeCast_self, shapeCast_self]
  rw [broadcastTo_apply x2 _ j (colOf j) (fun a => by
        match a with
        | ⟨0, _⟩ => rfl
        | ⟨1, _⟩ => rfl),
      broadcastTo_apply x3 _ j (rowOf j) (fun a => by
        match a with
        | ⟨0, _⟩ => rfl
        | ⟨1, _⟩ => rfl)]
  rfl

end Kernel

/-! ## The reference's matrix product at an entry -/

section Host
open Cert.ReferenceIdeal Cert.ReferenceIdeal.Gen

theorem lhsH_0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhsH_1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhsH_0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhsH_1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's whole matrix product is `prod`: at every entry the same sum over the contracted axis. -/
theorem hostProd_eq (X : FVec Ideal S100000x128 .f32) (W : FVec Ideal S128x128 .f32) :
    Host.dotGeneral (F := Ideal) dot_S100000x128_S128x128_S100000x128_1_0_0_1_n_n none X W = (Cert.Gcn.Dense2.prod X W : FVec Ideal S100000x128 .f32) := by
  funext i
  simp only [Host.dotGeneral]
  rw [Ideal.dotGeneral_apply, ← Equiv.sum_comp (ValueIdx.contrEquiv1 dot_S100000x128_S128x128_S100000x128_1_0_0_1_n_n 128 rfl rfl).symm]
  unfold Cert.Gcn.Dense2.prod
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = Cert.Gcn.Dense2.arrL i k := funext fun a => Fin.ext (by
    match a with
    | ⟨0, _⟩ => exact lhsH_0 _ _
    | ⟨1, _⟩ => exact (lhsH_1 _ _).trans hk)
  have er : dot_S100000x128_S128x128_S100000x128_1_0_0_1_n_n.rhsIdx i ((ValueIdx.contrEquiv1 dot_S100000x128_S128x128_S100000x128_1_0_0_1_n_n 128 rfl rfl).symm k) = Cert.Gcn.Dense2.arrR i k := funext fun a => Fin.ext (by
    match a with
    | ⟨0, _⟩ => exact (rhsH_0 _ _).trans hk
    | ⟨1, _⟩ => exact rhsH_1 _ _)
  rw [el, er]

end Host

end Cert.Gcn.Dense2

end
-- ==== Proof.DenseBlocks2.lean ====
/-
  Layer 2's dense region, from blocks to whole arrays. The grid has 50 points; point t stages rows 2000·t … 2000·t + 1999
  of the left operand and of the normalisation column, the whole weight matrix and the whole bias row, and writes back rows
  2000·t … 2000·t + 1999 of the two results. So entry (r, c) of either result is written by point r / 2000 alone, from row r
  of the left operand: the product array is X · W and the self-loop array (X · W) · d + b, whole, whatever the buffers held
  when the region was entered.
-/
import proofs.«179274_j71734543778059_1_alg».proof.Proof.Gen.KernelIdeal.Frame
import proofs.«179274_j71734543778059_1_alg».proof.Proof.Dense2
import Idealize.ShloMosaic.Lib.Pipeline.Value

set_option maxRecDepth 16384

noncomputable section

namespace Cert.Gcn.DenseBlocks2

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the whole ones at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The block product at point t, at the block's entry j, is the whole product at the array entry i in row 2000·t + j₀, column j₁. -/
theorem prod_at (c : Dev nD) (t : Fin cfg2.N) (j : S2000x128.Idx) (i : S100000x128.Idx)
    (hi0 : (i 0).val = t.val * 2000 + (j 0).val) (hi1 : (i 1).val = (j 1).val) :
    k2_pay1 (F := Ideal) (iblk2 V c 0 t) (iblk2 V c 1 t) j = Dense2.prod (V c main_v43) (V c main_arg4) i := by
  obtain ⟨e00, e01, e10, e11, -⟩ := idx_facts t
  refine (Dense2.blockProd_apply (iblk2 V c 0 t) (iblk2 V c 1 t) j).trans ?_
  unfold Dense2.prod
  refine Finset.sum_congr rfl fun k _ => ?_
  have h0 : iblk2 V c 0 t (Dense2.blkL j k) = V c main_v43 (Dense2.arrL i k) := by
    show V c main_v43 (((cfg2.win 0).blk t).view.emb (Dense2.blkL j k)) = _
    refine congrArg (V c main_v43) (funext fun a => Fin.ext ?_)
    match a with
    | ⟨0, _⟩ => show win2_0.index t (0 : Fin 2) * 2000 + 1 * (j 0).val = (i 0).val; omega
    | ⟨1, _⟩ => show win2_0.index t (1 : Fin 2) * 128 + 1 * k.val = k.val; omega
  have h1 : iblk2 V c 1 t (Dense2.blkR j k) = V c main_arg4 (Dense2.arrR i k) := by
    show V c main_arg4 (((cfg2.win 1).blk t).view.emb (Dense2.blkR j k)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = (i 1).val; omega
  rw [h0, h1]

/-- What point t writes back through the product window: block t of X · W. -/
theorem flushedProd_eq (c : Dev nD) (t : Fin cfg2.N) :
    (dat2 V c).flushed 4 t = ((cfg2.win 4).blk t).view.read (Elt Ideal) (Dense2.prod (V c main_v43) (V c main_arg4)) := by
  show (cfg2.win 4).cut (grid2.coords t) ((dat2 V c).after 4 t) = _
  rw [after2_4]
  unfold out2_4
  rw [View.canon_unit_zero hz]
  simp only [View.ld_unit_zero (S := S2000x128) hz, View.ld_unit_zero (S := S128x128) hz]
  obtain ⟨-, -, -, -, -, -, -, -, e40, e41, -⟩ := idx_facts t
  funext j
  show k2_pay1 (F := Ideal) (iblk2 V c 0 t) (iblk2 V c 1 t) j = Dense2.prod (V c main_v43) (V c main_arg4) (((cfg2.win 4).blk t).view.emb j)
  refine prod_at V c t j _ ?_ ?_
  · show win2_4.index t (0 : Fin 2) * 2000 + 1 * (j 0).val = _; omega
  · show win2_4.index t (1 : Fin 2) * 128 + 1 * (j 1).val = _; omega

/-- What point t writes back through the self-loop window: block t of (X · W) · d + b. -/
theorem flushedSelf_eq (c : Dev nD) (t : Fin cfg2.N) :
    (dat2 V c).flushed 5 t = ((cfg2.win 5).blk t).view.read (Elt Ideal)
      (Dense2.selfTerm (V c main_v43) (V c main_arg4) (V c main_v12) (V c main_v44)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S2000x1) hz, View.ld_unit_zero (S := S1x128) hz]
  obtain ⟨-, -, -, -, e20, e21, e30, e31, -, -, e50, e51⟩ := idx_facts t
  funext j
  show k2_pay2 (F := Ideal) (iblk2 V c 0 t) (iblk2 V c 1 t) (iblk2 V c 2 t) (iblk2 V c 3 t) j
    = Dense2.selfTerm (V c main_v43) (V c main_arg4) (V c main_v12) (V c main_v44) (((cfg2.win 5).blk t).view.emb j)
  refine (Dense2.blockSelf_apply _ _ _ _ j).trans ?_
  unfold Dense2.selfTerm
  have hi0 : ((((cfg2.win 5).blk t).view.emb j) 0).val = t.val * 2000 + (j 0).val := by
    show win2_5.index t (0 : Fin 2) * 2000 + 1 * (j 0).val = _; omega
  have hi1 : ((((cfg2.win 5).blk t).view.emb j) 1).val = (j 1).val := by
    show win2_5.index t (1 : Fin 2) * 128 + 1 * (j 1).val = _; omega
  have hd : iblk2 V c 2 t (Dense2.colOf j) = V c main_v12 (Dense2.arrCol (((cfg2.win 5).blk t).view.emb j)) := by
    show V c main_v12 (((cfg2.win 2).blk t).view.emb (Dense2.colOf j)) = _
    refine congrArg (V c main_v12) (funext fun a => Fin.ext ?_)
    match a with
    | ⟨0, _⟩ => show win2_2.index t (0 : Fin 2) * 2000 + 1 * (j 0).val = ((((cfg2.win 5).blk t).view.emb j) 0).val; omega
    | ⟨1, _⟩ => show win2_2.index t (1 : Fin 2) * 1 + 1 * 0 = 0; omega
  have hb : iblk2 V c 3 t (Dense2.rowOf j) = V c main_v44 (Dense2.arrRow (((cfg2.win 5).blk t).view.emb j)) := by
    show V c main_v44 (((cfg2.win 3).blk t).view.emb (Dense2.rowOf j)) = _
    refine congrArg (V c main_v44) (funext fun a => Fin.ext ?_)
    match a with
    | ⟨0, _⟩ => show win2_3.index t (0 : Fin 2) * 1 + 1 * 0 = 0; omega
    | ⟨1, _⟩ => show win2_3.index t (1 : Fin 2) * 128 + 1 * (j 1).val = ((((cfg2.win 5).blk t).view.emb j) 1).val; omega
  rw [prod_at V c t j _ hi0 hi1, hd, hb]

/-- An array index is in point t's block of an output window iff each coordinate is in the block's range. -/
theorem mem_blk4 (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v45_0).slice (win2_4.rect t)).set ↔ _
  rw [View.set_slice_whole, Rect.mem_set_unit]
  exact Iff.rfl
theorem mem_blk5 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v45_1).slice (win2_5.rect t)).set ↔ _
  rw [View.set_slice_whole, Rect.mem_set_unit]
  exact Iff.rfl

/-- Row r is covered by point r / 2000. -/
theorem point_of (i : S100000x128.Idx) : ∃ t : Fin cfg2.N, t.val = (i 0).val / 2000 := by
  have hN : grid2.N = 50 := N_2
  have hi0 : (i 0).val < 100000 := (i 0).isLt
  exact ⟨⟨(i 0).val / 2000, by show _ < grid2.N; rw [hN]; omega⟩, rfl⟩

theorem cover4 (i : S100000x128.Idx) : ∃ t : Fin cfg2.N, (cfg2.win 4).flush t = true ∧ i ∈ ((cfg2.win 4).blk t).view.set := by
  obtain ⟨t, ht⟩ := point_of i
  obtain ⟨-, -, -, -, -, -, -, -, e40, e41, -⟩ := idx_facts t
  have hi1 : (i 1).val < 128 := (i 1).isLt
  refine ⟨t, flush2_4 t, ?_⟩
  rw [mem_blk4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

theorem cover5 (i : S100000x128.Idx) : ∃ t : Fin cfg2.N, (cfg2.win 5).flush t = true ∧ i ∈ ((cfg2.win 5).blk t).view.set := by
  obtain ⟨t, ht⟩ := point_of i
  obtain ⟨-, -, -, -, -, -, -, -, -, -, e50, e51⟩ := idx_facts t
  have hi1 : (i 1).val < 128 := (i 1).isLt
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The product array after the region: X · W of the arrays the region found. -/
theorem finalProd (c : Dev nD) : (dat2 V c).arrAt 4 cfg2.N = Dense2.prod (V c main_v43) (V c main_arg4) :=
  (dat2 V c).arrAt_eq_of_cover 4 (Dense2.prod (V c main_v43) (V c main_arg4)) (fun t _ => flushedProd_eq V c t) cover4

/-- The self-loop array after the region: (X · W) · d + b of the arrays the region found. -/
theorem finalSelf (c : Dev nD) : (dat2 V c).arrAt 5 cfg2.N = Dense2.selfTerm (V c main_v43) (V c main_arg4) (V c main_v12) (V c main_v44) :=
  (dat2 V c).arrAt_eq_of_cover 5 (Dense2.selfTerm (V c main_v43) (V c main_arg4) (V c main_v12) (V c main_v44)) (fun t _ => flushedSelf_eq V c t) cover5

end Cert.Gcn.DenseBlocks2

end
-- ==== Proof.Dense3.lean ====
/-
  Layer 3's dense product, entry by entry. The kernel multiplies a block of 2000 rows by the whole weight matrix on the
  matrix unit into a zero accumulator, and from that product forms the self-loop term  h · d + b  (d the row's
  normalisation, one per row; b the bias, one per column). The reference takes one whole matrix product on the host.
  Over the extended reals each entry of either product is the same finite sum over the contracted axis,
      (X · W)[r, c] = ∑ k, X[r, k] · W[k, c],
  the change of float format before the matrix unit being the identity there.
-/
import proofs.«179274_j71734543778059_1_alg».proof.Proof.Gen.KernelIdeal.Skeleton
import proofs.«179274_j71734543778059_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Dense3

open Idealize.ShloMosaic Idealize.ShloMosaic.TcCoe

/-! ## Indices from coordinates, at the literal shapes -/

/-- Entry (r, k) of a block of the left operand, from the output entry's row and a contraction index. -/
abbrev blkL (j : Cert.KernelIdeal.S2000x40.Idx) (k : Fin 128) : Cert.KernelIdeal.S2000x128.Idx := fun a => match a with
  | ⟨0, _⟩ => ⟨(j 0).val, (j 0).isLt⟩
  | ⟨1, _⟩ => ⟨k.val, k.isLt⟩
/-- Entry (k, c) of the weight matrix, from a contraction index and the output entry's column. -/
abbrev blkR (j : Cert.KernelIdeal.S2000x40.Idx) (k : Fin 128) : Cert.KernelIdeal.S128x40.Idx := fun a => match a with
  | ⟨0, _⟩ => ⟨k.val, k.isLt⟩
  | ⟨1, _⟩ => ⟨(j 1).val, (j 1).isLt⟩
/-- The same two for the whole arrays. -/
abbrev arrL (i : Cert.KernelIdeal.S100000x40.Idx) (k : Fin 128) : Cert.KernelIdeal.S100000x128.Idx := fun a => match a with
  | ⟨0, _⟩ => ⟨(i 0).val, (i 0).isLt⟩
  | ⟨1, _⟩ => ⟨k.val, k.isLt⟩
abbrev arrR (i : Cert.KernelIdeal.S100000x40.Idx) (k : Fin 128) : Cert.KernelIdeal.S128x40.Idx := fun a => match a with
  | ⟨0, _⟩ => ⟨k.val, k.isLt⟩
  | ⟨1, _⟩ => ⟨(i 1).val, (i 1).isLt⟩
/-- The row's entry of the normalisation column, and the column's entry of the bias row. -/
abbrev colOf (j : Cert.KernelIdeal.S2000x40.Idx) : Cert.KernelIdeal.S2000x1.Idx := fun a => match a with
  | ⟨0, _⟩ => ⟨(j 0).val, (j 0).isLt⟩
  | ⟨1, _⟩ => ⟨0, Nat.zero_lt_one⟩
abbrev rowOf (j : Cert.KernelIdeal.S2000x40.Idx) : Cert.KernelIdeal.S1x40.Idx := fun a => match a with
  | ⟨0, _⟩ => ⟨0, Nat.zero_lt_one⟩
  | ⟨1, _⟩ => ⟨(j 1).val, (j 1).isLt⟩
abbrev arrCol (i : Cert.KernelIdeal.S100000x40.Idx) : Cert.KernelIdeal.S100000x1.Idx := fun a => match a with
  | ⟨0, _⟩ => ⟨(i 0).val, (i 0).isLt⟩
  | ⟨1, _⟩ => ⟨0, Nat.zero_lt_one⟩
abbrev arrRow (i : Cert.KernelIdeal.S100000x40.Idx) : Cert.KernelIdeal.S1x40.Idx := fun a => match a with
  | ⟨0, _⟩ => ⟨0, Nat.zero_lt_one⟩
  | ⟨1, _⟩ => ⟨(i 1).val, (i 1).isLt⟩

/-! ## The whole-array functions -/

/-- The product X · W, entry by entry. -/
def prod (X : Cert.KernelIdeal.S100000x128.Idx → EReal) (W : Cert.KernelIdeal.S128x40.Idx → EReal) : Cert.KernelIdeal.S100000x40.Idx → EReal :=
  fun i => ∑ k : Fin 128, X (arrL i k) * W (arrR i k)

/-- The self-loop term (X · W)[r, c] · d[r] + b[c]. -/
def selfTerm (X : Cert.KernelIdeal.S100000x128.Idx → EReal) (W : Cert.KernelIdeal.S128x40.Idx → EReal)
    (D : Cert.KernelIdeal.S100000x1.Idx → EReal) (B : Cert.KernelIdeal.S1x40.Idx → EReal) : Cert.KernelIdeal.S100000x40.Idx → EReal :=
  fun i => prod X W i * D (arrCol i) + B (arrRow i)

/-! ## The kernel's matrix product at an entry -/

section Kernel
open Cert.KernelIdeal Cert.KernelIdeal.Gen

theorem lhsK_0 (j : S2000x40.Idx) (q : dot_S2000x128_S128x40_S2000x40_1_0_0_1_n_n.contr.Idx) : (dot_S2000x128_S128x40_S2000x40_1_0_0_1_n_n.lhsIdx j q 0).val = (j 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhsK_1 (j : S2000x40.Idx) (q : dot_S2000x128_S128x40_S2000x40_1_0_0_1_n_n.contr.Idx) : (dot_S2000x128_S128x40_S2000x40_1_0_0_1_n_n.lhsIdx j q 1).val = (q ⟨0, by decide⟩).val :=
  dot_S2000x128_S128x40_S2000x40_1_0_0_1_n_n.lhsIdx_val_of_single rfl j q
theorem rhsK_0 (j : S2000x40.Idx) (q : dot_S2000x128_S128x40_S2000x40_1_0_0_1_n_n.contr.Idx) : (dot_S2000x128_S128x40_S2000x40_1_0_0_1_n_n.rhsIdx j q 0).val = (q ⟨0, by decide⟩).val :=
  dot_S2000x128_S128x40_S2000x40_1_0_0_1_n_n.rhsIdx_val_of_single rfl j q
theorem rhsK_1 (j : S2000x40.Idx) (q : dot_S2000x128_S128x40_S2000x40_1_0_0_1_n_n.contr.Idx) : (dot_S2000x128_S128x40_S2000x40_1_0_0_1_n_n.rhsIdx j q 1).val = (j 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The matrix unit's product of a block with the weights, into zero, at an entry: the sum over the contracted axis. -/
theorem blockProd_apply (x0 : Vec Ideal S2000x128 .f32) (x1 : Vec Ideal S128x40 .f32) (j : S2000x40.Idx) :
    k4_pay1 (F := Ideal) x0 x1 j = ∑ k : Fin 128, x0 (blkL j k) * x1 (blkR j k) := by
  unfold k4_pay1
  refine (Ideal.matmul_constant_zero_apply dot_S2000x128_S128x40_S2000x40_1_0_0_1_n_n none _ _ j).trans ?_
  rw [← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx j ((ValueIdx.contrEquiv1 dot_S2000x128_S128x40_S2000x40_1_0_0_1_n_n 128 rfl rfl).symm k) = blkL j k := funext fun a => Fin.ext (by
    match a with
    | ⟨0, _⟩ => exact lhsK_0 _ _
    | ⟨1, _⟩ => exact (lhsK_1 _ _).trans hk)
  have er : dot_S2000x128_S128x40_S2000x40_1_0_0_1_n_n.rhsIdx j ((ValueIdx.contrEquiv1 dot_S2000x128_S128x40_S2000x40_1_0_0_1_n_n 128 rfl rfl).symm k) = blkR j k := funext fun a => Fin.ext (by
    match a with
    | ⟨0, _⟩ => exact (rhsK_0 _ _).trans hk
    | ⟨1, _⟩ => exact rhsK_1 _ _)
  rw [el, er]
  first | rfl | (rw [shapeCast_self]; rfl) | (simp only [shapeCast_self]; rfl)

/-- The self-loop term of a block at an entry: the product's entry times the row's normalisation plus the column's bias. -/
theorem blockSelf_apply (x0 : Vec Ideal S2000x128 .f32) (x1 : Vec Ideal S128x40 .f32) (x2 : Vec Ideal S2000x1 .f32) (x3 : Vec Ideal S1x40 .f32)
    (j : S2000x40.Idx) :
    k4_pay2 (F := Ideal) x0 x1 x2 x3 j = k4_pay1 (F := Ideal) x0 x1 j * x2 (colOf j) + x3 (rowOf j) := by
  unfold k4_pay2
  show FloatOps.addf (FloatOps.mulf (k4_pay1 (F := Ideal) x0 x1 j) (broadcastTo S2000x40 (shapeCast S2000x1 x2 _) _ j)) (broadcastTo S2000x40 (shapeCast S1x40 x3 _) _ j) = _
  rw [shapeCast_self, shapeCast_self]
  rw [broadcastTo_apply x2 _ j (colOf j) (fun a => by
        match a with
        | ⟨0, _⟩ => rfl
        | ⟨1, _⟩ => rfl),
      broadcastTo_apply x3 _ j (rowOf j) (fun a => by
        match a with
        | ⟨0, _⟩ => rfl
        | ⟨1, _⟩ => rfl)]
  rfl

end Kernel

/-! ## The reference's matrix product at an entry -/

section Host
open Cert.ReferenceIdeal Cert.ReferenceIdeal.Gen

theorem lhsH_0 (i : S100000x40.Idx) (q : dot_S100000x128_S128x40_S100000x40_1_0_0_1_n_n.contr.Idx) : (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem lhsH_1 (i : S100000x40.Idx) (q : dot_S100000x128_S128x40_S100000x40_1_0_0_1_n_n.contr.Idx) : (dot_S100000x128_S128x40_S100000x40_1_0_0_1_n_n.lhsIdx i q 1).val = (q ⟨0, by decide⟩).val :=
  dot_S100000x128_S128x40_S100000x40_1_0_0_1_n_n.lhsIdx_val_of_single rfl i q
theorem rhsH_0 (i : S100000x40.Idx) (q : dot_S100000x128_S128x40_S100000x40_1_0_0_1_n_n.contr.Idx) : (dot_S100000x128_S128x40_S100000x40_1_0_0_1_n_n.rhsIdx i q 0).val = (q ⟨0, by decide⟩).val :=
  dot_S100000x128_S128x40_S100000x40_1_0_0_1_n_n.rhsIdx_val_of_single rfl i q
theorem rhsH_1 (i : S100000x40.Idx) (q : dot_S100000x128_S128x40_S100000x40_1_0_0_1_n_n.contr.Idx) : (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- The host's whole matrix product is `prod`: at every entry the same sum over the contracted axis. -/
theorem hostProd_eq (X : FVec Ideal S100000x128 .f32) (W : FVec Ideal S128x40 .f32) :
    Host.dotGeneral (F := Ideal) dot_S100000x128_S128x40_S100000x40_1_0_0_1_n_n none X W = (Cert.Gcn.Dense3.prod X W : FVec Ideal S100000x40 .f32) := by
  funext i
  simp only [Host.dotGeneral]
  rw [Ideal.dotGeneral_apply, ← Equiv.sum_comp (ValueIdx.contrEquiv1 dot_S100000x128_S128x40_S100000x40_1_0_0_1_n_n 128 rfl rfl).symm]
  unfold Cert.Gcn.Dense3.prod
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx i ((ValueIdx.contrEquiv1 dot_S100000x128_S128x40_S100000x40_1_0_0_1_n_n 128 rfl rfl).symm k) = Cert.Gcn.Dense3.arrL i k := funext fun a => Fin.ext (by
    match a with
    | ⟨0, _⟩ => exact lhsH_0 _ _
    | ⟨1, _⟩ => exact (lhsH_1 _ _).trans hk)
  have er : dot_S100000x128_S128x40_S100000x40_1_0_0_1_n_n.rhsIdx i ((ValueIdx.contrEquiv1 dot_S100000x128_S128x40_S100000x40_1_0_0_1_n_n 128 rfl rfl).symm k) = Cert.Gcn.Dense3.arrR i k := funext fun a => Fin.ext (by
    match a with
    | ⟨0, _⟩ => exact (rhsH_0 _ _).trans hk
    | ⟨1, _⟩ => exact rhsH_1 _ _)
  rw [el, er]

end Host

end Cert.Gcn.Dense3

end
-- ==== Proof.DenseBlocks3.lean ====
/-
  Layer 3's dense region, from blocks to whole arrays. The grid has 50 points; point t stages rows 2000·t … 2000·t + 1999
  of the left operand and of the normalisation column, the whole weight matrix and the whole bias row, and writes back rows
  2000·t … 2000·t + 1999 of the two results. So entry (r, c) of either result is written by point r / 2000 alone, from row r
  of the left operand: the product array is X · W and the self-loop array (X · W) · d + b, whole, whatever the buffers held
  when the region was entered.
-/
import proofs.«179274_j71734543778059_1_alg».proof.Proof.Gen.KernelIdeal.Frame
import proofs.«179274_j71734543778059_1_alg».proof.Proof.Dense3
import Idealize.ShloMosaic.Lib.Pipeline.Value

set_option maxRecDepth 16384

noncomputable section

namespace Cert.Gcn.DenseBlocks3

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the whole ones at (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The block product at point t, at the block's entry j, is the whole product at the array entry i in row 2000·t + j₀, column j₁. -/
theorem prod_at (c : Dev nD) (t : Fin cfg4.N) (j : S2000x40.Idx) (i : S100000x40.Idx)
    (hi0 : (i 0).val = t.val * 2000 + (j 0).val) (hi1 : (i 1).val = (j 1).val) :
    k4_pay1 (F := Ideal) (iblk4 V c 0 t) (iblk4 V c 1 t) j = Dense3.prod (V c main_v74) (V c main_arg6) i := by
  obtain ⟨e00, e01, e10, e11, -⟩ := idx_facts t
  refine (Dense3.blockProd_apply (iblk4 V c 0 t) (iblk4 V c 1 t) j).trans ?_
  unfold Dense3.prod
  refine Finset.sum_congr rfl fun k _ => ?_
  have h0 : iblk4 V c 0 t (Dense3.blkL j k) = V c main_v74 (Dense3.arrL i k) := by
    show V c main_v74 (((cfg4.win 0).blk t).view.emb (Dense3.blkL j k)) = _
    refine congrArg (V c main_v74) (funext fun a => Fin.ext ?_)
    match a with
    | ⟨0, _⟩ => show win4_0.index t (0 : Fin 2) * 2000 + 1 * (j 0).val = (i 0).val; omega
    | ⟨1, _⟩ => show win4_0.index t (1 : Fin 2) * 128 + 1 * k.val = k.val; omega
  have h1 : iblk4 V c 1 t (Dense3.blkR j k) = V c main_arg6 (Dense3.arrR i k) := by
    show V c main_arg6 (((cfg4.win 1).blk t).view.emb (Dense3.blkR j k)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 40 + 1 * (j 1).val = (i 1).val; omega
  rw [h0, h1]

/-- What point t writes back through the product window: block t of X · W. -/
theorem flushedProd_eq (c : Dev nD) (t : Fin cfg4.N) :
    (dat4 V c).flushed 4 t = ((cfg4.win 4).blk t).view.read (Elt Ideal) (Dense3.prod (V c main_v74) (V c main_arg6)) := by
  show (cfg4.win 4).cut (grid4.coords t) ((dat4 V c).after 4 t) = _
  rw [after4_4]
  unfold out4_4
  rw [View.canon_unit_zero hz]
  simp only [View.ld_unit_zero (S := S2000x128) hz, View.ld_unit_zero (S := S128x40) hz]
  obtain ⟨-, -, -, -, -, -, -, -, e40, e41, -⟩ := idx_facts t
  funext j
  show k4_pay1 (F := Ideal) (iblk4 V c 0 t) (iblk4 V c 1 t) j = Dense3.prod (V c main_v74) (V c main_arg6) (((cfg4.win 4).blk t).view.emb j)
  refine prod_at V c t j _ ?_ ?_
  · show win4_4.index t (0 : Fin 2) * 2000 + 1 * (j 0).val = _; omega
  · show win4_4.index t (1 : Fin 2) * 40 + 1 * (j 1).val = _; omega

/-- What point t writes back through the self-loop window: block t of (X · W) · d + b. -/
theorem flushedSelf_eq (c : Dev nD) (t : Fin cfg4.N) :
    (dat4 V c).flushed 5 t = ((cfg4.win 5).blk t).view.read (Elt Ideal)
      (Dense3.selfTerm (V c main_v74) (V c main_arg6) (V c main_v12) (V c main_v75)) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x40) hz, View.ld_unit_zero (S := S2000x1) hz, View.ld_unit_zero (S := S1x40) hz]
  obtain ⟨-, -, -, -, e20, e21, e30, e31, -, -, e50, e51⟩ := idx_facts t
  funext j
  show k4_pay2 (F := Ideal) (iblk4 V c 0 t) (iblk4 V c 1 t) (iblk4 V c 2 t) (iblk4 V c 3 t) j
    = Dense3.selfTerm (V c main_v74) (V c main_arg6) (V c main_v12) (V c main_v75) (((cfg4.win 5).blk t).view.emb j)
  refine (Dense3.blockSelf_apply _ _ _ _ j).trans ?_
  unfold Dense3.selfTerm
  have hi0 : ((((cfg4.win 5).blk t).view.emb j) 0).val = t.val * 2000 + (j 0).val := by
    show win4_5.index t (0 : Fin 2) * 2000 + 1 * (j 0).val = _; omega
  have hi1 : ((((cfg4.win 5).blk t).view.emb j) 1).val = (j 1).val := by
    show win4_5.index t (1 : Fin 2) * 40 + 1 * (j 1).val = _; omega
  have hd : iblk4 V c 2 t (Dense3.colOf j) = V c main_v12 (Dense3.arrCol (((cfg4.win 5).blk t).view.emb j)) := by
    show V c main_v12 (((cfg4.win 2).blk t).view.emb (Dense3.colOf j)) = _
    refine congrArg (V c main_v12) (funext fun a => Fin.ext ?_)
    match a with
    | ⟨0, _⟩ => show win4_2.index t (0 : Fin 2) * 2000 + 1 * (j 0).val = ((((cfg4.win 5).blk t).view.emb j) 0).val; omega
    | ⟨1, _⟩ => show win4_2.index t (1 : Fin 2) * 1 + 1 * 0 = 0; omega
  have hb : iblk4 V c 3 t (Dense3.rowOf j) = V c main_v75 (Dense3.arrRow (((cfg4.win 5).blk t).view.emb j)) := by
    show V c main_v75 (((cfg4.win 3).blk t).view.emb (Dense3.rowOf j)) = _
    refine congrArg (V c main_v75) (funext fun a => Fin.ext ?_)
    match a with
    | ⟨0, _⟩ => show win4_3.index t (0 : Fin 2) * 1 + 1 * 0 = 0; omega
    | ⟨1, _⟩ => show win4_3.index t (1 : Fin 2) * 40 + 1 * (j 1).val = ((((cfg4.win 5).blk t).view.emb j) 1).val; omega
  rw [prod_at V c t j _ hi0 hi1, hd, hb]

/-- An array index is in point t's block of an output window iff each coordinate is in the block's range. -/
theorem mem_blk4 (t : Fin cfg4.N) (i : S100000x40.Idx) :
    i ∈ ((cfg4.win 4).blk t).view.set ↔ ∀ a : Fin 2, win4_4.index t a * S2000x40.size a ≤ (i a).val ∧ (i a).val < win4_4.index t a * S2000x40.size a + S2000x40.size a := by
  show i ∈ ((View.whole main_v76_0).slice (win4_4.rect t)).set ↔ _
  rw [View.set_slice_whole, Rect.mem_set_unit]
  exact Iff.rfl
theorem mem_blk5 (t : Fin cfg4.N) (i : S100000x40.Idx) :
    i ∈ ((cfg4.win 5).blk t).view.set ↔ ∀ a : Fin 2, win4_5.index t a * S2000x40.size a ≤ (i a).val ∧ (i a).val < win4_5.index t a * S2000x40.size a + S2000x40.size a := by
  show i ∈ ((View.whole main_v76_1).slice (win4_5.rect t)).set ↔ _
  rw [View.set_slice_whole, Rect.mem_set_unit]
  exact Iff.rfl

/-- Row r is covered by point r / 2000. -/
theorem point_of (i : S100000x40.Idx) : ∃ t : Fin cfg4.N, t.val = (i 0).val / 2000 := by
  have hN : grid4.N = 50 := N_4
  have hi0 : (i 0).val < 100000 := (i 0).isLt
  exact ⟨⟨(i 0).val / 2000, by show _ < grid4.N; rw [hN]; omega⟩, rfl⟩

theorem cover4 (i : S100000x40.Idx) : ∃ t : Fin cfg4.N, (cfg4.win 4).flush t = true ∧ i ∈ ((cfg4.win 4).blk t).view.set := by
  obtain ⟨t, ht⟩ := point_of i
  obtain ⟨-, -, -, -, -, -, -, -, e40, e41, -⟩ := idx_facts t
  have hi1 : (i 1).val < 40 := (i 1).isLt
  refine ⟨t, flush4_4 t, ?_⟩
  rw [mem_blk4]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 40 ≤ (i 1).val ∧ (i 1).val < win4_4.index t (1 : Fin 2) * 40 + 40; omega

theorem cover5 (i : S100000x40.Idx) : ∃ t : Fin cfg4.N, (cfg4.win 5).flush t = true ∧ i ∈ ((cfg4.win 5).blk t).view.set := by
  obtain ⟨t, ht⟩ := point_of i
  obtain ⟨-, -, -, -, -, -, -, -, -, -, e50, e51⟩ := idx_facts t
  have hi1 : (i 1).val < 40 := (i 1).isLt
  refine ⟨t, flush4_5 t, ?_⟩
  rw [mem_blk5]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 40 ≤ (i 1).val ∧ (i 1).val < win4_5.index t (1 : Fin 2) * 40 + 40; omega

/-- The product array after the region: X · W of the arrays the region found. -/
theorem finalProd (c : Dev nD) : (dat4 V c).arrAt 4 cfg4.N = Dense3.prod (V c main_v74) (V c main_arg6) :=
  (dat4 V c).arrAt_eq_of_cover 4 (Dense3.prod (V c main_v74) (V c main_arg6)) (fun t _ => flushedProd_eq V c t) cover4

/-- The self-loop array after the region: (X · W) · d + b of the arrays the region found. -/
theorem finalSelf (c : Dev nD) : (dat4 V c).arrAt 5 cfg4.N = Dense3.selfTerm (V c main_v74) (V c main_arg6) (V c main_v12) (V c main_v75) :=
  (dat4 V c).arrAt_eq_of_cover 5 (Dense3.selfTerm (V c main_v74) (V c main_arg6) (V c main_v12) (V c main_v75)) (fun t _ => flushedSelf_eq V c t) cover5

end Cert.Gcn.DenseBlocks3

end
-- ==== Proof.Combine1.lean ====
/-
  Layer 1's combine region: the aggregated messages plus the self-loop term, then the positive part, entry by entry.
  The body is pointwise and every window is blocked by the same 2000 rows, so point t writes back rows 2000·t … 2000·t + 1999
  of the pointwise combination of the two input arrays, and the points cover every row: the result array is that
  combination, whole. The positive part is the maximum with the zero word, on the host the maximum with a zero splat.
-/
import proofs.«179274_j71734543778059_1_alg».proof.Proof.Gen.KernelIdeal.Frame
import proofs.«179274_j71734543778059_1_alg».proof.Proof.Gen.ReferenceIdeal
import Idealize.ShloMosaic.Lib.ValueIdx
import Idealize.ShloMosaic.Lib.Pipeline.Value

set_option maxRecDepth 16384

noncomputable section

namespace Cert.Gcn.Combine1

open Idealize.ShloMosaic Idealize.ShloMosaic.TcCoe Idealize.SL.Sem
open Idealize.ShloMosaic.Pipeline (Dat)

/-- The combination of two arrays, entry by entry. -/
def comb (A S : Cert.KernelIdeal.S100000x128.Idx → EReal) : Cert.KernelIdeal.S100000x128.Idx → EReal :=
  fun i => FloatOps.maximumf (FloatOps.addf (A i) (S i)) (Scalar.ofBits (F := Ideal) .f32 0x00000000#32)

section Host
open Cert.ReferenceIdeal Cert.ReferenceIdeal.Gen
/-- The host's spelling of the same combination. -/
theorem host_eq (A S : FVec Ideal S100000x128 .f32) :
    maximumf (addf A S) (broadcastInDim S100000x128 ![] bcast_S_S100000x128 (constant (F := Ideal) S_ .f32 0x00000000#32))
      = (Cert.Gcn.Combine1.comb A S : FVec Ideal S100000x128 .f32) := by
  funext i
  show FloatOps.maximumf (FloatOps.addf (A i) (S i)) (broadcastInDim S100000x128 ![] bcast_S_S100000x128 (constant (F := Ideal) S_ .f32 0x00000000#32) i) = _
  rw [broadcastInDim_apply _ bcast_S_S100000x128 (constant (F := Ideal) S_ .f32 0x00000000#32) i (fun a => a.elim0) (fun a => a.elim0)]
  rfl
end Host

open Cert.KernelIdeal Cert.KernelIdeal.Gen

/-- The body's arithmetic at an entry of a block. -/
theorem block_apply (x0 x1 : Vec Ideal S2000x128 .f32) (j : S2000x128.Idx) :
    k1_pay1 (F := Ideal) x0 x1 j = FloatOps.maximumf (FloatOps.addf (x0 j) (x1 j)) (Scalar.ofBits (F := Ideal) .f32 0x00000000#32) := by
  unfold k1_pay1
  show FloatOps.maximumf (FloatOps.addf (shapeCast S2000x128 x0 _ j) (shapeCast S2000x128 x1 _ j)) (Scalar.ofBits (F := Ideal) .f32 0x00000000#32) = _
  rw [shapeCast_self, shapeCast_self]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: all three windows are at block (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back: block t of the combination of the two arrays the region found. -/
theorem flushed_eq (c : Dev nD) (t : Fin cfg1.N) :
    (dat1 V c).flushed 2 t = ((cfg1.win 2).blk t).view.read (Elt Ideal) (comb (V c main_v42) (V c main_v14_1)) := by
  show (cfg1.win 2).cut (grid1.coords t) ((dat1 V c).after 2 t) = _
  rw [after1_2]
  unfold out1_2
  rw [View.canon_unit_zero hz]
  simp only [View.ld_unit_zero (S := S2000x128) hz]
  obtain ⟨e00, e01, e10, e11, e20, e21⟩ := idx_facts t
  funext j
  show k1_pay1 (F := Ideal) (iblk1 V c 0 t) (iblk1 V c 1 t) j = comb (V c main_v42) (V c main_v14_1) (((cfg1.win 2).blk t).view.emb j)
  refine (block_apply (iblk1 V c 0 t) (iblk1 V c 1 t) j).trans ?_
  unfold comb
  have h0 : iblk1 V c 0 t j = V c main_v42 (((cfg1.win 2).blk t).view.emb j) := by
    show V c main_v42 (((cfg1.win 0).blk t).view.emb j) = _
    refine congrArg (V c main_v42) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : iblk1 V c 1 t j = V c main_v14_1 (((cfg1.win 2).blk t).view.emb j) := by
    show V c main_v14_1 (((cfg1.win 1).blk t).view.emb j) = _
    refine congrArg (V c main_v14_1) (funext fun a => Fin.ext ?_)
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 128 + 1 * (j 1).val = win1_2.index t (1 : Fin 2) * 128 + 1 * (j 1).val; omega
  rw [h0, h1]

theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v43).slice (win1_2.rect t)).set ↔ _
  rw [View.set_slice_whole, Rect.mem_set_unit]
  exact Iff.rfl

/-- Row r is covered by point r / 2000. -/
theorem cover (i : S100000x128.Idx) : ∃ t : Fin cfg1.N, (cfg1.win 2).flush t = true ∧ i ∈ ((cfg1.win 2).blk t).view.set := by
  have hN : grid1.N = 50 := N_1
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by show _ < grid1.N; rw [hN]; omega⟩, rfl⟩
  obtain ⟨-, -, -, -, e20, e21⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the region: the combination of the two arrays the region found. -/
theorem final (c : Dev nD) : (dat1 V c).arrAt 2 cfg1.N = comb (V c main_v42) (V c main_v14_1) :=
  (dat1 V c).arrAt_eq_of_cover 2 (comb (V c main_v42) (V c main_v14_1)) (fun t _ => flushed_eq V c t) cover

end Cert.Gcn.Combine1

end
-- ==== Proof.Combine2.lean ====
/-
  Layer 2's combine region: the aggregated messages plus the self-loop term, then the positive part, entry by entry.
  The body is pointwise and every window is blocked by the same 2000 rows, so point t writes back rows 2000·t … 2000·t + 1999
  of the pointwise combination of the two input arrays, and the points cover every row: the result array is that
  combination, whole. The positive part is the maximum with the zero word, on the host the maximum with a zero splat.
-/
import proofs.«179274_j71734543778059_1_alg».proof.Proof.Gen.KernelIdeal.Frame
import proofs.«179274_j71734543778059_1_alg».proof.Proof.Gen.ReferenceIdeal
import Idealize.ShloMosaic.Lib.ValueIdx
import Idealize.ShloMosaic.Lib.Pipeline.Value

set_option maxRecDepth 16384

noncomputable section

namespace Cert.Gcn.Combine2

open Idealize.ShloMosaic Idealize.ShloMosaic.TcCoe Idealize.SL.Sem
open Idealize.ShloMosaic.Pipeline (Dat)

/-- The combination of two arrays, entry by entry. -/
def comb (A S : Cert.KernelIdeal.S100000x128.Idx → EReal) : Cert.KernelIdeal.S100000x128.Idx → EReal :=
  fun i => FloatOps.maximumf (FloatOps.addf (A i) (S i)) (Scalar.ofBits (F := Ideal) .f32 0x00000000#32)

section Host
open Cert.ReferenceIdeal Cert.ReferenceIdeal.Gen
/-- The host's spelling of the same combination. -/
theorem host_eq (A S : FVec Ideal S100000x128 .f32) :
    maximumf (addf A S) (broadcastInDim S100000x128 ![] bcast_S_S100000x128 (constant (F := Ideal) S_ .f32 0x00000000#32))
      = (Cert.Gcn.Combine2.comb A S : FVec Ideal S100000x128 .f32) := by
  funext i
  show FloatOps.maximumf (FloatOps.addf (A i) (S i)) (broadcastInDim S100000x128 ![] bcast_S_S100000x128 (constant (F := Ideal) S_ .f32 0x00000000#32) i) = _
  rw [broadcastInDim_apply _ bcast_S_S100000x128 (constant (F := Ideal) S_ .f32 0x00000000#32) i (fun a => a.elim0) (fun a => a.elim0)]
  rfl
end Host

open Cert.KernelIdeal Cert.KernelIdeal.Gen

/-- The body's arithmetic at an entry of a block. -/
theorem block_apply (x0 x1 : Vec Ideal S2000x128 .f32) (j : S2000x128.Idx) :
    k3_pay1 (F := Ideal) x0 x1 j = FloatOps.maximumf (FloatOps.addf (x0 j) (x1 j)) (Scalar.ofBits (F := Ideal) .f32 0x00000000#32) := by
  unfold k3_pay1
  show FloatOps.maximumf (FloatOps.addf (shapeCast S2000x128 x0 _ j) (shapeCast S2000x128 x1 _ j)) (Scalar.ofBits (F := Ideal) .f32 0x00000000#32) = _
  rw [shapeCast_self, shapeCast_self]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: all three windows are at block (t, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back: block t of the combination of the two arrays the region found. -/
theorem flushed_eq (c : Dev nD) (t : Fin cfg3.N) :
    (dat3 V c).flushed 2 t = ((cfg3.win 2).blk t).view.read (Elt Ideal) (comb (V c main_v73) (V c main_v45_1)) := by
  show (cfg3.win 2).cut (grid3.coords t) ((dat3 V c).after 2 t) = _
  rw [after3_2]
  unfold out3_2
  rw [View.canon_unit_zero hz]
  simp only [View.ld_unit_zero (S := S2000x128) hz]
  obtain ⟨e00, e01, e10, e11, e20, e21⟩ := idx_facts t
  funext j
  show k3_pay1 (F := Ideal) (iblk3 V c 0 t) (iblk3 V c 1 t) j = comb (V c main_v73) (V c main_v45_1) (((cfg3.win 2).blk t).view.emb j)
  refine (block_apply (iblk3 V c 0 t) (iblk3 V c 1 t) j).trans ?_
  unfold comb
  have h0 : iblk3 V c 0 t j = V c main_v73 (((cfg3.win 2).blk t).view.emb j) := by
    show V c main_v73 (((cfg3.win 0).blk t).view.emb j) = _
    refine congrArg (V c main_v73) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : iblk3 V c 1 t j = V c main_v45_1 (((cfg3.win 2).blk t).view.emb j) := by
    show V c main_v45_1 (((cfg3.win 1).blk t).view.emb j) = _
    refine congrArg (V c main_v45_1) (funext fun a => Fin.ext ?_)
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 128 + 1 * (j 1).val = win3_2.index t (1 : Fin 2) * 128 + 1 * (j 1).val; omega
  rw [h0, h1]

theorem mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v74).slice (win3_2.rect t)).set ↔ _
  rw [View.set_slice_whole, Rect.mem_set_unit]
  exact Iff.rfl

/-- Row r is covered by point r / 2000. -/
theorem cover (i : S100000x128.Idx) : ∃ t : Fin cfg3.N, (cfg3.win 2).flush t = true ∧ i ∈ ((cfg3.win 2).blk t).view.set := by
  have hN : grid3.N = 50 := N_3
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, by show _ < grid3.N; rw [hN]; omega⟩, rfl⟩
  obtain ⟨-, -, -, -, e20, e21⟩ := idx_facts t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The result array after the region: the combination of the two arrays the region found. -/
theorem final (c : Dev nD) : (dat3 V c).arrAt 2 cfg3.N = comb (V c main_v73) (V c main_v45_1) :=
  (dat3 V c).arrAt_eq_of_cover 2 (comb (V c main_v73) (V c main_v45_1)) (fun t _ => flushed_eq V c t) cover

end Cert.Gcn.Combine2

end
-- ==== Proof.Combine3.lean ====
/-
  Layer 3's combine region: the aggregated messages plus the self-loop term, entry by entry.
  The body is pointwise and every window is blocked by the same 2000 rows, so point t writes back rows 2000·t … 2000·t + 1999
  of the pointwise combination of the two input arrays, and the points cover every row: the result array is that
  combination, whole.
-/
import proofs.«179274_j71734543778059_1_alg».proof.Proof.Gen.KernelIdeal.Frame
import proofs.«179274_j71734543778059_1_alg».proof.Proof.Gen.ReferenceIdeal
import Idealize.ShloMosaic.Lib.ValueIdx
import Idealize.ShloMosaic.Lib.Pipeline.Value

set_option maxRecDepth 16384

noncomputable section

namespace Cert.Gcn.Combine3

open Idealize.ShloMosaic Idealize.ShloMosaic.TcCoe Idealize.SL.Sem
open Idealize.ShloMosaic.Pipeline (Dat)

/-- The combination of two arrays, entry by entry. -/
def comb (A S : Cert.KernelIdeal.S100000x40.Idx → EReal) : Cert.KernelIdeal.S100000x40.Idx → EReal :=
  fun i => FloatOps.addf (F := Ideal) (φ := .f32) (A i) (S i)

section Host
open Cert.ReferenceIdeal Cert.ReferenceIdeal.Gen
/-- The host's spelling of the same combination. -/
theorem host_eq (A S : FVec Ideal S100000x40 .f32) :
    addf A S
      = (Cert.Gcn.Combine3.comb A S : FVec Ideal S100000x40 .f32) := by
  funext i
  rfl
end Host

open Cert.KernelIdeal Cert.KernelIdeal.Gen

/-- The body's arithmetic at an entry of a block. -/
theorem block_apply (x0 x1 : Vec Ideal S2000x40 .f32) (j : S2000x40.Idx) :
    k5_pay1 (F := Ideal) x0 x1 j = FloatOps.addf (F := Ideal) (φ := .f32) (x0 j) (x1 j) := by
  unfold k5_pay1
  show FloatOps.addf (F := Ideal) (φ := .f32) (shapeCast S2000x40 x0 _ j) (shapeCast S2000x40 x1 _ j) = _
  rw [shapeCast_self, shapeCast_self]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: all three windows are at block (t, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back: block t of the combination of the two arrays the region found. -/
theorem flushed_eq (c : Dev nD) (t : Fin cfg5.N) :
    (dat5 V c).flushed 2 t = ((cfg5.win 2).blk t).view.read (Elt Ideal) (comb (V c main_v104) (V c main_v76_1)) := by
  show (cfg5.win 2).cut (grid5.coords t) ((dat5 V c).after 2 t) = _
  rw [after5_2]
  unfold out5_2
  rw [View.canon_unit_zero hz]
  simp only [View.ld_unit_zero (S := S2000x40) hz]
  obtain ⟨e00, e01, e10, e11, e20, e21⟩ := idx_facts t
  funext j
  show k5_pay1 (F := Ideal) (iblk5 V c 0 t) (iblk5 V c 1 t) j = comb (V c main_v104) (V c main_v76_1) (((cfg5.win 2).blk t).view.emb j)
  refine (block_apply (iblk5 V c 0 t) (iblk5 V c 1 t) j).trans ?_
  unfold comb
  have h0 : iblk5 V c 0 t j = V c main_v104 (((cfg5.win 2).blk t).view.emb j) := by
    show V c main_v104 (((cfg5.win 0).blk t).view.emb j) = _
    refine congrArg (V c main_v104) (funext fun a => Fin.ext ?_)
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 40 + 1 * (j 1).val = win5_2.index t (1 : Fin 2) * 40 + 1 * (j 1).val; omega
  have h1 : iblk5 V c 1 t j = V c main_v76_1 (((cfg5.win 2).blk t).view.emb j) := by
    show V c main_v76_1 (((cfg5.win 1).blk t).view.emb j) = _
    refine congrArg (V c main_v76_1) (funext fun a => Fin.ext ?_)
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 40 + 1 * (j 1).val = win5_2.index t (1 : Fin 2) * 40 + 1 * (j 1).val; omega
  rw [h0, h1]

theorem mem_blk (t : Fin cfg5.N) (i : S100000x40.Idx) :
    i ∈ ((cfg5.win 2).blk t).view.set ↔ ∀ a : Fin 2, win5_2.index t a * S2000x40.size a ≤ (i a).val ∧ (i a).val < win5_2.index t a * S2000x40.size a + S2000x40.size a := by
  show i ∈ ((View.whole main_v105).slice (win5_2.rect t)).set ↔ _
  rw [View.set_slice_whole, Rect.mem_set_unit]
  exact Iff.rfl

/-- Row r is covered by point r / 2000. -/
theorem cover (i : S100000x40.Idx) : ∃ t : Fin cfg5.N, (cfg5.win 2).flush t = true ∧ i ∈ ((cfg5.win 2).blk t).view.set := by
  have hN : grid5.N = 50 := N_5
  have hi0 : (i 0).val < 100000 := (i 0).isLt
  have hi1 : (i 1).val < 40 := (i 1).isLt
  obtain ⟨t, ht⟩ : ∃ t : Fin cfg5.N, t.val = (i 0).val / 2000 :=
    ⟨⟨(i 0).val / 2000, by show _ < grid5.N; rw [hN]; omega⟩, rfl⟩
  obtain ⟨-, -, -, -, e20, e21⟩ := idx_facts t
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 40 ≤ (i 1).val ∧ (i 1).val < win5_2.index t (1 : Fin 2) * 40 + 40; omega

/-- The result array after the region: the combination of the two arrays the region found. -/
theorem final (c : Dev nD) : (dat5 V c).arrAt 2 cfg5.N = comb (V c main_v104) (V c main_v76_1) :=
  (dat5 V c).arrAt_eq_of_cover 2 (comb (V c main_v104) (V c main_v76_1)) (fun t _ => flushed_eq V c t) cover

end Cert.Gcn.Combine3

end
-- ==== Proof.LogSoftmaxRows.lean ====
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«179274_j71734543778059_1_alg».proof.Proof.Gen.KernelIdeal.Skeleton
import proofs.«179274_j71734543778059_1_alg».proof.Proof.Gen.ReferenceIdeal

noncomputable section

/-!
# Row-wise log-softmax: one row's function on both sides

The log-softmax of a row x of forty extended reals at position q is (x q - m) - log (∑ k, exp (x k - m)), with m the
maximum of the row folded from minus infinity. The block computation (lane maximum, broadcast along the lanes, subtract,
exponentiate, lane sum, logarithm, broadcast, subtract) and the array computation (maximum over axis 1 from minus infinity,
its maximum with minus infinity, broadcast in two steps, subtract, exponentiate, sum over axis 1 from zero, broadcast,
logarithm, broadcast, subtract) are each, element by element, that function of the element's row. Every operation is exact
on the extended reals, the maximum with minus infinity changes nothing and zero plus a sum is the sum, so no finiteness is
used.
-/

open Idealize.ShloMosaic Idealize.ShloMosaic.TcCoe

namespace Cert.Gcn.LogSoftmax

open Idealize.ShloMosaic.ValueIdx
open scoped BigOperators

/-! ## Column forms of the layout operations -/

section Columns
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an [a] array along axis 0 into [a, 1] reads, at (i, u), the operand at i. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's broadcast of an [a, 1] array along axes 0 and 1 into [a, b] reads, at (p, c), the operand's one column at p. -/
theorem broadcastInDim_a1_ab_apply {a b : ℕ} (h : (⟨2, ![a, 1]⟩ : Shape).BroadcastsInDim ⟨2, ![a, b]⟩ ![0, 1])
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The log-softmax of one row -/

/-- The maximum of a row of forty extended reals, folded from minus infinity. -/
def rowMax (row : Fin 40 → EReal) : EReal := (Finset.univ : Finset (Fin 40)).fold max ⊥ row

/-- The log-softmax of one row at position q: the entry minus the row's maximum, minus the logarithm of the sum of the
exponentials of the row's entries minus the maximum. -/
def lsmRow (row : Fin 40 → EReal) (q : Fin 40) : EReal :=
  (row q - rowMax row) - Ideal.log (∑ k : Fin 40, Ideal.exp (row k - rowMax row))

/-- The f32 word 0xFF800000 is minus infinity. -/
theorem ofBits_neg_inf_f32 : Ideal.ofBits .f32 0xFF800000#32 = ⊥ := by simp [Ideal.ofBits, Ideal.ieee]

/-! ## The kernel's block -/

/-- The index of a [2000, 40] block over row p with k inserted on the lane axis is (p, k). -/
theorem lift_block (h : Cert.KernelIdeal.S2000x40.Reduces [1] Cert.KernelIdeal.S2000) (p : Fin 2000) (k : Fin 40) :
    h.lift (ix1 p) k = ix2 p k :=
  funext fun c => Fin.ext (by match c with | ⟨0, _⟩ => rfl | ⟨1, _⟩ => rfl)

/-- The lane maximum of a [2000, 40] block at row p is the row's maximum. -/
theorem blockMax_apply (v : FVec Ideal Cert.KernelIdeal.S2000x40 .f32) (h : Cert.KernelIdeal.S2000x40.Reduces [1] Cert.KernelIdeal.S2000)
    (hφ : FKind.Formats .f32) (hacc : (0xFF800000#32 : BitVec 32) = FKind.maximumf.neutral .f32 hφ) (p : Fin 2000) :
    multiReduction (F := Ideal) .maximumf [1] Cert.KernelIdeal.S2000 v 0xFF800000#32 h hφ hacc (ix1 p)
      = rowMax (fun k => v (ix2 p k)) := by
  refine (Ideal.multiReduction_maximumf_single v _ h hφ hacc (ix1 p)).trans ?_
  show (Finset.univ : Finset (Fin 40)).fold max (Ideal.ofBits .f32 0xFF800000#32) (v ∘ h.lift (ix1 p)) = _
  rw [ofBits_neg_inf_f32, show v ∘ h.lift (ix1 p) = fun k => v (ix2 p k) from funext fun k => congrArg v (lift_block h p k)]
  rfl

/-- The lane sum of a [2000, 40] block at row p is the sum over the row. -/
theorem blockSum_apply (v : FVec Ideal Cert.KernelIdeal.S2000x40 .f32) (h : Cert.KernelIdeal.S2000x40.Reduces [1] Cert.KernelIdeal.S2000)
    (hφ : FKind.Formats .f32) (hacc : (0x00000000#32 : BitVec 32) = FKind.add.neutral .f32 hφ) (p : Fin 2000) :
    multiReduction (F := Ideal) .add [1] Cert.KernelIdeal.S2000 v 0x00000000#32 h hφ hacc (ix1 p)
      = ∑ k : Fin 40, v (ix2 p k) := by
  refine (Ideal.multiReduction_add_single v _ h hφ hacc (ix1 p)).trans ?_
  show ∑ k : Fin 40, v (h.lift (ix1 p) k) = _
  exact Finset.sum_congr rfl fun k _ => congrArg v (lift_block h p k)

/-- A block minus its row maxima, as the kernel computes it, at row p and lane k. -/
theorem blockShift_apply (v : FVec Ideal Cert.KernelIdeal.S2000x40 .f32)
    (hr : Cert.KernelIdeal.S2000x40.Reduces [1] Cert.KernelIdeal.S2000)
    (hφ : FKind.Formats .f32) (hacc : (0xFF800000#32 : BitVec 32) = FKind.maximumf.neutral .f32 hφ)
    (hc : Cert.KernelIdeal.S2000.ShapeCasts Cert.KernelIdeal.S2000x1)
    (hb : Cert.KernelIdeal.S2000x1.Broadcasts Cert.KernelIdeal.S2000x40) (p : Fin 2000) (k : Fin 40) :
    subf (F := Ideal) v (broadcastTo Cert.KernelIdeal.S2000x40
        (shapeCast Cert.KernelIdeal.S2000x1
          (multiReduction (F := Ideal) .maximumf [1] Cert.KernelIdeal.S2000 v 0xFF800000#32 hr hφ hacc) hc) hb) (ix2 p k)
      = v (ix2 p k) - rowMax (fun k => v (ix2 p k)) := by
  show v (ix2 p k) - _ = _
  refine congrArg (v (ix2 p k) - ·) ?_
  refine (broadcastTo_a1_ab_apply _ hb p k).trans ?_
  refine (shapeCast_a_a1_apply _ hc p 0).trans ?_
  exact blockMax_apply v hr hφ hacc p

/-- The kernel's stored value at row p and lane q of a block is the log-softmax of row p of the block at q. -/
theorem k6_pay1_apply (x0 : Vec Ideal Cert.KernelIdeal.S2000x40 .f32) (p : Fin 2000) (q : Fin 40) :
    Cert.KernelIdeal.Gen.k6_pay1 (F := Ideal) x0 (ValueIdx.ix2 p q) = lsmRow (fun k => x0 (ValueIdx.ix2 p k)) q := by
  have e1 : shapeCast Cert.KernelIdeal.S2000x40 x0 Cert.KernelIdeal.Gen.shapeCasts_S2000x40_S2000x40 = x0 :=
    shapeCast_self x0 _
  unfold Cert.KernelIdeal.Gen.k6_pay1
  simp only [e1]
  refine (subf_apply _ _ _).trans ?_
  unfold lsmRow
  refine congrArg₂ (· - ·) (blockShift_apply x0 _ _ _ _ _ p q) ?_
  refine (broadcastTo_a1_ab_apply _ _ p q).trans ?_
  change Ideal.log _ = _
  refine congrArg Ideal.log ?_
  refine (shapeCast_a_a1_apply _ _ p 0).trans ?_
  refine (blockSum_apply _ _ _ _ p).trans ?_
  refine Finset.sum_congr rfl fun k _ => ?_
  change Ideal.exp _ = _
  exact congrArg Ideal.exp (blockShift_apply x0 _ _ _ _ _ p k)

/-! ## The reference's array -/

section Reference
open Cert.ReferenceIdeal Cert.ReferenceIdeal.Gen Idealize.SL.Sem Idealize.ShloMosaic.StableHlo

/-- The reference's log-softmax of a [100000, 40] array, operation by operation: the row maxima from minus infinity, their
maximum with minus infinity, the array minus its row maxima, the row sums of the exponentials from zero, and the shifted
array minus the logarithms of the row sums. -/
def refLogSoftmax (X : (⟨S100000x40, .f32⟩ : BufTy).Contents (Elt Ideal)) : (⟨S100000x40, .f32⟩ : BufTy).Contents (Elt Ideal) :=
  have mx0 : (⟨S100000, .f32⟩ : BufTy).Contents (Elt Ideal) :=
    Host.reduce (FloatOps.maximumf (F := Ideal) (φ := .f32)) X (constant (F := Ideal) S_ .f32 0xFF800000#32) reducesTo_S100000x40_S100000_d1 h_S_
  have mx : (⟨S100000, .f32⟩ : BufTy).Contents (Elt Ideal) :=
    maximumf (F := Ideal) (φ := .f32) (broadcastInDim S100000 ![] bcast_S_S100000 (constant (F := Ideal) S_ .f32 0xFF800000#32)) mx0
  have z : (⟨S100000x40, .f32⟩ : BufTy).Contents (Elt Ideal) :=
    subf (F := Ideal) (φ := .f32) X (broadcastInDim S100000x40 ![0, 1] bcast_S100000x1_S100000x40_0_1 (broadcastInDim S100000x1 ![0] bcast_S100000_S100000x1_0 mx))
  have s : (⟨S100000, .f32⟩ : BufTy).Contents (Elt Ideal) :=
    Host.reduceAdd (F := Ideal) (φ := .f32) (Host.exp (F := Ideal) (φ := .f32) z) (constant (F := Ideal) S_ .f32 0x00000000#32) reducesTo_S100000x40_S100000_d1 h_S_
  subf (F := Ideal) (φ := .f32) z (broadcastInDim S100000x40 ![0, 1] bcast_S100000x1_S100000x40_0_1 (Host.log (F := Ideal) (φ := .f32) (broadcastInDim S100000x1 ![0] bcast_S100000_S100000x1_0 s)))

/-- The host's logarithm of an array at an index is the logarithm of the element. -/
theorem hostLog_apply {s : Shape} (x : FVec Ideal s .f32) (i : s.Idx) : Host.log (F := Ideal) x i = Ideal.log (x i) := rfl

/-- The host's exponential of an array at an index is the exponential of the element. -/
theorem hostExp_apply {s : Shape} (x : FVec Ideal s .f32) (i : s.Idx) : Host.exp (F := Ideal) x i = Ideal.exp (x i) := rfl

/-- The index of the [100000, 40] array over row r with k inserted on axis 1 is (r, k). -/
theorem lift_array (h : S100000x40.Reduces [1] S100000) (r : Fin 100000) (k : Fin 40) :
    h.lift (ix1 r) k = ix2 r k :=
  funext fun c => Fin.ext (by match c with | ⟨0, _⟩ => rfl | ⟨1, _⟩ => rfl)

/-- The host's maximum over axis 1 from minus infinity, at row r, is the row's maximum. -/
theorem hostRowMax_apply (Y : FVec Ideal S100000x40 .f32) (h' : S100000x40.ReducesTo [1] S100000) (hu : 0 < S_.numel)
    (r : Fin 100000) :
    Host.reduce (FloatOps.maximumf (F := Ideal) (φ := .f32)) Y (constant (F := Ideal) S_ .f32 0xFF800000#32) h' hu (ix1 r)
      = rowMax (fun k => Y (ix2 r k)) := by
  have h : S100000x40.Reduces [1] S100000 := by decide
  refine (Host.reduce_eq_fold_single _ Y _ h' h hu (ix1 r)).trans ?_
  show (Finset.univ : Finset (Fin 40)).fold max (Ideal.ofBits .f32 0xFF800000#32) (Y ∘ h.lift (ix1 r)) = _
  rw [ofBits_neg_inf_f32, show Y ∘ h.lift (ix1 r) = fun k => Y (ix2 r k) from funext fun k => congrArg Y (lift_array h r k)]
  rfl

/-- The host's sum over axis 1 from zero, at row r, is the sum over the row. -/
theorem hostRowSum_apply (Y : FVec Ideal S100000x40 .f32) (h' : S100000x40.ReducesTo [1] S100000) (hu : 0 < S_.numel)
    (r : Fin 100000) :
    Host.reduceAdd (F := Ideal) Y (constant (F := Ideal) S_ .f32 0x00000000#32) h' hu (ix1 r) = ∑ k : Fin 40, Y (ix2 r k) := by
  have h : S100000x40.Reduces [1] S100000 := by decide
  refine (hostReduceAdd_apply Y _ h' hu (ix1 r)).trans ?_
  refine (Ideal.hostReduceAdd_single h' h Y _ (ix1 r)).trans ?_
  show Ideal.ofBits .f32 0x00000000#32 + ∑ k : Fin 40, Y (h.lift (ix1 r) k) = _
  rw [Ideal.ofBits_zero_f32, zero_add]
  exact Finset.sum_congr rfl fun k _ => congrArg Y (lift_array h r k)

/-- The array minus its row maxima, as the reference computes it, at row r and column k. -/
theorem arrShift_apply (X : FVec Ideal S100000x40 .f32) (h' : S100000x40.ReducesTo [1] S100000) (hu : 0 < S_.numel)
    (hb0 : S_.BroadcastsInDim S100000 ![]) (hb1 : S100000.BroadcastsInDim S100000x1 ![0])
    (hb2 : S100000x1.BroadcastsInDim S100000x40 ![0, 1]) (r : Fin 100000) (k : Fin 40) :
    subf (F := Ideal) X (broadcastInDim S100000x40 ![0, 1] hb2 (broadcastInDim S100000x1 ![0] hb1
        (maximumf (F := Ideal) (broadcastInDim S100000 ![] hb0 (constant (F := Ideal) S_ .f32 0xFF800000#32))
          (Host.reduce (FloatOps.maximumf (F := Ideal) (φ := .f32)) X (constant (F := Ideal) S_ .f32 0xFF800000#32) h' hu)))) (ix2 r k)
      = X (ix2 r k) - rowMax (fun k => X (ix2 r k)) := by
  refine (subf_apply _ _ _).trans ?_
  refine congrArg (X (ix2 r k) - ·) ?_
  refine (broadcastInDim_a1_ab_apply hb2 _ r k).trans ?_
  refine (broadcastInDim_a_a1_apply hb1 _ r 0).trans ?_
  refine (maximumf_apply _ _ _).trans ?_
  refine (congrArg₂ max (broadcastInDim_scalar_apply hb0 _ _) (hostRowMax_apply X h' hu r)).trans ?_
  show max (Ideal.ofBits .f32 0xFF800000#32) _ = _
  rw [ofBits_neg_inf_f32]
  exact max_eq_right bot_le

/-- The reference's array at (i 0, i 1) is the log-softmax of row i 0 of the operand at i 1. -/
theorem refLogSoftmax_apply (X : (⟨S100000x40, .f32⟩ : BufTy).Contents (Elt Ideal)) (i : S100000x40.Idx) :
    refLogSoftmax X i = lsmRow (fun k => X (ValueIdx.ix2 (i 0) k)) (i 1) := by
  obtain ⟨r, q, rfl⟩ : ∃ (r : Fin 100000) (q : Fin 40), i = ix2 r q := ⟨i 0, i 1, eq_ix2 i⟩
  show refLogSoftmax X (ix2 r q) = lsmRow (fun k => X (ix2 r k)) q
  unfold refLogSoftmax
  simp only []
  refine (subf_apply _ _ _).trans ?_
  unfold lsmRow
  refine congrArg₂ (· - ·) (arrShift_apply X _ _ _ _ _ r q) ?_
  refine (broadcastInDim_a1_ab_apply _ _ r q).trans ?_
  refine (hostLog_apply _ _).trans ?_
  refine congrArg Ideal.log ?_
  refine (broadcastInDim_a_a1_apply _ _ r 0).trans ?_
  refine (hostRowSum_apply _ _ _ r).trans ?_
  refine Finset.sum_congr rfl fun k _ => ?_
  refine (hostExp_apply _ _).trans ?_
  exact congrArg Ideal.exp (arrShift_apply X _ _ _ _ _ r k)

/-- The reference's array written as one nested term. -/
theorem refLogSoftmax_eq (X : (⟨S100000x40, .f32⟩ : BufTy).Contents (Elt Ideal)) :
    refLogSoftmax X
      = subf (F := Ideal) (φ := .f32)
          (subf (F := Ideal) (φ := .f32) X (broadcastInDim S100000x40 ![0, 1] bcast_S100000x1_S100000x40_0_1
            (broadcastInDim S100000x1 ![0] bcast_S100000_S100000x1_0
              (maximumf (F := Ideal) (φ := .f32) (broadcastInDim S100000 ![] bcast_S_S100000 (constant (F := Ideal) S_ .f32 0xFF800000#32))
                (Host.reduce (FloatOps.maximumf (F := Ideal) (φ := .f32)) X (constant (F := Ideal) S_ .f32 0xFF800000#32)
                  reducesTo_S100000x40_S100000_d1 h_S_)))))
          (broadcastInDim S100000x40 ![0, 1] bcast_S100000x1_S100000x40_0_1
            (Host.log (F := Ideal) (φ := .f32) (broadcastInDim S100000x1 ![0] bcast_S100000_S100000x1_0
              (Host.reduceAdd (F := Ideal) (φ := .f32)
                (Host.exp (F := Ideal) (φ := .f32)
                  (subf (F := Ideal) (φ := .f32) X (broadcastInDim S100000x40 ![0, 1] bcast_S100000x1_S100000x40_0_1
                    (broadcastInDim S100000x1 ![0] bcast_S100000_S100000x1_0
                      (maximumf (F := Ideal) (φ := .f32) (broadcastInDim S100000 ![] bcast_S_S100000 (constant (F := Ideal) S_ .f32 0xFF800000#32))
                        (Host.reduce (FloatOps.maximumf (F := Ideal) (φ := .f32)) X (constant (F := Ideal) S_ .f32 0xFF800000#32)
                          reducesTo_S100000x40_S100000_d1 h_S_))))))
                (constant (F := Ideal) S_ .f32 0x00000000#32) reducesTo_S100000x40_S100000_d1 h_S_)))) := rfl

end Reference

end Cert.Gcn.LogSoftmax

end
-- ==== Proof.SoftmaxBlocks.lean ====
/-
  The last region, from blocks to the whole array: a row-wise log-softmax over f32[100000, 40], 2000 rows per grid point.
  A row's log-softmax depends on that row alone, and point t stages and writes back rows 2000·t … 2000·t + 1999, so
  entry (r, c) of the result is the log-softmax of row r of the array the region found, at position c, written by point
  r / 2000 alone: the result array is the row-wise log-softmax of the input array, whole.
-/
import proofs.«179274_j71734543778059_1_alg».proof.Proof.Gen.KernelIdeal.Frame
import proofs.«179274_j71734543778059_1_alg».proof.Proof.LogSoftmaxRows
import Idealize.ShloMosaic.Lib.Pipeline.Value

set_option maxRecDepth 16384

noncomputable section

namespace Cert.Gcn.SoftmaxBlocks

open Idealize.ShloMosaic Idealize.ShloMosaic.TcCoe Idealize.SL.Sem
open Idealize.ShloMosaic.Pipeline (Dat)
open Cert.KernelIdeal Cert.KernelIdeal.Gen

/-- The row-wise log-softmax of a whole array, entry by entry. -/
def rows (X : S100000x40.Idx → EReal) : S100000x40.Idx → EReal :=
  fun i => LogSoftmax.lsmRow (fun k => X (ValueIdx.ix2 (i 0) k)) (i 1)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both windows are at block (t, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- What point t writes back: block t of the row-wise log-softmax of the array the region found. -/
theorem flushed_eq (c : Dev nD) (t : Fin cfg6.N) :
    (dat6 V c).flushed 1 t = ((cfg6.win 1).blk t).view.read (Elt Ideal) (rows (V c main_v105)) := by
  show (cfg6.win 1).cut (grid6.coords t) ((dat6 V c).after 1 t) = _
  rw [after6_1]
  unfold out6_1
  rw [View.canon_unit_zero hz]
  simp only [View.ld_unit_zero (S := S2000x40) hz]
  obtain ⟨e00, e01, e10, e11⟩ := idx_facts t
  funext j
  show k6_pay1 (F := Ideal) (iblk6 V c 0 t) j = rows (V c main_v105) (((cfg6.win 1).blk t).view.emb j)
  have hj : j = ValueIdx.ix2 (⟨(j 0).val, (j 0).isLt⟩ : Fin 2000) (⟨(j 1).val, (j 1).isLt⟩ : Fin 40) :=
    funext fun a => by
      match a with
      | ⟨0, _⟩ => rfl
      | ⟨1, _⟩ => rfl
  refine (congrArg (k6_pay1 (F := Ideal) (iblk6 V c 0 t)) hj).trans ?_
  refine (LogSoftmax.k6_pay1_apply (iblk6 V c 0 t) _ _).trans ?_
  unfold rows
  refine congrArg₂ LogSoftmax.lsmRow (funext fun k => ?_) (Fin.ext ?_)
  · show V c main_v105 (((cfg6.win 0).blk t).view.emb (ValueIdx.ix2 (⟨(j 0).val, (j 0).isLt⟩ : Fin 2000) k)) = _
    refine congrArg (V c main_v105) (funext fun a => Fin.ext ?_)
    match a with
    | ⟨0, _⟩ => show win6_0.index t (0 : Fin 2) * 2000 + 1 * (j 0).val = win6_1.index t (0 : Fin 2) * 2000 + 1 * (j 0).val; omega
    | ⟨1, _⟩ => show win6_0.index t (1 : Fin 2) * 40 + 1 * k.val = k.val; omega
  · show (j 1).val = win6_1.index t (1 : Fin 2) * 40 + 1 * (j 1).val; omega

theorem mem_blk (t : Fin cfg6.N) (i : S100000x40.Idx) :
    i ∈ ((cfg6.win 1).blk t).view.set ↔ ∀ a : Fin 2, win6_1.index t a * S2000x40.size a ≤ (i a).val ∧ (i a).val < win6_1.index t a * S2000x40.size a + S2000x40.size a := by
  show i ∈ ((View.whole main_v106).slice (win6_1.rect t)).set ↔ _
  rw [View.set_slice_whole, Rect.mem_set_unit]
  exact Iff.rfl

/-- Row r is covered by point r / 2000. -/
theorem cover (i : S100000x40.Idx) : ∃ t : Fin cfg6.N, (cfg6.win 1).flush t = true ∧ i ∈ ((cfg6.win 1).blk t).view.set := by
  have hN : grid6.N = 50 := N_6
  have hi0 : (i 0).val < 100000 := (i 0).isLt
  have hi1 : (i 1).val < 40 := (i 1).isLt
  obtain ⟨t, ht⟩ : ∃ t : Fin cfg6.N, t.val = (i 0).val / 2000 :=
    ⟨⟨(i 0).val / 2000, by show _ < grid6.N; rw [hN]; omega⟩, rfl⟩
  obtain ⟨-, -, e10, e11⟩ := idx_facts t
  refine ⟨t, flush6_1 t, ?_⟩
  rw [mem_blk]
  intro a
  match a with
  | ⟨0, _⟩ => show win6_1.index t (0 : Fin 2) * 2000 ≤ (i 0).val ∧ (i 0).val < win6_1.index t (0 : Fin 2) * 2000 + 2000; omega
  | ⟨1, _⟩ => show win6_1.index t (1 : Fin 2) * 40 ≤ (i 1).val ∧ (i 1).val < win6_1.index t (1 : Fin 2) * 40 + 40; omega

/-- The result array after the region: the row-wise log-softmax of the array the region found. -/
theorem final (c : Dev nD) : (dat6 V c).arrAt 1 cfg6.N = rows (V c main_v105) :=
  (dat6 V c).arrAt_eq_of_cover 1 (rows (V c main_v105)) (fun t _ => flushed_eq V c t) cover

/-- The host's log-softmax is the same whole-array function. -/
theorem host_eq (X : (⟨Cert.ReferenceIdeal.S100000x40, .f32⟩ : BufTy).Contents (Elt Ideal)) :
    LogSoftmax.refLogSoftmax X = (rows X : (⟨Cert.ReferenceIdeal.S100000x40, .f32⟩ : BufTy).Contents (Elt Ideal)) :=
  funext fun i => LogSoftmax.refLogSoftmax_apply X i

end Cert.Gcn.SoftmaxBlocks

end
-- ==== Proof.Fold.lean ====
/-
  The kernel program's fold through its thirteen segments, read as whole-array terms of the eight argument arrays.
  With s, d the edge list's rows, dv the degree normalisation and D its square as a column:
    layer 1:  h₁ = x · W₁,  the self-loop term h₁ · D + b₁,  the aggregation of h₁ over the edges,  and their combination x₂;
    layer 2:  the same from x₂ with W₂, b₂, giving x₃;
    layer 3:  the same from x₃ with W₃, b₃ and no positive part, giving y;
  and the result is the row-wise log-softmax of y. Each boundary's contents come from the segment before it: a stretch's
  host operations, or a region's output arrays as whole-array functions of its input arrays.
-/
import proofs.«179274_j71734543778059_1_alg».proof.Proof.Stretches
import proofs.«179274_j71734543778059_1_alg».proof.Proof.Persist
import proofs.«179274_j71734543778059_1_alg».proof.Proof.DenseBlocks1
import proofs.«179274_j71734543778059_1_alg».proof.Proof.DenseBlocks2
import proofs.«179274_j71734543778059_1_alg».proof.Proof.DenseBlocks3
import proofs.«179274_j71734543778059_1_alg».proof.Proof.Combine1
import proofs.«179274_j71734543778059_1_alg».proof.Proof.Combine2
import proofs.«179274_j71734543778059_1_alg».proof.Proof.Combine3
import proofs.«179274_j71734543778059_1_alg».proof.Proof.SoftmaxBlocks

set_option maxRecDepth 16384

noncomputable section

namespace Cert.Gcn.Fold

open Idealize.ShloMosaic Idealize.ShloMosaic.TcCoe Idealize.SL.Sem
open Cert.KernelIdeal Cert.KernelIdeal.Gen

/-! ## The kernel's network, as a term of the argument arrays -/

section Net
variable (x : (⟨S100000x256, .f32⟩ : BufTy).Contents (Elt Ideal)) (ei : (⟨S2x1600000, .i32⟩ : BufTy).Contents (Elt Ideal))
  (w1 : (⟨S256x128, .f32⟩ : BufTy).Contents (Elt Ideal)) (b1 : (⟨S128, .f32⟩ : BufTy).Contents (Elt Ideal))
  (w2 : (⟨S128x128, .f32⟩ : BufTy).Contents (Elt Ideal)) (b2 : (⟨S128, .f32⟩ : BufTy).Contents (Elt Ideal))
  (w3 : (⟨S128x40, .f32⟩ : BufTy).Contents (Elt Ideal)) (b3 : (⟨S40, .f32⟩ : BufTy).Contents (Elt Ideal))

/-- The degree normalisation of the edge list's destination row. -/
def dv : (⟨S100000, .f32⟩ : BufTy).Contents (Elt Ideal) := Terms.dinv (F := Ideal) (Terms.dst ei)
/-- Its square, reshaped to a column. -/
def d2 : (⟨S100000x1, .f32⟩ : BufTy).Contents (Elt Ideal) := shapeCast S100000x1 (mulf (F := Ideal) (φ := .f32) (dv ei) (dv ei)) shapeCasts_S100000_S100000x1
/-- Layer 1's output. -/
def x2 : (⟨S100000x128, .f32⟩ : BufTy).Contents (Elt Ideal) :=
  Combine1.comb (Terms.agg128 (F := Ideal) (Terms.src ei) (Terms.dst ei) (dv ei) (Dense1.prod x w1))
    (Dense1.selfTerm x w1 (d2 ei) (shapeCast S1x128 b1 shapeCasts_S128_S1x128))
/-- Layer 2's output. -/
def x3 : (⟨S100000x128, .f32⟩ : BufTy).Contents (Elt Ideal) :=
  Combine2.comb (Terms.agg128 (F := Ideal) (Terms.src ei) (Terms.dst ei) (dv ei) (Dense2.prod (x2 x ei w1 b1) w2))
    (Dense2.selfTerm (x2 x ei w1 b1) w2 (d2 ei) (shapeCast S1x128 b2 shapeCasts_S128_S1x128))
/-- Layer 3's output. -/
def y : (⟨S100000x40, .f32⟩ : BufTy).Contents (Elt Ideal) :=
  Combine3.comb (Terms.agg40 (F := Ideal) (Terms.src ei) (Terms.dst ei) (dv ei) (Dense3.prod (x3 x ei w1 b1 w2 b2) w3))
    (Dense3.selfTerm (x3 x ei w1 b1 w2 b2) w3 (d2 ei) (shapeCast S1x40 b3 shapeCasts_S40_S1x40))
/-- The network's result. -/
def out : (⟨S100000x40, .f32⟩ : BufTy).Contents (Elt Ideal) := SoftmaxBlocks.rows (y x ei w1 b1 w2 b2 w3 b3)
end Net

theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha; subst hb; subst hc; subst hd; rfl

variable (m : (ℓ : Loc nD τ sig) → Buf (Elt Ideal) ℓ) (ρ : Dev nD → PrngReg) (c : Dev nD)

/-! ## After the first stretch -/

theorem w1_src : W1 m ρ c (Proc.devRef .tc main_v1) = Terms.src (F := Ideal) (m ((c.tc : Thread nD τ).loc main_arg1)) := Stretches.s0_src (W0 m ρ c)
theorem w1_dst : W1 m ρ c (Proc.devRef .tc main_v3) = Terms.dst (F := Ideal) (m ((c.tc : Thread nD τ).loc main_arg1)) := Stretches.s0_dst (W0 m ρ c)
theorem w1_dinv : W1 m ρ c (Proc.devRef .tc main_v10) = dv (m ((c.tc : Thread nD τ).loc main_arg1)) := Stretches.s0_dinv (W0 m ρ c)
theorem w1_d2 : W1 m ρ c (Proc.devRef .tc main_v12) = d2 (m ((c.tc : Thread nD τ).loc main_arg1)) := Stretches.s0_d2col (W0 m ρ c)
theorem w1_b1 : W1 m ρ c (Proc.devRef .tc main_v13) = shapeCast S1x128 (m ((c.tc : Thread nD τ).loc main_arg3)) shapeCasts_S128_S1x128 := Stretches.s0_bias (W0 m ρ c)

/-! ## Layer 1 -/

theorem w2_h : W2 m ρ c (Proc.devRef .tc main_v14_0) = Dense1.prod (m ((c.tc : Thread nD τ).loc main_arg0)) (m ((c.tc : Thread nD τ).loc main_arg2)) :=
  (W2_arr m ρ c 4).trans ((DenseBlocks1.finalProd (V1 m ρ) c).trans
    (congrArg₂ Dense1.prod (Persist.keep_arg0_1_0 m ρ c) (Persist.keep_arg2_1_0 m ρ c)))
theorem w2_s : W2 m ρ c (Proc.devRef .tc main_v14_1)
    = Dense1.selfTerm (m ((c.tc : Thread nD τ).loc main_arg0)) (m ((c.tc : Thread nD τ).loc main_arg2)) (d2 (m ((c.tc : Thread nD τ).loc main_arg1))) (shapeCast S1x128 (m ((c.tc : Thread nD τ).loc main_arg3)) shapeCasts_S128_S1x128) :=
  (W2_arr m ρ c 5).trans ((DenseBlocks1.finalSelf (V1 m ρ) c).trans
    (congr4 Dense1.selfTerm (Persist.keep_arg0_1_0 m ρ c) (Persist.keep_arg2_1_0 m ρ c) (w1_d2 m ρ c) (w1_b1 m ρ c)))
theorem w2_src : W2 m ρ c (Proc.devRef .tc main_v1) = Terms.src (F := Ideal) (m ((c.tc : Thread nD τ).loc main_arg1)) := (Persist.keep_v1_2_1 m ρ c).trans (w1_src m ρ c)
theorem w2_dst : W2 m ρ c (Proc.devRef .tc main_v3) = Terms.dst (F := Ideal) (m ((c.tc : Thread nD τ).loc main_arg1)) := (Persist.keep_v3_2_1 m ρ c).trans (w1_dst m ρ c)
theorem w2_dinv : W2 m ρ c (Proc.devRef .tc main_v10) = dv (m ((c.tc : Thread nD τ).loc main_arg1)) := (Persist.keep_v10_2_1 m ρ c).trans (w1_dinv m ρ c)
theorem w3_agg : W3 m ρ c (Proc.devRef .tc main_v42)
    = Terms.agg128 (F := Ideal) (Terms.src (m ((c.tc : Thread nD τ).loc main_arg1))) (Terms.dst (m ((c.tc : Thread nD τ).loc main_arg1))) (dv (m ((c.tc : Thread nD τ).loc main_arg1))) (Dense1.prod (m ((c.tc : Thread nD τ).loc main_arg0)) (m ((c.tc : Thread nD τ).loc main_arg2))) :=
  (Stretches.s1_agg (W2 m ρ c)).trans (congr4 Terms.agg128 (w2_src m ρ c) (w2_dst m ρ c) (w2_dinv m ρ c) (w2_h m ρ c))
theorem w3_s : W3 m ρ c (Proc.devRef .tc main_v14_1)
    = Dense1.selfTerm (m ((c.tc : Thread nD τ).loc main_arg0)) (m ((c.tc : Thread nD τ).loc main_arg2)) (d2 (m ((c.tc : Thread nD τ).loc main_arg1))) (shapeCast S1x128 (m ((c.tc : Thread nD τ).loc main_arg3)) shapeCasts_S128_S1x128) :=
  (Persist.keep_v14_1_3_2 m ρ c).trans (w2_s m ρ c)
theorem w4_x2 : W4 m ρ c (Proc.devRef .tc main_v43) = x2 (m ((c.tc : Thread nD τ).loc main_arg0)) (m ((c.tc : Thread nD τ).loc main_arg1)) (m ((c.tc : Thread nD τ).loc main_arg2)) (m ((c.tc : Thread nD τ).loc main_arg3)) :=
  (W4_arr m ρ c 2).trans ((Combine1.final (V3 m ρ) c).trans (congrArg₂ Combine1.comb (w3_agg m ρ c) (w3_s m ρ c)))

/-! ## Layer 2 -/

theorem w5_x2 : W5 m ρ c (Proc.devRef .tc main_v43) = x2 (m ((c.tc : Thread nD τ).loc main_arg0)) (m ((c.tc : Thread nD τ).loc main_arg1)) (m ((c.tc : Thread nD τ).loc main_arg2)) (m ((c.tc : Thread nD τ).loc main_arg3)) :=
  (Persist.keep_v43_5_4 m ρ c).trans (w4_x2 m ρ c)
theorem w5_d2 : W5 m ρ c (Proc.devRef .tc main_v12) = d2 (m ((c.tc : Thread nD τ).loc main_arg1)) := (Persist.keep_v12_5_1 m ρ c).trans (w1_d2 m ρ c)
theorem w5_b2 : W5 m ρ c (Proc.devRef .tc main_v44) = shapeCast S1x128 (m ((c.tc : Thread nD τ).loc main_arg5)) shapeCasts_S128_S1x128 :=
  (Stretches.s2_bias (W4 m ρ c)).trans (congrArg (fun v => shapeCast S1x128 v shapeCasts_S128_S1x128) (Persist.keep_arg5_4_0 m ρ c))
theorem w6_h : W6 m ρ c (Proc.devRef .tc main_v45_0) = Dense2.prod (x2 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (W6_arr m ρ c 4).trans ((DenseBlocks2.finalProd (V5 m ρ) c).trans
    (congrArg₂ Dense2.prod (w5_x2 m ρ c) (Persist.keep_arg4_5_0 m ρ c)))
theorem w6_s : W6 m ρ c (Proc.devRef .tc main_v45_1)
    = Dense2.selfTerm (x2 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (d2 (m ((c.tc : Thread nD τ).loc main_arg1))) (shapeCast S1x128 (m ((c.tc : Thread nD τ).loc main_arg5)) shapeCasts_S128_S1x128) :=
  (W6_arr m ρ c 5).trans ((DenseBlocks2.finalSelf (V5 m ρ) c).trans
    (congr4 Dense2.selfTerm (w5_x2 m ρ c) (Persist.keep_arg4_5_0 m ρ c) (w5_d2 m ρ c) (w5_b2 m ρ c)))
theorem w6_src : W6 m ρ c (Proc.devRef .tc main_v1) = Terms.src (F := Ideal) (m ((c.tc : Thread nD τ).loc main_arg1)) := (Persist.keep_v1_6_2 m ρ c).trans (w2_src m ρ c)
theorem w6_dst : W6 m ρ c (Proc.devRef .tc main_v3) = Terms.dst (F := Ideal) (m ((c.tc : Thread nD τ).loc main_arg1)) := (Persist.keep_v3_6_2 m ρ c).trans (w2_dst m ρ c)
theorem w6_dinv : W6 m ρ c (Proc.devRef .tc main_v10) = dv (m ((c.tc : Thread nD τ).loc main_arg1)) := (Persist.keep_v10_6_2 m ρ c).trans (w2_dinv m ρ c)
theorem w7_agg : W7 m ρ c (Proc.devRef .tc main_v73)
    = Terms.agg128 (F := Ideal) (Terms.src (m ((c.tc : Thread nD τ).loc main_arg1))) (Terms.dst (m ((c.tc : Thread nD τ).loc main_arg1))) (dv (m ((c.tc : Thread nD τ).loc main_arg1)))
        (Dense2.prod (x2 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) :=
  (Stretches.s3_agg (W6 m ρ c)).trans (congr4 Terms.agg128 (w6_src m ρ c) (w6_dst m ρ c) (w6_dinv m ρ c) (w6_h m ρ c))
theorem w7_s : W7 m ρ c (Proc.devRef .tc main_v45_1)
    = Dense2.selfTerm (x2 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (d2 (m ((c.tc : Thread nD τ).loc main_arg1))) (shapeCast S1x128 (m ((c.tc : Thread nD τ).loc main_arg5)) shapeCasts_S128_S1x128) :=
  (Persist.keep_v45_1_7_6 m ρ c).trans (w6_s m ρ c)
theorem w8_x3 : W8 m ρ c (Proc.devRef .tc main_v74)
    = x3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_arr m ρ c 2).trans ((Combine2.final (V7 m ρ) c).trans (congrArg₂ Combine2.comb (w7_agg m ρ c) (w7_s m ρ c)))

/-! ## Layer 3 -/

theorem w9_x3 : W9 m ρ c (Proc.devRef .tc main_v74)
    = x3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (Persist.keep_v74_9_8 m ρ c).trans (w8_x3 m ρ c)
theorem w9_d2 : W9 m ρ c (Proc.devRef .tc main_v12) = d2 (m ((c.tc : Thread nD τ).loc main_arg1)) := (Persist.keep_v12_9_5 m ρ c).trans (w5_d2 m ρ c)
theorem w9_b3 : W9 m ρ c (Proc.devRef .tc main_v75) = shapeCast S1x40 (m ((c.tc : Thread nD τ).loc main_arg7)) shapeCasts_S40_S1x40 :=
  (Stretches.s4_bias (W8 m ρ c)).trans (congrArg (fun v => shapeCast S1x40 v shapeCasts_S40_S1x40) (Persist.keep_arg7_8_0 m ρ c))
theorem w10_h : W10 m ρ c (Proc.devRef .tc main_v76_0)
    = Dense3.prod (x3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) :=
  (W10_arr m ρ c 4).trans ((DenseBlocks3.finalProd (V9 m ρ) c).trans
    (congrArg₂ Dense3.prod (w9_x3 m ρ c) (Persist.keep_arg6_9_0 m ρ c)))
theorem w10_s : W10 m ρ c (Proc.devRef .tc main_v76_1)
    = Dense3.selfTerm (x3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (d2 (m ((c.tc : Thread nD τ).loc main_arg1))) (shapeCast S1x40 (m ((c.tc : Thread nD τ).loc main_arg7)) shapeCasts_S40_S1x40) :=
  (W10_arr m ρ c 5).trans ((DenseBlocks3.finalSelf (V9 m ρ) c).trans
    (congr4 Dense3.selfTerm (w9_x3 m ρ c) (Persist.keep_arg6_9_0 m ρ c) (w9_d2 m ρ c) (w9_b3 m ρ c)))
theorem w10_src : W10 m ρ c (Proc.devRef .tc main_v1) = Terms.src (F := Ideal) (m ((c.tc : Thread nD τ).loc main_arg1)) := (Persist.keep_v1_10_6 m ρ c).trans (w6_src m ρ c)
theorem w10_dst : W10 m ρ c (Proc.devRef .tc main_v3) = Terms.dst (F := Ideal) (m ((c.tc : Thread nD τ).loc main_arg1)) := (Persist.keep_v3_10_6 m ρ c).trans (w6_dst m ρ c)
theorem w10_dinv : W10 m ρ c (Proc.devRef .tc main_v10) = dv (m ((c.tc : Thread nD τ).loc main_arg1)) := (Persist.keep_v10_10_6 m ρ c).trans (w6_dinv m ρ c)
theorem w11_agg : W11 m ρ c (Proc.devRef .tc main_v104)
    = Terms.agg40 (F := Ideal) (Terms.src (m ((c.tc : Thread nD τ).loc main_arg1))) (Terms.dst (m ((c.tc : Thread nD τ).loc main_arg1))) (dv (m ((c.tc : Thread nD τ).loc main_arg1)))
        (Dense3.prod (x3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))) :=
  (Stretches.s5_agg (W10 m ρ c)).trans (congr4 Terms.agg40 (w10_src m ρ c) (w10_dst m ρ c) (w10_dinv m ρ c) (w10_h m ρ c))
theorem w11_s : W11 m ρ c (Proc.devRef .tc main_v76_1)
    = Dense3.selfTerm (x3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (d2 (m ((c.tc : Thread nD τ).loc main_arg1))) (shapeCast S1x40 (m ((c.tc : Thread nD τ).loc main_arg7)) shapeCasts_S40_S1x40) :=
  (Persist.keep_v76_1_11_10 m ρ c).trans (w10_s m ρ c)
theorem w12_y : W12 m ρ c (Proc.devRef .tc main_v105)
    = y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W12_arr m ρ c 2).trans ((Combine3.final (V11 m ρ) c).trans (congrArg₂ Combine3.comb (w11_agg m ρ c) (w11_s m ρ c)))

/-! ## The result -/

/-- The result buffer ends the fold at the kernel's network of the eight argument arrays. -/
theorem w13_out : W13 m ρ c (Proc.devRef .tc main_v106)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W13_arr m ρ c 1).trans ((SoftmaxBlocks.final (V12 m ρ) c).trans (congrArg SoftmaxBlocks.rows (w12_y m ρ c)))

end Cert.Gcn.Fold

end
-- ==== Proof.RefNet.lean ====
/-
  The reference network as one whole-array term over named pieces. Three graph-convolution layers
      h ↦ (agg(h · W) + (h · W) · dinv²) + b
  (the first two followed by the positive part), then a row-wise log-softmax: subtract the row's maximum, exponentiate,
  sum the row, take the logarithm, subtract. Every piece is the host operation the reference program applies, in its
  order and grouping, so that the program's result is this term of its argument arrays.
-/
import proofs.«179274_j71734543778059_1_alg».proof.Proof.Terms

noncomputable section

namespace Cert.Gcn.RefNet

open Cert.ReferenceIdeal Cert.ReferenceIdeal.Gen Idealize.ShloMosaic Idealize.ShloMosaic.TcCoe
open Cert.Gcn.Terms

variable {F : FTy → Type} [FloatOps F]

/-- The normalisation squared, as a column. -/
def d2col (dv : (⟨S100000, .f32⟩ : BufTy).Contents (Elt F)) : (⟨S100000x1, .f32⟩ : BufTy).Contents (Elt F) :=
  broadcastInDim S100000x1 ![0] bcast_S100000_S100000x1_0 (mulf dv dv)

/-- A 128-wide layer before its activation, in the reference's grouping: (agg + h · dinv²) + b. -/
def layer128 (s d : (⟨S1600000, .i32⟩ : BufTy).Contents (Elt F)) (dv : (⟨S100000, .f32⟩ : BufTy).Contents (Elt F))
    (h : (⟨S100000x128, .f32⟩ : BufTy).Contents (Elt F)) (b : (⟨S128, .f32⟩ : BufTy).Contents (Elt F)) :
    (⟨S100000x128, .f32⟩ : BufTy).Contents (Elt F) :=
  addf (addf (agg128 s d dv h) (mulf h (broadcastInDim S100000x128 ![0, 1] bcast_S100000x1_S100000x128_0_1 (d2col dv))))
    (broadcastInDim S100000x128 ![0, 1] bcast_S1x128_S100000x128_0_1 (broadcastInDim S1x128 ![1] bcast_S128_S1x128_1 b))

/-- The 40-wide last layer, in the reference's grouping. -/
def layer40 (s d : (⟨S1600000, .i32⟩ : BufTy).Contents (Elt F)) (dv : (⟨S100000, .f32⟩ : BufTy).Contents (Elt F))
    (h : (⟨S100000x40, .f32⟩ : BufTy).Contents (Elt F)) (b : (⟨S40, .f32⟩ : BufTy).Contents (Elt F)) :
    (⟨S100000x40, .f32⟩ : BufTy).Contents (Elt F) :=
  addf (addf (agg40 s d dv h) (mulf h (broadcastInDim S100000x40 ![0, 1] bcast_S100000x1_S100000x40_0_1 (d2col dv))))
    (broadcastInDim S100000x40 ![0, 1] bcast_S1x40_S100000x40_0_1 (broadcastInDim S1x40 ![1] bcast_S40_S1x40_1 b))

/-- The positive part: the maximum with a zero splat. -/
def relu128 (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The three matrix products. -/
def dot1 (x : (⟨S100000x256, .f32⟩ : BufTy).Contents (Elt F)) (w : (⟨S256x128, .f32⟩ : BufTy).Contents (Elt F)) :
    (⟨S100000x128, .f32⟩ : BufTy).Contents (Elt F) :=
  Host.dotGeneral dot_S100000x256_S256x128_S100000x128_1_0_0_1_n_n none x w
def dot2 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w
def dot3 (x : (⟨S100000x128, .f32⟩ : BufTy).Contents (Elt F)) (w : (⟨S128x40, .f32⟩ : BufTy).Contents (Elt F)) :
    (⟨S100000x40, .f32⟩ : BufTy).Contents (Elt F) :=
  Host.dotGeneral dot_S100000x128_S128x40_S100000x40_1_0_0_1_n_n none x w

/-- The row maximum, as the host takes it: the reduction seeded with minus infinity, then once more the maximum with it. -/
def rowMax (x : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf x (constant S_ .f32 0xFF800000#32) reducesTo_S100000x40_S100000_d1 h_S_)

/-- Each entry minus its row's maximum. -/
def shifted (x : (⟨S100000x40, .f32⟩ : BufTy).Contents (Elt F)) : (⟨S100000x40, .f32⟩ : BufTy).Contents (Elt F) :=
  subf x (broadcastInDim S100000x40 ![0, 1] bcast_S100000x1_S100000x40_0_1 (broadcastInDim S100000x1 ![0] bcast_S100000_S100000x1_0 (rowMax x)))

/-- The row-wise log-softmax. -/
def logSoftmax (x : (⟨S100000x40, .f32⟩ : BufTy).Contents (Elt F)) : (⟨S100000x40, .f32⟩ : BufTy).Contents (Elt F) :=
  subf (shifted x) (broadcastInDim S100000x40 ![0, 1] bcast_S100000x1_S100000x40_0_1
    (Host.log (broadcastInDim S100000x1 ![0] bcast_S100000_S100000x1_0
      (Host.reduceAdd (Host.exp (shifted x)) (constant S_ .f32 0x00000000#32) reducesTo_S100000x40_S100000_d1 h_S_))))

/-- The first layer's output, activated. -/
def act1 (x : (⟨S100000x256, .f32⟩ : BufTy).Contents (Elt F)) (ei : (⟨S2x1600000, .i32⟩ : BufTy).Contents (Elt F))
    (w1 : (⟨S256x128, .f32⟩ : BufTy).Contents (Elt F)) (b1 : (⟨S128, .f32⟩ : BufTy).Contents (Elt F)) :
    (⟨S100000x128, .f32⟩ : BufTy).Contents (Elt F) :=
  relu128 (layer128 (src ei) (dst ei) (dinv (dst ei)) (dot1 x w1) b1)

/-- The second layer's output, activated. -/
def act2 (x : (⟨S100000x256, .f32⟩ : BufTy).Contents (Elt F)) (ei : (⟨S2x1600000, .i32⟩ : BufTy).Contents (Elt F))
    (w1 : (⟨S256x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  relu128 (layer128 (src ei) (dst ei) (dinv (dst ei)) (dot2 (act1 x ei w1 b1) w2) b2)

/-- The whole network. -/
def net (x : (⟨S100000x256, .f32⟩ : BufTy).Contents (Elt F)) (ei : (⟨S2x1600000, .i32⟩ : BufTy).Contents (Elt F))
    (w1 : (⟨S256x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x40, .f32⟩ : BufTy).Contents (Elt F)) (b3 : (⟨S40, .f32⟩ : BufTy).Contents (Elt F)) :
    (⟨S100000x40, .f32⟩ : BufTy).Contents (Elt F) :=
  logSoftmax (layer40 (src ei) (dst ei) (dinv (dst ei)) (dot3 (act2 x ei w1 b1 w2 b2) w3) b3)

end Cert.Gcn.RefNet

end
-- ==== Proof.LayerLaws1.lean ====
/-
  Layer 1, the two groupings joined. The kernel's dense region leaves the product h = X · W and the self-loop term
  h · d² + b, the host aggregates h over the edges, and the combine region adds the two and takes the positive part:
      agg + (h · d² + b).
  The reference adds the aggregation and the self-loop part first and the bias last:  (agg + h · d²) + b.
  Addition of extended reals is associative, so the two agree at every entry, for every input. The kernel passes d² and b
  as a reshaped column and row where the reference broadcasts them; both read the same entry.
-/
import proofs.«179274_j71734543778059_1_alg».proof.Proof.Dense1
import proofs.«179274_j71734543778059_1_alg».proof.Proof.Combine1
import proofs.«179274_j71734543778059_1_alg».proof.Proof.RefNet

noncomputable section

namespace Cert.Gcn.LayerLaws1

open Idealize.ShloMosaic Idealize.ShloMosaic.TcCoe
open Cert.ReferenceIdeal Cert.ReferenceIdeal.Gen

/-- A vector reshaped to a column is the vector broadcast along axis 0 into a column. -/
theorem col_eq (v : FVec Ideal S100000 .f32) (hD : S100000.ShapeCasts S100000x1) :
    shapeCast S100000x1 v hD = broadcastInDim S100000x1 ![0] bcast_S100000_S100000x1_0 v := by
  funext j
  have e1 : shapeCast S100000x1 v hD j = v (ValueIdx.ix1 (j 0)) :=
    shapeCast_apply v hD j (ValueIdx.ix1 (j 0)) (by
      have hlt : (j 1).val < 1 := (j 1).isLt
      have hu : (j 1).val = 0 := by omega
      rw [Shape.rowMajor_val_two, Shape.rowMajor_val_one]
      show (j 0).val = (j 0).val * 1 + (j 1).val
      omega)
  have e2 : broadcastInDim S100000x1 ![0] bcast_S100000_S100000x1_0 v j = v (ValueIdx.ix1 (j 0)) :=
    broadcastInDim_apply _ bcast_S100000_S100000x1_0 v j (ValueIdx.ix1 (j 0)) (fun a => by
      match a with
      | ⟨0, _⟩ => rfl)
  rw [e1, e2]

/-- A vector reshaped to a row is the vector broadcast along axis 1 into a row. -/
theorem row_eq (b : FVec Ideal S128 .f32) (hB : S128.ShapeCasts S1x128) :
    shapeCast S1x128 b hB = broadcastInDim S1x128 ![1] bcast_S128_S1x128_1 b := by
  funext j
  have e1 : shapeCast S1x128 b hB j = b (ValueIdx.ix1 (j 1)) :=
    shapeCast_apply b hB j (ValueIdx.ix1 (j 1)) (by
      have hlt : (j 0).val < 1 := (j 0).isLt
      have hu : (j 0).val = 0 := by omega
      rw [Shape.rowMajor_val_two, Shape.rowMajor_val_one]
      show (j 1).val = (j 0).val * 128 + (j 1).val
      omega)
  have e2 : broadcastInDim S1x128 ![1] bcast_S128_S1x128_1 b j = b (ValueIdx.ix1 (j 1)) :=
    broadcastInDim_apply _ bcast_S128_S1x128_1 b j (ValueIdx.ix1 (j 1)) (fun a => by
      match a with
      | ⟨0, _⟩ => rfl)
  rw [e1, e2]

/-- The self-loop term in the host's spelling: the product times the column broadcast over the columns, plus the row
    broadcast over the rows. -/
theorem selfTerm_eq (X : FVec Ideal S100000x256 .f32) (W : FVec Ideal S256x128 .f32) (D : FVec Ideal S100000x1 .f32) (B : FVec Ideal S1x128 .f32) :
    (Dense1.selfTerm X W D B : FVec Ideal S100000x128 .f32)
      = addf (mulf (Dense1.prod X W : FVec Ideal S100000x128 .f32) (broadcastInDim S100000x128 ![0, 1] bcast_S100000x1_S100000x128_0_1 D))
          (broadcastInDim S100000x128 ![0, 1] bcast_S1x128_S100000x128_0_1 B) := by
  funext i
  have e1 : broadcastInDim S100000x128 ![0, 1] bcast_S100000x1_S100000x128_0_1 D i = D (Dense1.arrCol i) :=
    broadcastInDim_apply _ bcast_S100000x1_S100000x128_0_1 D i (Dense1.arrCol i) (fun a => by
      match a with
      | ⟨0, _⟩ => rfl
      | ⟨1, _⟩ => rfl)
  have e2 : broadcastInDim S100000x128 ![0, 1] bcast_S1x128_S100000x128_0_1 B i = B (Dense1.arrRow i) :=
    broadcastInDim_apply _ bcast_S1x128_S100000x128_0_1 B i (Dense1.arrRow i) (fun a => by
      match a with
      | ⟨0, _⟩ => rfl
      | ⟨1, _⟩ => rfl)
  show Dense1.prod X W i * D (Dense1.arrCol i) + B (Dense1.arrRow i)
    = FloatOps.addf (FloatOps.mulf (Dense1.prod X W i) (broadcastInDim S100000x128 ![0, 1] bcast_S100000x1_S100000x128_0_1 D i))
        (broadcastInDim S100000x128 ![0, 1] bcast_S1x128_S100000x128_0_1 B i)
  rw [e1, e2]
  rfl

/-- Addition of arrays of extended reals is associative. -/
theorem add_assoc_arr (A P Q : FVec Ideal S100000x128 .f32) : addf A (addf P Q) = addf (addf A P) Q := by
  funext i
  show A i + (P i + Q i) = (A i + P i) + Q i
  exact (add_assoc _ _ _).symm

/-- THE LAYER: what the kernel's three segments leave is the reference's layer, activated. -/
theorem layer_eq (s d : (⟨S1600000, .i32⟩ : BufTy).Contents (Elt Ideal)) (dv : FVec Ideal S100000 .f32)
    (X : FVec Ideal S100000x256 .f32) (W : FVec Ideal S256x128 .f32) (b : FVec Ideal S128 .f32) (hD : S100000.ShapeCasts S100000x1) (hB : S128.ShapeCasts S1x128) :
    (Combine1.comb (Terms.agg128 (F := Ideal) s d dv (Dense1.prod X W))
        (Dense1.selfTerm X W (shapeCast S100000x1 (mulf dv dv) hD) (shapeCast S1x128 b hB)) : FVec Ideal S100000x128 .f32)
      = RefNet.relu128 (F := Ideal) (RefNet.layer128 (F := Ideal) s d dv (RefNet.dot1 (F := Ideal) X W) b) := by
  have hdot : RefNet.dot1 (F := Ideal) X W = (Dense1.prod X W : FVec Ideal S100000x128 .f32) := Dense1.hostProd_eq X W
  rw [hdot, ← Combine1.host_eq, selfTerm_eq, col_eq, row_eq, add_assoc_arr]
  rfl

end Cert.Gcn.LayerLaws1

end
-- ==== Proof.LayerLaws2.lean ====
/-
  Layer 2, the two groupings joined. The kernel's dense region leaves the product h = X · W and the self-loop term
  h · d² + b, the host aggregates h over the edges, and the combine region adds the two and takes the positive part:
      agg + (h · d² + b).
  The reference adds the aggregation and the self-loop part first and the bias last:  (agg + h · d²) + b.
  Addition of extended reals is associative, so the two agree at every entry, for every input. The kernel passes d² and b
  as a reshaped column and row where the reference broadcasts them; both read the same entry.
-/
import proofs.«179274_j71734543778059_1_alg».proof.Proof.Dense2
import proofs.«179274_j71734543778059_1_alg».proof.Proof.Combine2
import proofs.«179274_j71734543778059_1_alg».proof.Proof.RefNet

noncomputable section

namespace Cert.Gcn.LayerLaws2

open Idealize.ShloMosaic Idealize.ShloMosaic.TcCoe
open Cert.ReferenceIdeal Cert.ReferenceIdeal.Gen

/-- A vector reshaped to a column is the vector broadcast along axis 0 into a column. -/
theorem col_eq (v : FVec Ideal S100000 .f32) (hD : S100000.ShapeCasts S100000x1) :
    shapeCast S100000x1 v hD = broadcastInDim S100000x1 ![0] bcast_S100000_S100000x1_0 v := by
  funext j
  have e1 : shapeCast S100000x1 v hD j = v (ValueIdx.ix1 (j 0)) :=
    shapeCast_apply v hD j (ValueIdx.ix1 (j 0)) (by
      have hlt : (j 1).val < 1 := (j 1).isLt
      have hu : (j 1).val = 0 := by omega
      rw [Shape.rowMajor_val_two, Shape.rowMajor_val_one]
      show (j 0).val = (j 0).val * 1 + (j 1).val
      omega)
  have e2 : broadcastInDim S100000x1 ![0] bcast_S100000_S100000x1_0 v j = v (ValueIdx.ix1 (j 0)) :=
    broadcastInDim_apply _ bcast_S100000_S100000x1_0 v j (ValueIdx.ix1 (j 0)) (fun a => by
      match a with
      | ⟨0, _⟩ => rfl)
  rw [e1, e2]

/-- A vector reshaped to a row is the vector broadcast along axis 1 into a row. -/
theorem row_eq (b : FVec Ideal S128 .f32) (hB : S128.ShapeCasts S1x128) :
    shapeCast S1x128 b hB = broadcastInDim S1x128 ![1] bcast_S128_S1x128_1 b := by
  funext j
  have e1 : shapeCast S1x128 b hB j = b (ValueIdx.ix1 (j 1)) :=
    shapeCast_apply b hB j (ValueIdx.ix1 (j 1)) (by
      have hlt : (j 0).val < 1 := (j 0).isLt
      have hu : (j 0).val = 0 := by omega
      rw [Shape.rowMajor_val_two, Shape.rowMajor_val_one]
      show (j 1).val = (j 0).val * 128 + (j 1).val
      omega)
  have e2 : broadcastInDim S1x128 ![1] bcast_S128_S1x128_1 b j = b (ValueIdx.ix1 (j 1)) :=
    broadcastInDim_apply _ bcast_S128_S1x128_1 b j (ValueIdx.ix1 (j 1)) (fun a => by
      match a with
      | ⟨0, _⟩ => rfl)
  rw [e1, e2]

/-- The self-loop term in the host's spelling: the product times the column broadcast over the columns, plus the row
    broadcast over the rows. -/
theorem selfTerm_eq (X : FVec Ideal S100000x128 .f32) (W : FVec Ideal S128x128 .f32) (D : FVec Ideal S100000x1 .f32) (B : FVec Ideal S1x128 .f32) :
    (Dense2.selfTerm X W D B : FVec Ideal S100000x128 .f32)
      = addf (mulf (Dense2.prod X W : FVec Ideal S100000x128 .f32) (broadcastInDim S100000x128 ![0, 1] bcast_S100000x1_S100000x128_0_1 D))
          (broadcastInDim S100000x128 ![0, 1] bcast_S1x128_S100000x128_0_1 B) := by
  funext i
  have e1 : broadcastInDim S100000x128 ![0, 1] bcast_S100000x1_S100000x128_0_1 D i = D (Dense2.arrCol i) :=
    broadcastInDim_apply _ bcast_S100000x1_S100000x128_0_1 D i (Dense2.arrCol i) (fun a => by
      match a with
      | ⟨0, _⟩ => rfl
      | ⟨1, _⟩ => rfl)
  have e2 : broadcastInDim S100000x128 ![0, 1] bcast_S1x128_S100000x128_0_1 B i = B (Dense2.arrRow i) :=
    broadcastInDim_apply _ bcast_S1x128_S100000x128_0_1 B i (Dense2.arrRow i) (fun a => by
      match a with
      | ⟨0, _⟩ => rfl
      | ⟨1, _⟩ => rfl)
  show Dense2.prod X W i * D (Dense2.arrCol i) + B (Dense2.arrRow i)
    = FloatOps.addf (FloatOps.mulf (Dense2.prod X W i) (broadcastInDim S100000x128 ![0, 1] bcast_S100000x1_S100000x128_0_1 D i))
        (broadcastInDim S100000x128 ![0, 1] bcast_S1x128_S100000x128_0_1 B i)
  rw [e1, e2]
  rfl

/-- Addition of arrays of extended reals is associative. -/
theorem add_assoc_arr (A P Q : FVec Ideal S100000x128 .f32) : addf A (addf P Q) = addf (addf A P) Q := by
  funext i
  show A i + (P i + Q i) = (A i + P i) + Q i
  exact (add_assoc _ _ _).symm

/-- THE LAYER: what the kernel's three segments leave is the reference's layer, activated. -/
theorem layer_eq (s d : (⟨S1600000, .i32⟩ : BufTy).Contents (Elt Ideal)) (dv : FVec Ideal S100000 .f32)
    (X : FVec Ideal S100000x128 .f32) (W : FVec Ideal S128x128 .f32) (b : FVec Ideal S128 .f32) (hD : S100000.ShapeCasts S100000x1) (hB : S128.ShapeCasts S1x128) :
    (Combine2.comb (Terms.agg128 (F := Ideal) s d dv (Dense2.prod X W))
        (Dense2.selfTerm X W (shapeCast S100000x1 (mulf dv dv) hD) (shapeCast S1x128 b hB)) : FVec Ideal S100000x128 .f32)
      = RefNet.relu128 (F := Ideal) (RefNet.layer128 (F := Ideal) s d dv (RefNet.dot2 (F := Ideal) X W) b) := by
  have hdot : RefNet.dot2 (F := Ideal) X W = (Dense2.prod X W : FVec Ideal S100000x128 .f32) := Dense2.hostProd_eq X W
  rw [hdot, ← Combine2.host_eq, selfTerm_eq, col_eq, row_eq, add_assoc_arr]
  rfl

end Cert.Gcn.LayerLaws2

end
-- ==== Proof.LayerLaws3.lean ====
/-
  Layer 3, the two groupings joined. The kernel's dense region leaves the product h = X · W and the self-loop term
  h · d² + b, the host aggregates h over the edges, and the combine region adds the two:
      agg + (h · d² + b).
  The reference adds the aggregation and the self-loop part first and the bias last:  (agg + h · d²) + b.
  Addition of extended reals is associative, so the two agree at every entry, for every input. The kernel passes d² and b
  as a reshaped column and row where the reference broadcasts them; both read the same entry.
-/
import proofs.«179274_j71734543778059_1_alg».proof.Proof.Dense3
import proofs.«179274_j71734543778059_1_alg».proof.Proof.Combine3
import proofs.«179274_j71734543778059_1_alg».proof.Proof.RefNet

noncomputable section

namespace Cert.Gcn.LayerLaws3

open Idealize.ShloMosaic Idealize.ShloMosaic.TcCoe
open Cert.ReferenceIdeal Cert.ReferenceIdeal.Gen

/-- A vector reshaped to a column is the vector broadcast along axis 0 into a column. -/
theorem col_eq (v : FVec Ideal S100000 .f32) (hD : S100000.ShapeCasts S100000x1) :
    shapeCast S100000x1 v hD = broadcastInDim S100000x1 ![0] bcast_S100000_S100000x1_0 v := by
  funext j
  have e1 : shapeCast S100000x1 v hD j = v (ValueIdx.ix1 (j 0)) :=
    shapeCast_apply v hD j (ValueIdx.ix1 (j 0)) (by
      have hlt : (j 1).val < 1 := (j 1).isLt
      have hu : (j 1).val = 0 := by omega
      rw [Shape.rowMajor_val_two, Shape.rowMajor_val_one]
      show (j 0).val = (j 0).val * 1 + (j 1).val
      omega)
  have e2 : broadcastInDim S100000x1 ![0] bcast_S100000_S100000x1_0 v j = v (ValueIdx.ix1 (j 0)) :=
    broadcastInDim_apply _ bcast_S100000_S100000x1_0 v j (ValueIdx.ix1 (j 0)) (fun a => by
      match a with
      | ⟨0, _⟩ => rfl)
  rw [e1, e2]

/-- A vector reshaped to a row is the vector broadcast along axis 1 into a row. -/
theorem row_eq (b : FVec Ideal S40 .f32) (hB : S40.ShapeCasts S1x40) :
    shapeCast S1x40 b hB = broadcastInDim S1x40 ![1] bcast_S40_S1x40_1 b := by
  funext j
  have e1 : shapeCast S1x40 b hB j = b (ValueIdx.ix1 (j 1)) :=
    shapeCast_apply b hB j (ValueIdx.ix1 (j 1)) (by
      have hlt : (j 0).val < 1 := (j 0).isLt
      have hu : (j 0).val = 0 := by omega
      rw [Shape.rowMajor_val_two, Shape.rowMajor_val_one]
      show (j 1).val = (j 0).val * 40 + (j 1).val
      omega)
  have e2 : broadcastInDim S1x40 ![1] bcast_S40_S1x40_1 b j = b (ValueIdx.ix1 (j 1)) :=
    broadcastInDim_apply _ bcast_S40_S1x40_1 b j (ValueIdx.ix1 (j 1)) (fun a => by
      match a with
      | ⟨0, _⟩ => rfl)
  rw [e1, e2]

/-- The self-loop term in the host's spelling: the product times the column broadcast over the columns, plus the row
    broadcast over the rows. -/
theorem selfTerm_eq (X : FVec Ideal S100000x128 .f32) (W : FVec Ideal S128x40 .f32) (D : FVec Ideal S100000x1 .f32) (B : FVec Ideal S1x40 .f32) :
    (Dense3.selfTerm X W D B : FVec Ideal S100000x40 .f32)
      = addf (mulf (Dense3.prod X W : FVec Ideal S100000x40 .f32) (broadcastInDim S100000x40 ![0, 1] bcast_S100000x1_S100000x40_0_1 D))
          (broadcastInDim S100000x40 ![0, 1] bcast_S1x40_S100000x40_0_1 B) := by
  funext i
  have e1 : broadcastInDim S100000x40 ![0, 1] bcast_S100000x1_S100000x40_0_1 D i = D (Dense3.arrCol i) :=
    broadcastInDim_apply _ bcast_S100000x1_S100000x40_0_1 D i (Dense3.arrCol i) (fun a => by
      match a with
      | ⟨0, _⟩ => rfl
      | ⟨1, _⟩ => rfl)
  have e2 : broadcastInDim S100000x40 ![0, 1] bcast_S1x40_S100000x40_0_1 B i = B (Dense3.arrRow i) :=
    broadcastInDim_apply _ bcast_S1x40_S100000x40_0_1 B i (Dense3.arrRow i) (fun a => by
      match a with
      | ⟨0, _⟩ => rfl
      | ⟨1, _⟩ => rfl)
  show Dense3.prod X W i * D (Dense3.arrCol i) + B (Dense3.arrRow i)
    = FloatOps.addf (FloatOps.mulf (Dense3.prod X W i) (broadcastInDim S100000x40 ![0, 1] bcast_S100000x1_S100000x40_0_1 D i))
        (broadcastInDim S100000x40 ![0, 1] bcast_S1x40_S100000x40_0_1 B i)
  rw [e1, e2]
  rfl

/-- Addition of arrays of extended reals is associative. -/
theorem add_assoc_arr (A P Q : FVec Ideal S100000x40 .f32) : addf A (addf P Q) = addf (addf A P) Q := by
  funext i
  show A i + (P i + Q i) = (A i + P i) + Q i
  exact (add_assoc _ _ _).symm

/-- THE LAYER: what the kernel's three segments leave is the reference's layer. -/
theorem layer_eq (s d : (⟨S1600000, .i32⟩ : BufTy).Contents (Elt Ideal)) (dv : FVec Ideal S100000 .f32)
    (X : FVec Ideal S100000x128 .f32) (W : FVec Ideal S128x40 .f32) (b : FVec Ideal S40 .f32) (hD : S100000.ShapeCasts S100000x1) (hB : S40.ShapeCasts S1x40) :
    (Combine3.comb (Terms.agg40 (F := Ideal) s d dv (Dense3.prod X W))
        (Dense3.selfTerm X W (shapeCast S100000x1 (mulf dv dv) hD) (shapeCast S1x40 b hB)) : FVec Ideal S100000x40 .f32)
      = RefNet.layer40 (F := Ideal) s d dv (RefNet.dot3 (F := Ideal) X W) b := by
  have hdot : RefNet.dot3 (F := Ideal) X W = (Dense3.prod X W : FVec Ideal S100000x40 .f32) := Dense3.hostProd_eq X W
  rw [hdot, ← Combine3.host_eq, selfTerm_eq, col_eq, row_eq, add_assoc_arr]
  rfl

end Cert.Gcn.LayerLaws3

end
-- ==== Proof.NetEq.lean ====
/-
  The two networks are one function of the eight argument arrays. Layer by layer the kernel's three segments leave the
  reference's layer (the groupings  agg + (h · d² + b)  and  (agg + h · d²) + b  agree because addition of extended reals is
  associative), so the arrays entering the next layer agree, and the last region's row-wise log-softmax is the host's.
-/
import proofs.«179274_j71734543778059_1_alg».proof.Proof.Fold
import proofs.«179274_j71734543778059_1_alg».proof.Proof.LayerLaws1
import proofs.«179274_j71734543778059_1_alg».proof.Proof.LayerLaws2
import proofs.«179274_j71734543778059_1_alg».proof.Proof.LayerLaws3

noncomputable section

namespace Cert.Gcn.NetEq

open Idealize.ShloMosaic Idealize.ShloMosaic.TcCoe
open Cert.KernelIdeal Cert.KernelIdeal.Gen

variable (x : (⟨S100000x256, .f32⟩ : BufTy).Contents (Elt Ideal)) (ei : (⟨S2x1600000, .i32⟩ : BufTy).Contents (Elt Ideal))
  (w1 : (⟨S256x128, .f32⟩ : BufTy).Contents (Elt Ideal)) (b1 : (⟨S128, .f32⟩ : BufTy).Contents (Elt Ideal))
  (w2 : (⟨S128x128, .f32⟩ : BufTy).Contents (Elt Ideal)) (b2 : (⟨S128, .f32⟩ : BufTy).Contents (Elt Ideal))
  (w3 : (⟨S128x40, .f32⟩ : BufTy).Contents (Elt Ideal)) (b3 : (⟨S40, .f32⟩ : BufTy).Contents (Elt Ideal))

/-- Layer 1: the kernel's output is the reference's first activation. -/
theorem x2_eq : Fold.x2 x ei w1 b1 = RefNet.act1 (F := Ideal) x ei w1 b1 :=
  LayerLaws1.layer_eq (Terms.src ei) (Terms.dst ei) (Fold.dv ei) x w1 b1 shapeCasts_S100000_S100000x1 shapeCasts_S128_S1x128

/-- Layer 2. -/
theorem x3_eq : Fold.x3 x ei w1 b1 w2 b2 = RefNet.act2 (F := Ideal) x ei w1 b1 w2 b2 := by
  unfold Fold.x3 RefNet.act2
  rw [x2_eq]
  exact LayerLaws2.layer_eq (Terms.src ei) (Terms.dst ei) (Fold.dv ei) (RefNet.act1 (F := Ideal) x ei w1 b1) w2 b2
    shapeCasts_S100000_S100000x1 shapeCasts_S128_S1x128

/-- Layer 3. -/
theorem y_eq : Fold.y x ei w1 b1 w2 b2 w3 b3
    = RefNet.layer40 (F := Ideal) (Terms.src ei) (Terms.dst ei) (Terms.dinv (Terms.dst ei))
        (RefNet.dot3 (RefNet.act2 (F := Ideal) x ei w1 b1 w2 b2) w3) b3 := by
  unfold Fold.y
  rw [x3_eq]
  exact LayerLaws3.layer_eq (Terms.src ei) (Terms.dst ei) (Fold.dv ei) (RefNet.act2 (F := Ideal) x ei w1 b1 w2 b2) w3 b3
    shapeCasts_S100000_S100000x1 shapeCasts_S40_S1x40

/-- The whole network. -/
theorem out_eq : Fold.out x ei w1 b1 w2 b2 w3 b3 = RefNet.net (F := Ideal) x ei w1 b1 w2 b2 w3 b3 := by
  unfold Fold.out RefNet.net
  rw [y_eq, ← SoftmaxBlocks.host_eq]
  rfl

end Cert.Gcn.NetEq

end
-- ==== Proof.ReferenceValue.lean ====
/-
  The reference program's run, read back stretch by stretch. The program is a straight line of 167 host operations; the
  contents of a buffer after a list of operations is a fold over the list, and the fold over a concatenation is the fold
  over the second part started from the fold over the first. The list is cut into seven stretches (the edge rows, the
  degree normalisation and the first product; a layer; the positive part and the next product; a layer; the positive part
  and the last product; the last layer; the row-wise log-softmax). For each stretch, from ANY starting contents, the
  buffer a later stretch reads holds the named array of the buffers the stretch reads, and the buffers it does not write
  keep their contents. Chained from the launch contents, the result buffer holds the network's term of the eight
  argument arrays, and the arguments end as launched.
-/
import proofs.«179274_j71734543778059_1_alg».proof.Proof.ReferenceRunP
import proofs.«179274_j71734543778059_1_alg».proof.Proof.RefNet
import Idealize.ShloMosaic.Lib.StableHlo.Run

noncomputable section

namespace Cert.Gcn.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The contents after two lists of operations run one after the other: the second list's fold from the first's. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-! ## The seven stretches: the program's operations, in order -/

/-- Operations 0 to 14 of the program. The edge list's two rows, the degree normalisation and the first matrix product. -/
def s0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    binary main_arg0 main_arg2 main_v11 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- Operations 15 to 57 of the program. The first layer before its activation: the aggregation over the edges, the self term and the bias. -/
def s1 : List (HloOp τ sig (Elt F)) :=
  [ nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v10 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v10 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)),
    unary main_v26 main_v27 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v30 (broadcastInDim S1600000 ![] bcast_S_S1600000 : (⟨S_, .i32⟩ : BufTy).Contents (Elt F) → (⟨S1600000, .i32⟩ : BufTy).Contents (Elt F)),
    binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v11 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v27 main_v35 (broadcastInDim S1600000x128 ![0, 1] bcast_S1600000x1_S1600000x128_0_1 : (⟨S1600000x1, .f32⟩ : BufTy).Contents (Elt F) → (⟨S1600000x128, .f32⟩ : BufTy).Contents (Elt F)),
    binary main_v34 main_v35 main_v36 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v10 main_v10 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v11 main_v42 main_v43 (mulf : (⟨S100000x128, .f32⟩ : BufTy).Contents (Elt F) → (⟨S100000x128, .f32⟩ : BufTy).Contents (Elt F) → (⟨S100000x128, .f32⟩ : BufTy).Contents (Elt F)),
    binary main_v39 main_v43 main_v44 (addf : (⟨S100000x128, .f32⟩ : BufTy).Contents (Elt F) → (⟨S100000x128, .f32⟩ : BufTy).Contents (Elt F) → (⟨S100000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)) ]

/-- Operations 58 to 61 of the program. The first positive part and the second matrix product. -/
def s2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v47) (TRef.of (T := ⟨S100000x128, .f32⟩) main_call0_v0) (TRef.of (T := ⟨S100000x128, .f32⟩) main_v48) maximumf,
    binary main_v48 main_arg4 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 62 to 104 of the program. The second layer before its activation. -/
def s3 : List (HloOp τ sig (Elt F)) :=
  [ nullary main_c_8 (constantI S_ 32 0#32),
    unary main_c_8 main_v50 (broadcastInDim S1600000 ![] bcast_S_S1600000 : (⟨S_, .i32⟩ : BufTy).Contents (Elt F) → (⟨S1600000, .i32⟩ : BufTy).Contents (Elt F)),
    binary main_v1 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v52 (broadcastInDim S1600000 ![] bcast_S_S1600000 : (⟨S_, .i32⟩ : BufTy).Contents (Elt F) → (⟨S1600000, .i32⟩ : BufTy).Contents (Elt F)),
    binary main_v1 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v10 main_v55 main_v56 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_10 (constantI S_ 32 0#32),
    unary main_c_10 main_v57 (broadcastInDim S1600000 ![] bcast_S_S1600000 : (⟨S_, .i32⟩ : BufTy).Contents (Elt F) → (⟨S1600000, .i32⟩ : BufTy).Contents (Elt F)),
    binary main_v3 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v59 (broadcastInDim S1600000 ![] bcast_S_S1600000 : (⟨S_, .i32⟩ : BufTy).Contents (Elt F) → (⟨S1600000, .i32⟩ : BufTy).Contents (Elt F)),
    binary main_v3 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_v3 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v10 main_v62 main_v63 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v56 main_v63 main_v64 (mulf : (⟨S1600000, .f32⟩ : BufTy).Contents (Elt F) → (⟨S1600000, .f32⟩ : BufTy).Contents (Elt F) → (⟨S1600000, .f32⟩ : BufTy).Contents (Elt F)),
    unary main_v64 main_v65 (broadcastInDim S1600000x1 ![0] bcast_S1600000_S1600000x1_0 : (⟨S1600000, .f32⟩ : BufTy).Contents (Elt F) → (⟨S1600000x1, .f32⟩ : BufTy).Contents (Elt F)),
    nullary main_c_12 (constantI S_ 32 0#32),
    unary main_c_12 main_v66 (broadcastInDim S1600000 ![] bcast_S_S1600000 : (⟨S_, .i32⟩ : BufTy).Contents (Elt F) → (⟨S1600000, .i32⟩ : BufTy).Contents (Elt F)),
    binary main_v1 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v68 (broadcastInDim S1600000 ![] bcast_S_S1600000 : (⟨S_, .i32⟩ : BufTy).Contents (Elt F) → (⟨S1600000, .i32⟩ : BufTy).Contents (Elt F)),
    binary main_v1 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_v1 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v49 main_v71 main_v72 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v65 main_v73 (broadcastInDim S1600000x128 ![0, 1] bcast_S1600000x1_S1600000x128_0_1 : (⟨S1600000x1, .f32⟩ : BufTy).Contents (Elt F) → (⟨S1600000x128, .f32⟩ : BufTy).Contents (Elt F)),
    binary main_v72 main_v73 main_v74 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v75 (broadcastInDim S100000x128 ![] bcast_S_S100000x128 : (⟨S_, .f32⟩ : BufTy).Contents (Elt F) → (⟨S100000x128, .f32⟩ : BufTy).Contents (Elt F)),
    unary main_v3 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v10 main_v10 main_v78 (mulf : (⟨S100000, .f32⟩ : BufTy).Contents (Elt F) → (⟨S100000, .f32⟩ : BufTy).Contents (Elt F) → (⟨S100000, .f32⟩ : BufTy).Contents (Elt F)),
    unary main_v78 main_v79 (broadcastInDim S100000x1 ![0] bcast_S100000_S100000x1_0 : (⟨S100000, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v49 main_v80 main_v81 (mulf : (⟨S100000x128, .f32⟩ : BufTy).Contents (Elt F) → (⟨S100000x128, .f32⟩ : BufTy).Contents (Elt F) → (⟨S100000x128, .f32⟩ : BufTy).Contents (Elt F)),
    binary main_v77 main_v81 main_v82 (addf : (⟨S100000x128, .f32⟩ : BufTy).Contents (Elt F) → (⟨S100000x128, .f32⟩ : BufTy).Contents (Elt F) → (⟨S100000x128, .f32⟩ : BufTy).Contents (Elt F)),
    unary main_arg5 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)) ]

/-- Operations 105 to 108 of the program. The second positive part and the third matrix product. -/
def s4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v85) (TRef.of (T := ⟨S100000x128, .f32⟩) main_call1_v0) (TRef.of (T := ⟨S100000x128, .f32⟩) main_v86) maximumf,
    binary main_v86 main_arg6 main_v87 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- Operations 109 to 151 of the program. The third layer. -/
def s5 : List (HloOp τ sig (Elt F)) :=
  [ nullary main_c_15 (constantI S_ 32 0#32),
    unary main_c_15 main_v88 (broadcastInDim S1600000 ![] bcast_S_S1600000 : (⟨S_, .i32⟩ : BufTy).Contents (Elt F) → (⟨S1600000, .i32⟩ : BufTy).Contents (Elt F)),
    binary main_v1 main_v88 main_v89 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v90 (broadcastInDim S1600000 ![] bcast_S_S1600000 : (⟨S_, .i32⟩ : BufTy).Contents (Elt F) → (⟨S1600000, .i32⟩ : BufTy).Contents (Elt F)),
    binary main_v1 main_v90 main_v91 (addi : (⟨S1600000, .i32⟩ : BufTy).Contents (Elt F) → (⟨S1600000, .i32⟩ : BufTy).Contents (Elt F) → (⟨S1600000, .i32⟩ : BufTy).Contents (Elt F)),
    ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v92 main_v93 (broadcastInDim S1600000x1 ![0] bcast_S1600000_S1600000x1_0 : (⟨S1600000, .i32⟩ : BufTy).Contents (Elt F) → (⟨S1600000x1, .i32⟩ : BufTy).Contents (Elt F)),
    binary main_v10 main_v93 main_v94 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_17 (constantI S_ 32 0#32),
    unary main_c_17 main_v95 (broadcastInDim S1600000 ![] bcast_S_S1600000 : (⟨S_, .i32⟩ : BufTy).Contents (Elt F) → (⟨S1600000, .i32⟩ : BufTy).Contents (Elt F)),
    binary main_v3 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v97 (broadcastInDim S1600000 ![] bcast_S_S1600000 : (⟨S_, .i32⟩ : BufTy).Contents (Elt F) → (⟨S1600000, .i32⟩ : BufTy).Contents (Elt F)),
    binary main_v3 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v3 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v10 main_v100 main_v101 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v94 main_v101 main_v102 (mulf : (⟨S1600000, .f32⟩ : BufTy).Contents (Elt F) → (⟨S1600000, .f32⟩ : BufTy).Contents (Elt F) → (⟨S1600000, .f32⟩ : BufTy).Contents (Elt F)),
    unary main_v102 main_v103 (broadcastInDim S1600000x1 ![0] bcast_S1600000_S1600000x1_0 : (⟨S1600000, .f32⟩ : BufTy).Contents (Elt F) → (⟨S1600000x1, .f32⟩ : BufTy).Contents (Elt F)),
    nullary main_c_19 (constantI S_ 32 0#32),
    unary main_c_19 main_v104 (broadcastInDim S1600000 ![] bcast_S_S1600000 : (⟨S_, .i32⟩ : BufTy).Contents (Elt F) → (⟨S1600000, .i32⟩ : BufTy).Contents (Elt F)),
    binary main_v1 main_v104 main_v105 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v106 (broadcastInDim S1600000 ![] bcast_S_S1600000 : (⟨S_, .i32⟩ : BufTy).Contents (Elt F) → (⟨S1600000, .i32⟩ : BufTy).Contents (Elt F)),
    binary main_v1 main_v106 main_v107 (addi : (⟨S1600000, .i32⟩ : BufTy).Contents (Elt F) → (⟨S1600000, .i32⟩ : BufTy).Contents (Elt F) → (⟨S1600000, .i32⟩ : BufTy).Contents (Elt F)),
    ternary main_v105 main_v107 main_v1 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v108 main_v109 (broadcastInDim S1600000x1 ![0] bcast_S1600000_S1600000x1_0 : (⟨S1600000, .i32⟩ : BufTy).Contents (Elt F) → (⟨S1600000x1, .i32⟩ : BufTy).Contents (Elt F)),
    binary main_v87 main_v109 main_v110 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v103 main_v111 (broadcastInDim S1600000x40 ![0, 1] bcast_S1600000x1_S1600000x40_0_1 : (⟨S1600000x1, .f32⟩ : BufTy).Contents (Elt F) → (⟨S1600000x40, .f32⟩ : BufTy).Contents (Elt F)),
    binary main_v110 main_v111 main_v112 (mulf : (⟨S1600000x40, .f32⟩ : BufTy).Contents (Elt F) → (⟨S1600000x40, .f32⟩ : BufTy).Contents (Elt F) → (⟨S1600000x40, .f32⟩ : BufTy).Contents (Elt F)),
    nullary main_cst_21 (constant S_ .f32 0x00000000#32),
    unary main_cst_21 main_v113 (broadcastInDim S100000x40 ![] bcast_S_S100000x40 : (⟨S_, .f32⟩ : BufTy).Contents (Elt F) → (⟨S100000x40, .f32⟩ : BufTy).Contents (Elt F)),
    unary main_v3 main_v114 (broadcastInDim S1600000x1 ![0] bcast_S1600000_S1600000x1_0 : (⟨S1600000, .i32⟩ : BufTy).Contents (Elt F) → (⟨S1600000x1, .i32⟩ : BufTy).Contents (Elt F)),
    ternary main_v113 main_v114 main_v112 main_v115 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    binary main_v10 main_v10 main_v116 (mulf : (⟨S100000, .f32⟩ : BufTy).Contents (Elt F) → (⟨S100000, .f32⟩ : BufTy).Contents (Elt F) → (⟨S100000, .f32⟩ : BufTy).Contents (Elt F)),
    unary main_v116 main_v117 (broadcastInDim S100000x1 ![0] bcast_S100000_S100000x1_0 : (⟨S100000, .f32⟩ : BufTy).Contents (Elt F) → (⟨S100000x1, .f32⟩ : BufTy).Contents (Elt F)),
    unary main_v117 main_v118 (broadcastInDim S100000x40 ![0, 1] bcast_S100000x1_S100000x40_0_1 : (⟨S100000x1, .f32⟩ : BufTy).Contents (Elt F) → (⟨S100000x40, .f32⟩ : BufTy).Contents (Elt F)),
    binary main_v87 main_v118 main_v119 (mulf : (⟨S100000x40, .f32⟩ : BufTy).Contents (Elt F) → (⟨S100000x40, .f32⟩ : BufTy).Contents (Elt F) → (⟨S100000x40, .f32⟩ : BufTy).Contents (Elt F)),
    binary main_v115 main_v119 main_v120 (addf : (⟨S100000x40, .f32⟩ : BufTy).Contents (Elt F) → (⟨S100000x40, .f32⟩ : BufTy).Contents (Elt F) → (⟨S100000x40, .f32⟩ : BufTy).Contents (Elt F)),
    unary main_arg7 main_v121 (broadcastInDim S1x40 ![1] bcast_S40_S1x40_1 : (⟨S40, .f32⟩ : BufTy).Contents (Elt F) → (⟨S1x40, .f32⟩ : BufTy).Contents (Elt F)),
    unary main_v121 main_v122 (broadcastInDim S100000x40 ![0, 1] bcast_S1x40_S100000x40_0_1 : (⟨S1x40, .f32⟩ : BufTy).Contents (Elt F) → (⟨S100000x40, .f32⟩ : BufTy).Contents (Elt F)),
    binary main_v120 main_v122 main_v123 (addf : (⟨S100000x40, .f32⟩ : BufTy).Contents (Elt F) → (⟨S100000x40, .f32⟩ : BufTy).Contents (Elt F) → (⟨S100000x40, .f32⟩ : BufTy).Contents (Elt F)) ]

/-- Operations 152 to 166 of the program. The row-wise log-softmax. -/
def s6 : List (HloOp τ sig (Elt F)) :=
  [ TRef.nullary (TRef.of (T := ⟨S_, .f32⟩) main_call2_cst) (constant S_ .f32 0xFF800000#32),
    TRef.binary (TRef.of (T := ⟨S100000x40, .f32⟩) main_v123) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v123) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v124) subf ]

set_option maxRecDepth 8192 in
/-- The program's operation list is the seven stretches in order. -/
theorem ops_eq : (ops : List (HloOp τ sig (Elt F))) = s0 ++ (s1 ++ (s2 ++ (s3 ++ (s4 ++ (s5 ++ s6))))) := rfl

/-! ## What each stretch leaves, from any starting contents -/

/-- Contents moved to a buffer's own type and back to the value's type are unchanged. -/
theorem ofBuf_toBuf {sig : RefSig} {T : BufTy} {Val : EltTy → Type} (x : TRef sig T) (v : T.Contents Val) :
    x.ofBuf (x.toBuf v) = v := by
  obtain ⟨r, rfl, _, _⟩ := x
  rfl

/-- After the first stretch the source row holds row 0 of the edge list. -/
theorem s0_v1 (V : Valuation τ sig (Elt F)) :
    after s0 V (Proc.devRef .tc main_v1) = Cert.Gcn.Terms.src (V (Proc.devRef .tc main_arg1)) := by
  unfold s0
  after_results_simp <;> rfl
/-- After the first stretch the destination row holds row 1 of the edge list. -/
theorem s0_v3 (V : Valuation τ sig (Elt F)) :
    after s0 V (Proc.devRef .tc main_v3) = Cert.Gcn.Terms.dst (V (Proc.devRef .tc main_arg1)) := by
  unfold s0
  after_results_simp <;> rfl
/-- After the first stretch the normalisation buffer holds the degree normalisation of the destination row. -/
theorem s0_v10 (V : Valuation τ sig (Elt F)) :
    after s0 V (Proc.devRef .tc main_v10) = Cert.Gcn.Terms.dinv (Cert.Gcn.Terms.dst (V (Proc.devRef .tc main_arg1))) := by
  unfold s0
  after_results_simp <;> rfl
/-- After the first stretch the first product buffer holds the features times the first weights. -/
theorem s0_v11 (V : Valuation τ sig (Elt F)) :
    after s0 V (Proc.devRef .tc main_v11) = Cert.Gcn.RefNet.dot1 (V (Proc.devRef .tc main_arg0)) (V (Proc.devRef .tc main_arg2)) := by
  unfold s0
  after_results_simp <;> rfl
/-- After the second stretch the first layer's buffer holds the layer of the first product. -/
theorem s1_v47 (V : Valuation τ sig (Elt F)) :
    after s1 V (Proc.devRef .tc main_v47) = Cert.Gcn.RefNet.layer128 (V (Proc.devRef .tc main_v1)) (V (Proc.devRef .tc main_v3)) (V (Proc.devRef .tc main_v10)) (V (Proc.devRef .tc main_v11)) (V (Proc.devRef .tc main_arg3)) := by
  unfold s1
  after_results_simp <;> rfl
/-- After the third stretch the second product buffer holds the positive part of the first layer times the second weights. -/
theorem s2_v49 (V : Valuation τ sig (Elt F)) :
    after s2 V (Proc.devRef .tc main_v49) = Cert.Gcn.RefNet.dot2 (Cert.Gcn.RefNet.relu128 (V (Proc.devRef .tc main_v47))) (V (Proc.devRef .tc main_arg4)) := by
  unfold s2
  after_results_simp <;> rfl
/-- After the fourth stretch the second layer's buffer holds the layer of the second product. -/
theorem s3_v85 (V : Valuation τ sig (Elt F)) :
    after s3 V (Proc.devRef .tc main_v85) = Cert.Gcn.RefNet.layer128 (V (Proc.devRef .tc main_v1)) (V (Proc.devRef .tc main_v3)) (V (Proc.devRef .tc main_v10)) (V (Proc.devRef .tc main_v49)) (V (Proc.devRef .tc main_arg5)) := by
  unfold s3
  after_results_simp <;> rfl
/-- After the fifth stretch the third product buffer holds the positive part of the second layer times the third weights. -/
theorem s4_v87 (V : Valuation τ sig (Elt F)) :
    after s4 V (Proc.devRef .tc main_v87) = Cert.Gcn.RefNet.dot3 (Cert.Gcn.RefNet.relu128 (V (Proc.devRef .tc main_v85))) (V (Proc.devRef .tc main_arg6)) := by
  unfold s4
  after_results_simp <;> rfl
/-- After the sixth stretch the third layer's buffer holds the layer of the third product. -/
theorem s5_v123 (V : Valuation τ sig (Elt F)) :
    after s5 V (Proc.devRef .tc main_v123) = Cert.Gcn.RefNet.layer40 (V (Proc.devRef .tc main_v1)) (V (Proc.devRef .tc main_v3)) (V (Proc.devRef .tc main_v10)) (V (Proc.devRef .tc main_v87)) (V (Proc.devRef .tc main_arg7)) := by
  unfold s5
  after_results_simp <;> rfl
/-- After the last stretch the result buffer holds the row-wise log-softmax of the third layer. The contents are moved
between a buffer's own type and the value's type by transports along equal types; a transport there and back is the
identity, and the two outermost ones are the identity because the two types are one type. -/
theorem s6_v124 (V : Valuation τ sig (Elt F)) :
    after s6 V (Proc.devRef .tc main_v124) = Cert.Gcn.RefNet.logSoftmax (V (Proc.devRef .tc main_v123)) := by
  have hX : (TRef.of (T := ⟨S100000x40, .f32⟩) main_v123).ofBuf (V (Proc.devRef .tc main_v123)) = V (Proc.devRef .tc main_v123) := rfl
  unfold s6
  after_results_simp
  simp only [ofBuf_toBuf, hX]
  refine cast_eq_iff_heq.mpr (heq_of_eq ?_)
  rfl

/-! ## What each stretch leaves alone -/

set_option maxHeartbeats 2000000 in
/-- Stretch 0 writes none of these buffers: each keeps its contents. -/
theorem s0_keeps (V : Valuation τ sig (Elt F)) (r : Ref sig .tc)
    (hr : r ∈ [main_arg0, main_arg1, main_arg2, main_arg3, main_arg4, main_arg5, main_arg6, main_arg7]) :
    after s0 V (Proc.devRef .tc r) = V (Proc.devRef .tc r) := by
  simp only [List.mem_cons, List.not_mem_nil, or_false] at hr
  rcases hr with rfl | rfl | rfl | rfl | rfl | rfl | rfl | rfl
  all_goals (unfold s0; after_results_simp)

set_option maxHeartbeats 2000000 in
/-- Stretch 1 writes none of these buffers: each keeps its contents. -/
theorem s1_keeps (V : Valuation τ sig (Elt F)) (r : Ref sig .tc)
    (hr : r ∈ [main_arg0, main_arg1, main_arg2, main_arg3, main_arg4, main_arg5, main_arg6, main_arg7, main_v1, main_v3, main_v10]) :
    after s1 V (Proc.devRef .tc r) = V (Proc.devRef .tc r) := by
  simp only [List.mem_cons, List.not_mem_nil, or_false] at hr
  rcases hr with rfl | rfl | rfl | rfl | rfl | rfl | rfl | rfl | rfl | rfl | rfl
  all_goals (unfold s1; after_results_simp)

set_option maxHeartbeats 2000000 in
/-- Stretch 2 writes none of these buffers: each keeps its contents. -/
theorem s2_keeps (V : Valuation τ sig (Elt F)) (r : Ref sig .tc)
    (hr : r ∈ [main_arg0, main_arg1, main_arg2, main_arg3, main_arg4, main_arg5, main_arg6, main_arg7, main_v1, main_v3, main_v10]) :
    after s2 V (Proc.devRef .tc r) = V (Proc.devRef .tc r) := by
  simp only [List.mem_cons, List.not_mem_nil, or_false] at hr
  rcases hr with rfl | rfl | rfl | rfl | rfl | rfl | rfl | rfl | rfl | rfl | rfl
  all_goals (unfold s2; after_results_simp)

set_option maxHeartbeats 2000000 in
/-- Stretch 3 writes none of these buffers: each keeps its contents. -/
theorem s3_keeps (V : Valuation τ sig (Elt F)) (r : Ref sig .tc)
    (hr : r ∈ [main_arg0, main_arg1, main_arg2, main_arg3, main_arg4, main_arg5, main_arg6, main_arg7, main_v1, main_v3, main_v10]) :
    after s3 V (Proc.devRef .tc r) = V (Proc.devRef .tc r) := by
  simp only [List.mem_cons, List.not_mem_nil, or_false] at hr
  rcases hr with rfl | rfl | rfl | rfl | rfl | rfl | rfl | rfl | rfl | rfl | rfl
  all_goals (unfold s3; after_results_simp)

set_option maxHeartbeats 2000000 in
/-- Stretch 4 writes none of these buffers: each keeps its contents. -/
theorem s4_keeps (V : Valuation τ sig (Elt F)) (r : Ref sig .tc)
    (hr : r ∈ [main_arg0, main_arg1, main_arg2, main_arg3, main_arg4, main_arg5, main_arg6, main_arg7, main_v1, main_v3, main_v10]) :
    after s4 V (Proc.devRef .tc r) = V (Proc.devRef .tc r) := by
  simp only [List.mem_cons, List.not_mem_nil, or_false] at hr
  rcases hr with rfl | rfl | rfl | rfl | rfl | rfl | rfl | rfl | rfl | rfl | rfl
  all_goals (unfold s4; after_results_simp)

set_option maxHeartbeats 2000000 in
/-- Stretch 5 writes none of these buffers: each keeps its contents. -/
theorem s5_keeps (V : Valuation τ sig (Elt F)) (r : Ref sig .tc)
    (hr : r ∈ [main_arg0, main_arg1, main_arg2, main_arg3, main_arg4, main_arg5, main_arg6, main_arg7]) :
    after s5 V (Proc.devRef .tc r) = V (Proc.devRef .tc r) := by
  simp only [List.mem_cons, List.not_mem_nil, or_false] at hr
  rcases hr with rfl | rfl | rfl | rfl | rfl | rfl | rfl | rfl
  all_goals (unfold s5; after_results_simp)

set_option maxHeartbeats 2000000 in
/-- Stretch 6 writes none of these buffers: each keeps its contents. -/
theorem s6_keeps (V : Valuation τ sig (Elt F)) (r : Ref sig .tc)
    (hr : r ∈ [main_arg0, main_arg1, main_arg2, main_arg3, main_arg4, main_arg5, main_arg6, main_arg7]) :
    after s6 V (Proc.devRef .tc r) = V (Proc.devRef .tc r) := by
  simp only [List.mem_cons, List.not_mem_nil, or_false] at hr
  rcases hr with rfl | rfl | rfl | rfl | rfl | rfl | rfl | rfl
  all_goals (unfold s6; after_results_simp)

/-! ## The whole program -/

/-- From any starting contents, after all 167 operations the result buffer holds the network's term of the eight
argument buffers' starting contents. -/
theorem after_ops_v124 (V : Valuation τ sig (Elt F)) :
    after ops V (Proc.devRef .tc main_v124)
      = Cert.Gcn.RefNet.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_eq]
  simp only [after_append]
  rw [s6_v124, s5_v123,
    s4_v87, s4_keeps _ main_v1 (by decide), s4_keeps _ main_v3 (by decide), s4_keeps _ main_v10 (by decide), s4_keeps _ main_arg7 (by decide),
    s3_v85, s3_keeps _ main_v1 (by decide), s3_keeps _ main_v3 (by decide), s3_keeps _ main_v10 (by decide), s3_keeps _ main_arg6 (by decide), s3_keeps _ main_arg7 (by decide),
    s2_v49, s2_keeps _ main_v1 (by decide), s2_keeps _ main_v3 (by decide), s2_keeps _ main_v10 (by decide), s2_keeps _ main_arg5 (by decide), s2_keeps _ main_arg6 (by decide), s2_keeps _ main_arg7 (by decide),
    s1_v47, s1_keeps _ main_v1 (by decide), s1_keeps _ main_v3 (by decide), s1_keeps _ main_v10 (by decide), s1_keeps _ main_arg4 (by decide), s1_keeps _ main_arg5 (by decide), s1_keeps _ main_arg6 (by decide), s1_keeps _ main_arg7 (by decide),
    s0_v1, s0_v3, s0_v10, s0_v11, s0_keeps _ main_arg3 (by decide), s0_keeps _ main_arg4 (by decide), s0_keeps _ main_arg5 (by decide), s0_keeps _ main_arg6 (by decide), s0_keeps _ main_arg7 (by decide)]
  rfl

/-- No operation writes an argument: from any starting contents, after all 167 operations each argument buffer holds
what it held. -/
theorem after_ops_arg (V : Valuation τ sig (Elt F)) (r : Ref sig .tc)
    (hr : r ∈ [main_arg0, main_arg1, main_arg2, main_arg3, main_arg4, main_arg5, main_arg6, main_arg7]) :
    after ops V (Proc.devRef .tc r) = V (Proc.devRef .tc r) := by
  rw [ops_eq]
  simp only [after_append]
  rw [s6_keeps _ r hr, s5_keeps _ r hr, s4_keeps _ r (List.mem_append_left [main_v1, main_v3, main_v10] hr), s3_keeps _ r (List.mem_append_left [main_v1, main_v3, main_v10] hr),
    s2_keeps _ r (List.mem_append_left [main_v1, main_v3, main_v10] hr), s1_keeps _ r (List.mem_append_left [main_v1, main_v3, main_v10] hr), s0_keeps _ r hr]

/-- On every device, for any float values, from any memory with zero counters: every weakly fair execution of the
reference program terminates with the result buffer at the network's term of the argument arrays as launched, and the
arguments unchanged. -/
theorem runF (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124)
          = Cert.Gcn.RefNet.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v124).trans (after_ops_v124 (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide)),
      (h c main_arg5).trans (after_ops_arg (launchContents m c) main_arg5 (by decide)),
      (h c main_arg6).trans (after_ops_arg (launchContents m c) main_arg6 (by decide)),
      (h c main_arg7).trans (after_ops_arg (launchContents m c) main_arg7 (by decide))⟩)
    (run_seq scopedRefs_eq scopedSems_eq defs main (fun _ => ops) main_eq (fun _ => ops_sub) m ρ)

/-- The same at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v124)
          = Cert.Gcn.RefNet.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  runF (F := Ideal) m ρ

end Cert.Gcn.RefRun

end
-- ==== Proof.lean ====
/-
  A three-layer graph convolution network with a row-wise log-softmax, computed by a program of seven pipelined
  TensorCore regions among host operations, against its plain host reference, over the extended reals.

  Each layer of the kernel is three segments: a dense region (the product h = X · W on the matrix unit, block by block of
  2000 rows, and the self-loop term h · d² + b), the host's gather / scale / scatter-add of h over the edge list, and a
  combine region (their sum, with the positive part in the first two layers). The reference forms the same product in one
  host matrix product, the same aggregation, and adds in another order: (agg + h · d²) + b. A last region takes the
  log-softmax of each row.

  Over the extended reals a change of float format is the identity, a blocked matrix product and a whole one are the same
  finite sums, and addition is associative — at infinite entries too — so the two programs compute one function of their
  argument arrays and no finiteness of the inputs is used. The frames of the two kernel programs are the generated
  certificates; the reference's frame is its run with the result dropped; the idealization rewrote nothing.
-/
import proofs.«179274_j71734543778059_1_alg».proof.Defs
import proofs.«179274_j71734543778059_1_alg».proof.Proof.Gen.Kernel
import proofs.«179274_j71734543778059_1_alg».proof.Proof.Gen.Kernel.Skeleton
import proofs.«179274_j71734543778059_1_alg».proof.Proof.Gen.Kernel.Launch
import proofs.«179274_j71734543778059_1_alg».proof.Proof.Gen.Kernel.Points
import proofs.«179274_j71734543778059_1_alg».proof.Proof.Gen.Kernel.Frame
import proofs.«179274_j71734543778059_1_alg».proof.Proof.Gen.KernelIdeal
import proofs.«179274_j71734543778059_1_alg».proof.Proof.Gen.KernelIdeal.Skeleton
import proofs.«179274_j71734543778059_1_alg».proof.Proof.Gen.KernelIdeal.Launch
import proofs.«179274_j71734543778059_1_alg».proof.Proof.Gen.KernelIdeal.Points
import proofs.«179274_j71734543778059_1_alg».proof.Proof.Gen.KernelIdeal.Frame
import proofs.«179274_j71734543778059_1_alg».proof.Proof.Gen.ReferenceIdeal
import proofs.«179274_j71734543778059_1_alg».proof.Proof.Gen.Pre_finite_inputs
import proofs.«179274_j71734543778059_1_alg».proof.Proof.KernelRun
import proofs.«179274_j71734543778059_1_alg».proof.Proof.Fold
import proofs.«179274_j71734543778059_1_alg».proof.Proof.NetEq
import proofs.«179274_j71734543778059_1_alg».proof.Proof.ReferenceValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.Gcn.RefRun.run m ρ)

/-- Both programs end with the one network of the argument arrays in their result buffers. -/
theorem algebraic : Cert.algebraic_KernelIdeal_ReferenceIdeal := by
  intro m ρ m' ρ' _ hagree
  refine ⟨fun c => Cert.Gcn.Fold.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Gcn.Fold.w13_out m ρ c), (h c).2⟩)
      (Cert.Gcn.Run.run_result (F := Ideal) m ρ)
  · refine (θ_run Cert.ReferenceIdeal.defs _ _).mono (fun _ h c => ⟨(h c).1.trans ?_, (h c).2⟩) (Cert.Gcn.RefRun.run m' ρ')
    obtain ⟨e0, e1, e2, e3, e4, e5, e6, e7⟩ := hagree c
    rw [e0, e1, e2, e3, e4, e5, e6, e7]
    exact (Cert.Gcn.NetEq.out_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
